-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x1600000 : Shape := ⟨2, ![2, 1600000]⟩
abbrev S1x64 : Shape := ⟨2, ![1, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part2 {F : FTy → Type} [FloatOps F] (main_arg1 : IVec S2x1600000 32) (main_v33 : IVec S_ 1) : IVec S_ 1 :=
  let main_c_12 : IVec S_ 32 := constantI S_ 32 0#32
  let main_v34 : IVec S2x1600000 32 := broadcastInDim S2x1600000 ![] bcast_S_S2x1600000 main_c_12
  let main_v35 : IVec S2x1600000 1 := cmpi .sge main_arg1 main_v34
  let main_c_13 : IVec S_ 1 := constantI S_ 1 1#1
  let main_v36 : IVec S_ 1 := (fun x v => Host.reduce IntOp.andi x v reducesTo_S2x1600000_S_d0_1 h_S_) main_v35 main_c_13
  let main_v37 : IVec S_ 1 := andi main_v33 main_v36
  let main_c_14 : IVec S_ 32 := constantI S_ 32 100000#32
  let main_v38 : IVec S2x1600000 32 := broadcastInDim S2x1600000 ![] bcast_S_S2x1600000 main_c_14
  let main_v39 : IVec S2x1600000 1 := cmpi .slt main_arg1 main_v38
  let main_c_15 : IVec S_ 1 := constantI S_ 1 1#1
  let main_v40 : IVec S_ 1 := (fun x v => Host.reduce IntOp.andi x v reducesTo_S2x1600000_S_d0_1 h_S_) main_v39 main_c_15
  let main_v41 : IVec S_ 1 := andi main_v37 main_v40
  main_v41

def fn_part1 {F : FTy → Type} [FloatOps F] (main_arg1 : IVec S2x1600000 32) (main_arg5 : FVec F S64 .f32) (main_arg6 : FVec F S64x1 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_v33

def fn {F : FTy → Type} [FloatOps F] (main_arg0 : FVec F S100000x1 .f32) (main_arg1 : IVec S2x1600000 32) (main_arg2 : FVec F S1x64 .f32) (main_arg3 : FVec F S64 .f32) (main_arg4 : FVec F S64x64 .f32) (main_arg5 : FVec F S64 .f32) (main_arg6 : FVec F S64x1 .f32) (main_arg7 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x64 .f32 := Host.absf main_arg2
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_v13 main_v16
-- ==== Kernel.lean ====
abbrev S100000x1 : Shape := ⟨2, ![100000, 1]⟩
abbrev S2x1600000 : Shape := ⟨2, ![2, 1600000]⟩
abbrev S1x64 : Shape := ⟨2, ![1, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S102400 : Shape := ⟨1, ![102400]⟩
abbrev S1700000x1 : Shape := ⟨2, ![1700000, 1]⟩
abbrev S102400x1 : Shape := ⟨2, ![102400, 1]⟩
abbrev S102400x64 : Shape := ⟨2, ![102400, 64]⟩
abbrev S4096x1 : Shape := ⟨2, ![4096, 1]⟩
abbrev S4096x64 : Shape := ⟨2, ![4096, 64]⟩
abbrev S1700000x64 : Shape := ⟨2, ![1700000, 64]⟩
abbrev S1x1 : Shape := ⟨2, ![1, 1]⟩

abbrev nBuf : Space → Nat
  | .hbm => 70
  | .vmem => 18
  | .smem => 0
  | _ => 0

abbrev bufTy : (tb : Table) → Fin (tcTables nBuf tb) → BufTy
  | .hbm, ⟨0, _⟩ => ⟨S100000x1, .f32⟩
  | .hbm, ⟨1, _⟩ => ⟨S2x1600000, .i32⟩
  | .hbm, ⟨2, _⟩ => ⟨S1x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S102400, .f32⟩
  | .hbm, ⟨19, _⟩ => ⟨S1700000x1, .i32⟩
  | .hbm, ⟨20, _⟩ => ⟨S102400, .f32⟩
  | .hbm, ⟨21, _⟩ => ⟨S_, .f32⟩
  | .hbm, ⟨22, _⟩ => ⟨S102400, .f32⟩
  | .hbm, ⟨23, _⟩ => ⟨S102400, .i1⟩
  | .hbm, ⟨24, _⟩ => ⟨S102400, .f32⟩
  | .hbm, ⟨25, _⟩ => ⟨S_, .f32⟩
  | .hbm, ⟨26, _⟩ => ⟨S_, .f32⟩
  | .hbm, ⟨27, _⟩ => ⟨S102400, .f32⟩
  | .hbm, ⟨28, _⟩ => ⟨S102400, .f32⟩
  | .hbm, ⟨29, _⟩ => ⟨S_, .i32⟩
  | .hbm, ⟨30, _⟩ => ⟨S_, .f32⟩
  | .hbm, ⟨31, _⟩ => ⟨S102400x1, .f32⟩
  | .hbm, ⟨32, _⟩ => ⟨S102400, .f32⟩
  | .hbm, ⟨33, _⟩ => ⟨S102400, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .f32⟩
  | .hbm, ⟨44, _⟩ => ⟨S102400, .f32⟩
  | .hbm, ⟨45, _⟩ => ⟨S1700000x1, .i32⟩
  | .hbm, ⟨46, _⟩ => ⟨S102400, .f32⟩
  | .hbm, ⟨47, _⟩ => ⟨S102400, .f32⟩
  | .hbm, ⟨48, _⟩ => ⟨S102400x1, .f32⟩
  | .hbm, ⟨49, _⟩ => ⟨S102400x1, .f32⟩
  | .hbm, ⟨50, _⟩ => ⟨S1x64, .f32⟩
  | .hbm, ⟨51, _⟩ => ⟨S102400x64, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x64, .f32⟩
  | .hbm, ⟨61, _⟩ => ⟨S_, .f32⟩
  | .hbm, ⟨62, _⟩ => ⟨S102400x64, .f32⟩
  | .hbm, ⟨63, _⟩ => ⟨S1700000x1, .i32⟩
  | .hbm, ⟨64, _⟩ => ⟨S102400x64, .f32⟩
  | .hbm, ⟨65, _⟩ => ⟨S1x64, .f32⟩
  | .hbm, ⟨66, _⟩ => ⟨S1x1, .f32⟩
  | .hbm, ⟨67, _⟩ => ⟨S102400x1, .f32⟩
  | .hbm, ⟨68, _⟩ => ⟨S100000x1, .f32⟩
  | .hbm, ⟨69, _⟩ => ⟨S100000, .f32⟩
  | .local _ .vmem, ⟨0, _⟩ => ⟨S4096x1, .f32⟩
  | .local _ .vmem, ⟨1, _⟩ => ⟨S4096x1, .f32⟩
  | .local _ .vmem, ⟨2, _⟩ => ⟨S4096x1, .f32⟩
  | .local _ .vmem, ⟨3, _⟩ => ⟨S4096x1, .f32⟩
  | .local _ .vmem, ⟨4, _⟩ => ⟨S1x64, .f32⟩
  | .local _ .vmem, ⟨5, _⟩ => ⟨S1x64, .f32⟩
  | .local _ .vmem, ⟨6, _⟩ => ⟨S64x64, .f32⟩
  | .local _ .vmem, ⟨7, _⟩ => ⟨S4096x64, .f32⟩
  | .local _ .vmem, ⟨8, _⟩ => ⟨S4096x64, .f32⟩
  | .local _ .vmem, ⟨9, _⟩ => ⟨S4096x64, .f32⟩
  | .local _ .vmem, ⟨10, _⟩ => ⟨S4096x64, .f32⟩
  | .local _ .vmem, ⟨11, _⟩ => ⟨S4096x1, .f32⟩
  | .local _ .vmem, ⟨12, _⟩ => ⟨S4096x1, .f32⟩
  | .local _ .vmem, ⟨13, _⟩ => ⟨S1x64, .f32⟩
  | .local _ .vmem, ⟨14, _⟩ => ⟨S64x1, .f32⟩
  | .local _ .vmem, ⟨15, _⟩ => ⟨S1x1, .f32⟩
  | .local _ .vmem, ⟨16, _⟩ => ⟨S4096x1, .f32⟩
  | .local _ .vmem, ⟨17, _⟩ => ⟨S4096x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_call1_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S102400 : S_.BroadcastsInDim S102400 (![] : Fin 0 → Fin S102400.rank)
  bcast_S1700000_S1700000x1_0 : S1700000.BroadcastsInDim S1700000x1 (![0] : Fin 1 → Fin S1700000x1.rank)
  pads_S100000x1_S102400x1_024000_000 : S100000x1.Pads (![0, 0] : Fin 2 → Nat) ![2400, 0] ![0, 0] S102400x1
  h_S_ : 0 < S_.numel
  shapeCasts_S102400x1_S102400 : S102400x1.ShapeCasts S102400
  shapeCasts_S102400_S102400x1 : S102400.ShapeCasts S102400x1
  shapeCasts_S64_S1x64 : S64.ShapeCasts S1x64
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x64_S1x64_0_0 : ∀ a, (![0, 0] : Fin 2 → Nat) a + S1x64.size a ≤ S1x64.size a
  h_S1x64 : 0 < S1x64.numel
  broadcasts_S4096x1_S4096x64 : S4096x1.Broadcasts S4096x64
  broadcasts_S1x64_S4096x64 : S1x64.Broadcasts S4096x64
  shapeCasts_S1x64_S1x64 : S1x64.ShapeCasts S1x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S4096x64_S4096x64_0_0 : ∀ a, (![0, 0] : Fin 2 → Nat) a + S4096x64.size a ≤ S4096x64.size a
  h_S4096x64 : 0 < S4096x64.numel
  bcast_S_S102400x64 : S_.BroadcastsInDim S102400x64 (![] : Fin 0 → Fin S102400x64.rank)
  shapeCasts_S1_S1x1 : S1.ShapeCasts S1x1
  shapeCasts_S4096x64_S4096x64 : S4096x64.ShapeCasts S4096x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  slices_S102400x1_S100000x1_0_0 : S102400x1.Slices ![0, 0] S100000x1
  shapeCasts_S100000x1_S100000 : S100000x1.ShapeCasts S100000
  scatter_S102400_S1700000x1_S1700000_n_0_0_1_wf : ScatterDims.WF S102400 S1700000x1 S1700000 [] [0] [0] 1
  gather_S102400_S1700000x1_S1700000_n_0_n_n_0_1_1_wf : GatherDims.WF S102400 S1700000x1 S1700000 [] [0] [] [0] [] 1 ![1]
  dot_S4096x64_S64x64_S4096x64_1_0_0_1_n_n_wf : DotDims.WF S4096x64 S64x64 S4096x64 [1] [0] [0] [1] [] []
  gather_S102400x64_S1700000x1_S1700000x64_1_0_n_n_0_1_164_wf : GatherDims.WF S102400x64 S1700000x1 S1700000x64 [1] [0] [] [0] [] 1 ![1, 64]
  scatter_S102400x64_S1700000x1_S1700000x64_1_0_0_1_wf : ScatterDims.WF S102400x64 S1700000x1 S1700000x64 [1] [0] [0] 1
  dot_S4096x64_S64x1_S4096x1_1_0_0_1_n_n_wf : DotDims.WF S4096x64 S64x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S102400x1.size a
  hwx0_0 : ∀ i : grid0.Coords, EltTy.bits .f32 = 32 ∨ (Rect.block (s := S102400x1) S4096x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S102400x1.size a
  hwx0_1 : ∀ i : grid0.Coords, EltTy.bits .f32 = 32 ∨ (Rect.block (s := S102400x1) S4096x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x64.size a ≤ S102400x64.size a
  hwx0_5 : ∀ i : grid0.Coords, EltTy.bits .f32 = 32 ∨ (Rect.block (s := S102400x64) S4096x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S102400x64.size a
  hwx1_0 : ∀ i : grid1.Coords, EltTy.bits .f32 = 32 ∨ (Rect.block (s := S102400x64) S4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S102400x1.size a
  hwx1_1 : ∀ i : grid1.Coords, EltTy.bits .f32 = 32 ∨ (Rect.block (s := S102400x1) S4096x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x1.size a ≤ S64x1.size a
  hwx1_3 : ∀ i : grid1.Coords, EltTy.bits .f32 = 32 ∨ (Rect.block (s := S64x1) S64x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x1.size a ≤ S102400x1.size a
  hwx1_5 : ∀ i : grid1.Coords, EltTy.bits .f32 = 32 ∨ (Rect.block (s := S102400x1) S4096x1.size (cc1_transform_5 i) (hinb1_5 i)).WholeWords (EltTy.packing .f32)

variable [Facts₀]

def scatter_S102400_S1700000x1_S1700000_n_0_0_1 : ScatterDims S102400 S1700000x1 S1700000 where
  updateWindowDims := []
  insertedWindowDims := [0]
  scatterDimsToOperandDims := [0]
  indexVectorDim := 1
  wf := scatter_S102400_S1700000x1_S1700000_n_0_0_1_wf
def gather_S102400_S1700000x1_S1700000_n_0_n_n_0_1_1 : GatherDims S102400 S1700000x1 S1700000 where
  offsetDims := []
  collapsedSliceDims := [0]
  operandBatchingDims := []
  startIndicesBatchingDims := []
  startIndexMap := [0]
  indexVectorDim := 1
  sliceSizes := ![1]
  wf := gather_S102400_S1700000x1_S1700000_n_0_n_n_0_1_1_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def gather_S102400x64_S1700000x1_S1700000x64_1_0_n_n_0_1_164 : GatherDims S102400x64 S1700000x1 S1700000x64 where
  offsetDims := [1]
  collapsedSliceDims := [0]
  operandBatchingDims := []
  startIndicesBatchingDims := []
  startIndexMap := [0]
  indexVectorDim := 1
  sliceSizes := ![1, 64]
  wf := gather_S102400x64_S1700000x1_S1700000x64_1_0_n_n_0_1_164_wf
def scatter_S102400x64_S1700000x1_S1700000x64_1_0_0_1 : ScatterDims S102400x64 S1700000x1 S1700000x64 where
  updateWindowDims := [1]
  insertedWindowDims := [0]
  scatterDimsToOperandDims := [0]
  indexVectorDim := 1
  wf := scatter_S102400x64_S1700000x1_S1700000x64_1_0_0_1_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

abbrev win0_0 : Pipeline.Window sig grid0 :=
  Pipeline.Window.ofSpec (Memref.whole main_v29) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S4096x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S4096x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x1 : Shape := ⟨2, ![100000, 1]⟩
abbrev S2x1600000 : Shape := ⟨2, ![2, 1600000]⟩
abbrev S1x64 : Shape := ⟨2, ![1, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x1 : Shape := ⟨2, ![1, 1]⟩

abbrev nBuf : Space → Nat
  | .hbm => 99
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S2x1600000, .i32⟩
  | .hbm, ⟨2, _⟩ => ⟨S1x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x1, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x64, .f32⟩
  | .hbm, ⟨81, _⟩ => ⟨S1700000x1, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S100000x64, .f32⟩
  | .hbm, ⟨93, _⟩ => ⟨S100000x64, .f32⟩
  | .hbm, ⟨94, _⟩ => ⟨S100000x1, .f32⟩
  | .hbm, ⟨95, _⟩ => ⟨S1x1, .f32⟩
  | .hbm, ⟨96, _⟩ => ⟨S100000x1, .f32⟩
  | .hbm, ⟨97, _⟩ => ⟨S100000x1, .f32⟩
  | .hbm, ⟨98, _⟩ => ⟨S100000, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x1_S1x64_S100000x64_1_0_0_1_n_n_wf : DotDims.WF S100000x1 S1x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x1_S1x64_S100000x64_1_0_0_1_n_n : DotDims S100000x1 S1x64 S100000x64 where
  lhsContracting := [1]
  rhsContracting := [0]
  lhsNonContracting := [0]
  rhsNonContracting := [1]
  lhsBatch := []
  rhsBatch := []
  wf := dot_S100000x1_S1x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
import proofs.«165254_j14748917694868_2_alg».proof.Proof.Gen.KernelIdeal.Frame

/-! # The value the run leaves in the result buffer

The generated frame certificate proves that every weakly fair execution of the program on the TensorCores ends, and
that each unscoped buffer then holds the value of a fold through the program's segments (`Gen.W9`): a stretch of host
operations contributes its `StableHlo.after`, a region contributes the arrays its write-backs leave. Its stated
post-condition keeps only the argument arrays. Here the same run is stated with one more conjunct: the result buffer
`main_v47` ends at the fold's value. -/

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of the program on the TensorCores terminates
    without fault, and in every final state the result buffer `main_v47` of each core holds the value of the fold
    through the program's segments at that buffer, while the eight argument arrays hold what they held at launch. -/
theorem run_result : θ_run defs (onTc (τ := τ) (main (F := F))) ⟨m, fun _ => 0, ρ⟩ (fun r => ∀ c : Dev nD,
      r.2.mem ((c.tc : Thread nD τ).loc main_v47) = Gen.W9 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v47 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

/-- info: 'Cert.KernelIdeal.RunValue.run_result' depends on axioms: [propext, Classical.choice, Quot.sound] -/
#guard_msgs in #print axioms run_result

end Cert.KernelIdeal.RunValue

end
-- ==== Proof.KernelTerm.lean ====
/-
  The idealized kernel's program as ONE term of its arguments.

  @main is: host operations building the edge lists (source and target node of every edge, the self-loops appended),
  the degree of every node of a table padded to 102400 rows, its scale `δ`, the scalar feature padded, scaled,
  gathered along the edges, summed into the target nodes and scaled again; a first kernel launch (`G0`: per row, the
  outer product with the first weight row, bias, rectifier, the 64×64 product, the scale); a gather of its rows
  along the edges and their sum into the target nodes; a second launch (`G1`: per row, scale, bias, rectifier, the
  product with the head's column, its bias); and a cut back to the first 100000 rows.

  Each `kv_main_vN` is the value of the operation printed as `%N`, a function of the arguments it depends on (and,
  after a launch, of the launch's output array).  `G0` / `G1` are what the two launches compute, entry by entry on
  the extended reals; `kernelOut` is the whole program.
-/
import proofs.«165254_j14748917694868_2_alg».proof.Proof.Gen.KernelIdeal
import Idealize.ShloMosaic.Lib.ValueIdx

noncomputable section

namespace Cert.KernelIdeal.Term

open Cert.KernelIdeal Cert.KernelIdeal.Gen Idealize.ShloMosaic Idealize.ShloMosaic.TcCoe Idealize.ShloMosaic.ValueIdx
open scoped BigOperators

section Host
variable {F : FTy → Type} [FloatOps F]

/-- `%0`: the node numbers `0 … 99999` (the self-loops' ends). -/
def kv_main_v0 : (⟨S100000, .i32⟩ : BufTy).Contents (Elt F) := iotaInDim S100000 32 0
/-- `%2`: row 0 of the edge array, flat. -/
def kv_main_v2 (x1 : (⟨S2x1600000, .i32⟩ : BufTy).Contents (Elt F)) : (⟨S1600000, .i32⟩ : BufTy).Contents (Elt F) :=
  shapeCast _ (extractStridedSlice S1x1600000 ![0, 0] x1 slices_S2x1600000_S1x1600000_0_0) shapeCasts_S1x1600000_S1600000
/-- `%3`: every edge's SOURCE node: row 0, then the self-loops. -/
def kv_main_v3 (x1 : (⟨S2x1600000, .i32⟩ : BufTy).Contents (Elt F)) : (⟨S1700000, .i32⟩ : BufTy).Contents (Elt F) :=
  concatenate S1700000 0 [⟨S1600000, kv_main_v2 (F := F) x1⟩, ⟨S100000, kv_main_v0 (F := F)⟩] concatenates_S1600000_S100000_S1700000_d0
/-- `%5`: row 1 of the edge array, flat. -/
def kv_main_v5 (x1 : (⟨S2x1600000, .i32⟩ : BufTy).Contents (Elt F)) : (⟨S1600000, .i32⟩ : BufTy).Contents (Elt F) :=
  shapeCast _ (extractStridedSlice S1x1600000 ![1, 0] x1 slices_S2x1600000_S1x1600000_1_0) shapeCasts_S1x1600000_S1600000
/-- `%6`: every edge's TARGET node: row 1, then the self-loops. -/
def kv_main_v6 (x1 : (⟨S2x1600000, .i32⟩ : BufTy).Contents (Elt F)) : (⟨S1700000, .i32⟩ : BufTy).Contents (Elt F) :=
  concatenate S1700000 0 [⟨S1600000, kv_main_v5 (F := F) x1⟩, ⟨S100000, kv_main_v0 (F := F)⟩] concatenates_S1600000_S100000_S1700000_d0
/-- `%9`, `%26`, `%41`: the targets as a column of scatter indices. -/
def kv_dstCol (x1 : (⟨S2x1600000, .i32⟩ : BufTy).Contents (Elt F)) : (⟨S1700000x1, .i32⟩ : BufTy).Contents (Elt F) :=
  broadcastInDim S1700000x1 ![0] bcast_S1700000_S1700000x1_0 (kv_main_v6 (F := F) x1)
/-- `%7`: a one per edge. -/
def kv_main_v7 : (⟨S1700000, .f32⟩ : BufTy).Contents (Elt F) :=
  broadcastInDim S1700000 ![] bcast_S_S1700000 (constant (F := F) S_ .f32 0x3F800000#32)
/-- `%8`, `%11`, `%25`: a zero per padded node. -/
def kv_main_v8 : (⟨S102400, .f32⟩ : BufTy).Contents (Elt F) :=
  broadcastInDim S102400 ![] bcast_S_S102400 (constant (F := F) S_ .f32 0x00000000#32)
/-- `%10`: the degree of every padded node: the ones summed into the targets. -/
def kv_main_v10 (x1 : (⟨S2x1600000, .i32⟩ : BufTy).Contents (Elt F)) : (⟨S102400, .f32⟩ : BufTy).Contents (Elt F) :=
  Host.scatterAdd scatter_S102400_S1700000x1_S1700000_n_0_0_1 (kv_main_v8 (F := F)) (kv_dstCol (F := F) x1) (kv_main_v7 (F := F))
/-- `%14`: the scale: the reciprocal square root of the degree where it is positive, zero elsewhere. -/
def kv_main_v14 (x1 : (⟨S2x1600000, .i32⟩ : BufTy).Contents (Elt F)) : (⟨S102400, .f32⟩ : BufTy).Contents (Elt F) :=
  select (cmpf .ogt (kv_main_v10 (F := F) x1) (kv_main_v8 (F := F))) (Host.rsqrt (kv_main_v10 (F := F) x1))
    (broadcastInDim S102400 ![] bcast_S_S102400 (constant (F := F) S_ .f32 0x00000000#32))
/-- `%15`: the scalar feature padded with zeros to 102400 rows. -/
def kv_main_v15 (x0 : (⟨S100000x1, .f32⟩ : BufTy).Contents (Elt F)) : (⟨S102400x1, .f32⟩ : BufTy).Contents (Elt F) :=
  pad S102400x1 ![0, 0] ![2400, 0] ![0, 0] x0 (sitofp (F := F) .f32 (constantI S_ 32 0#32)) pads_S100000x1_S102400x1_024000_000 h_S_
/-- `%17`: the padded feature, flat, scaled at its own node. -/
def kv_main_v17 (x0 : (⟨S100000x1, .f32⟩ : BufTy).Contents (Elt F)) (x1 : (⟨S2x1600000, .i32⟩ : BufTy).Contents (Elt F)) :
    (⟨S102400, .f32⟩ : BufTy).Contents (Elt F) :=
  mulf (shapeCast _ (kv_main_v15 (F := F) x0) shapeCasts_S102400x1_S102400) (kv_main_v14 (F := F) x1)
/-- `%22`, `%37`: the sources with a negative entry wrapped by the padded row count. -/
def kv_srcWrapped (x1 : (⟨S2x1600000, .i32⟩ : BufTy).Contents (Elt F)) : (⟨S1700000, .i32⟩ : BufTy).Contents (Elt F) :=
  select (cmpi .slt (kv_main_v3 (F := F) x1) (broadcastInDim S1700000 ![] bcast_S_S1700000 (constantI S_ 32 0#32)))
    (addi (kv_main_v3 (F := F) x1) (broadcastInDim S1700000 ![] bcast_S_S1700000 (constantI S_ 32 102400#32)))
    (kv_main_v3 (F := F) x1)
/-- `%23`, `%38`: the same as a column of gather indices. -/
def kv_srcCol (x1 : (⟨S2x1600000, .i32⟩ : BufTy).Contents (Elt F)) : (⟨S1700000x1, .i32⟩ : BufTy).Contents (Elt F) :=
  broadcastInDim S1700000x1 ![0] bcast_S1700000_S1700000x1_0 (kv_srcWrapped (F := F) x1)
/-- `%24`: the scaled feature of every edge's source. -/
def kv_main_v24 (x0 : (⟨S100000x1, .f32⟩ : BufTy).Contents (Elt F)) (x1 : (⟨S2x1600000, .i32⟩ : BufTy).Contents (Elt F)) :
    (⟨S1700000, .f32⟩ : BufTy).Contents (Elt F) :=
  Host.gather gather_S102400_S1700000x1_S1700000_n_0_n_n_0_1_1 (kv_main_v17 (F := F) x0 x1) (kv_srcCol (F := F) x1)
/-- `%27`: summed into the targets. -/
def kv_main_v27 (x0 : (⟨S100000x1, .f32⟩ : BufTy).Contents (Elt F)) (x1 : (⟨S2x1600000, .i32⟩ : BufTy).Contents (Elt F)) :
    (⟨S102400, .f32⟩ : BufTy).Contents (Elt F) :=
  Host.scatterAdd scatter_S102400_S1700000x1_S1700000_n_0_0_1 (kv_main_v8 (F := F)) (kv_dstCol (F := F) x1) (kv_main_v24 (F := F) x0 x1)
/-- `%29`: scaled at the target, as a column: the first launch's first operand. -/
def kv_main_v29 (x0 : (⟨S100000x1, .f32⟩ : BufTy).Contents (Elt F)) (x1 : (⟨S2x1600000, .i32⟩ : BufTy).Contents (Elt F)) :
    (⟨S102400x1, .f32⟩ : BufTy).Contents (Elt F) :=
  shapeCast _ (mulf (kv_main_v27 (F := F) x0 x1) (kv_main_v14 (F := F) x1)) shapeCasts_S102400_S102400x1
/-- `%30`: the scale as a column: both launches' second operand. -/
def kv_main_v30 (x1 : (⟨S2x1600000, .i32⟩ : BufTy).Contents (Elt F)) : (⟨S102400x1, .f32⟩ : BufTy).Contents (Elt F) :=
  shapeCast _ (kv_main_v14 (F := F) x1) shapeCasts_S102400_S102400x1
/-- `%31`: the first bias as a row. -/
def kv_main_v31 (x3 : (⟨S64, .f32⟩ : BufTy).Contents (Elt F)) : (⟨S1x64, .f32⟩ : BufTy).Contents (Elt F) :=
  shapeCast _ x3 shapeCasts_S64_S1x64
/-- `%42`: the first launch's rows `y` gathered along the edges and summed into the targets. -/
def kv_main_v42 (x1 : (⟨S2x1600000, .i32⟩ : BufTy).Contents (Elt F)) (y : (⟨S102400x64, .f32⟩ : BufTy).Contents (Elt F)) :
    (⟨S102400x64, .f32⟩ : BufTy).Contents (Elt F) :=
  Host.scatterAdd scatter_S102400x64_S1700000x1_S1700000x64_1_0_0_1
    (broadcastInDim S102400x64 ![] bcast_S_S102400x64 (constant (F := F) S_ .f32 0x00000000#32)) (kv_dstCol (F := F) x1)
    (Host.gather gather_S102400x64_S1700000x1_S1700000x64_1_0_n_n_0_1_164 y (kv_srcCol (F := F) x1))
/-- `%43`: the second bias as a row. -/
def kv_main_v43 (x5 : (⟨S64, .f32⟩ : BufTy).Contents (Elt F)) : (⟨S1x64, .f32⟩ : BufTy).Contents (Elt F) :=
  shapeCast _ x5 shapeCasts_S64_S1x64
/-- `%44`: the head's bias as a 1×1 array. -/
def kv_main_v44 (x7 : (⟨S1, .f32⟩ : BufTy).Contents (Elt F)) : (⟨S1x1, .f32⟩ : BufTy).Contents (Elt F) :=
  shapeCast _ x7 shapeCasts_S1_S1x1
/-- `%47`: the second launch's column `y` cut to the first 100000 rows, flat: the result. -/
def kv_main_v47 (y : (⟨S102400x1, .f32⟩ : BufTy).Contents (Elt F)) : (⟨S100000, .f32⟩ : BufTy).Contents (Elt F) :=
  shapeCast _ (extractStridedSlice S100000x1 ![0, 0] y slices_S102400x1_S100000x1_0_0) shapeCasts_S100000x1_S100000

end Host

/-! ## The two launches, entry by entry on the extended reals -/

/-- The first launch at row `r`, column `c`: `(Σ_k max (s r · w1 k + b1 k) 0 · w2 k c) · δ r`. -/
def G0c (sc dv : FVec Ideal S102400x1 .f32) (w1 b1r : FVec Ideal S1x64 .f32) (w2 : FVec Ideal S64x64 .f32)
    (r : Fin 102400) (c : Fin 64) : EReal :=
  (∑ k : Fin 64, max (sc (ix2 r (0 : Fin 1)) * w1 (ix2 (0 : Fin 1) k) + b1r (ix2 (0 : Fin 1) k)) 0 * w2 (ix2 k c))
    * dv (ix2 r (0 : Fin 1))
def G0 (sc dv : FVec Ideal S102400x1 .f32) (w1 b1r : FVec Ideal S1x64 .f32) (w2 : FVec Ideal S64x64 .f32) :
    FVec Ideal S102400x64 .f32 := fun i => G0c sc dv w1 b1r w2 (i 0) (i 1)

/-- The second launch at row `r`: `(Σ_k max (a r k · δ r + b2 k) 0 · wfc k) + bfc`. -/
def G1c (agg : FVec Ideal S102400x64 .f32) (dv : FVec Ideal S102400x1 .f32) (b2r : FVec Ideal S1x64 .f32)
    (wfc : FVec Ideal S64x1 .f32) (bfcr : FVec Ideal S1x1 .f32) (r : Fin 102400) : EReal :=
  (∑ k : Fin 64, max (agg (ix2 r k) * dv (ix2 r (0 : Fin 1)) + b2r (ix2 (0 : Fin 1) k)) 0 * wfc (ix2 k (0 : Fin 1)))
    + bfcr (ix2 (0 : Fin 1) (0 : Fin 1))
def G1 (agg : FVec Ideal S102400x64 .f32) (dv : FVec Ideal S102400x1 .f32) (b2r : FVec Ideal S1x64 .f32)
    (wfc : FVec Ideal S64x1 .f32) (bfcr : FVec Ideal S1x1 .f32) : FVec Ideal S102400x1 .f32 :=
  fun i => G1c agg dv b2r wfc bfcr (i 0)

/-- THE WHOLE PROGRAM at `Ideal`, as one function of the eight arguments. -/
def kernelOut (x0 : FVec Ideal S100000x1 .f32) (x1 : IVec S2x1600000 32) (x2 : FVec Ideal S1x64 .f32)
    (x3 : FVec Ideal S64 .f32) (x4 : FVec Ideal S64x64 .f32) (x5 : FVec Ideal S64 .f32) (x6 : FVec Ideal S64x1 .f32)
    (x7 : FVec Ideal S1 .f32) : FVec Ideal S100000 .f32 :=
  kv_main_v47 (F := Ideal)
    (G1 (kv_main_v42 (F := Ideal) x1
          (G0 (kv_main_v29 (F := Ideal) x0 x1) (kv_main_v30 (F := Ideal) x1) x2 (kv_main_v31 (F := Ideal) x3) x4))
      (kv_main_v30 (F := Ideal) x1) (kv_main_v43 (F := Ideal) x5) x6 (kv_main_v44 (F := Ideal) x7))

end Cert.KernelIdeal.Term

end
-- ==== Proof.KernelFold.lean ====
import proofs.«165254_j14748917694868_2_alg».proof.Proof.Gen.KernelIdeal.Frame
import proofs.«165254_j14748917694868_2_alg».proof.Proof.KernelTerm

/-! # The fold at the result buffer, opened down to the two launches

The run ends with every unscoped buffer at the value of a fold through the program's segments (`Gen.W9`). Here that
fold is read at the result buffer, one segment at a time: a stretch of host operations is read at the buffers it
writes as its operations' term over what the stretch found, and leaves every other buffer alone; a launch leaves its
output array at what its write-backs fold to and every other buffer alone. Composing the readings, the result is the
program's term `Term.kernelOut` of the eight argument arrays, given what each launch's output array is as a function
of the launch's five input arrays. -/

set_option maxRecDepth 16384

noncomputable section

namespace Cert.KernelIdeal.RunValue

open Idealize.ShloMosaic Idealize.ShloMosaic.TcCoe Idealize.ShloMosaic.Tactic
open Idealize.SL Idealize.SL.Sem
open Idealize.ShloMosaic.StableHlo
open Cert.KernelIdeal.Gen

/-! ## What each stretch of host operations writes, and that it writes nothing else -/

/-- The buffers the seven stretches write, in program order. -/
def wr0 : List (Ref sig .tc) :=
  [main_v0, main_v1, main_v2, main_v3, main_v4, main_v5, main_v6, main_cst, main_v7, main_cst_0, main_v8, main_v9, main_v10,
   main_cst_1, main_v11, main_v12, main_v13, main_cst_2]
def wr1 : List (Ref sig .tc) := [main_call0_v0, main_call0_v1, main_v14]
def wr2 : List (Ref sig .tc) := [main_c]
def wr3 : List (Ref sig .tc) := [main_call1_v0, main_v15]
def wr4 : List (Ref sig .tc) :=
  [main_v16, main_v17, main_c_3, main_v18, main_v19, main_c_4, main_v20, main_v21, main_v22, main_v23, main_v24, main_cst_5,
   main_v25, main_v26, main_v27, main_v28, main_v29, main_v30, main_v31]
def wr5 : List (Ref sig .tc) :=
  [main_c_6, main_v33, main_v34, main_c_7, main_v35, main_v36, main_v37, main_v38, main_v39, main_cst_8, main_v40, main_v41,
   main_v42, main_v43, main_v44]
def wr6 : List (Ref sig .tc) := [main_v46, main_v47]

/-- Every operation of a literal stretch writes one buffer, and that buffer is in the stretch's list. -/
local macro "writes_sub" ops:ident : tactic => `(tactic| (
  simp only [$ops:ident, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map.mpr ⟨_, by decide, rfl⟩)))

section Stretches
variable (V : Valuation τ sig (Elt Ideal))

theorem keep0 (r : Ref sig .tc) (hr : r ∉ wr0) : after hostOps0 V (Proc.devRef .tc r) = V (Proc.devRef .tc r) :=
  after_of_writes_sub (W := wr0) hostOps0 V (by writes_sub hostOps0) hr
theorem keep1 (r : Ref sig .tc) (hr : r ∉ wr1) : after hostOps0_1 V (Proc.devRef .tc r) = V (Proc.devRef .tc r) :=
  after_of_writes_sub (W := wr1) hostOps0_1 V (by writes_sub hostOps0_1) hr
theorem keep2 (r : Ref sig .tc) (hr : r ∉ wr2) : after hostOps0_2 V (Proc.devRef .tc r) = V (Proc.devRef .tc r) :=
  after_of_writes_sub (W := wr2) hostOps0_2 V (by writes_sub hostOps0_2) hr
theorem keep3 (r : Ref sig .tc) (hr : r ∉ wr3) : after hostOps0_3 V (Proc.devRef .tc r) = V (Proc.devRef .tc r) :=
  after_of_writes_sub (W := wr3) hostOps0_3 V (by writes_sub hostOps0_3) hr
theorem keep4 (r : Ref sig .tc) (hr : r ∉ wr4) : after hostOps0_4 V (Proc.devRef .tc r) = V (Proc.devRef .tc r) :=
  after_of_writes_sub (W := wr4) hostOps0_4 V (by writes_sub hostOps0_4) hr
theorem keep5 (r : Ref sig .tc) (hr : r ∉ wr5) : after hostOps1 V (Proc.devRef .tc r) = V (Proc.devRef .tc r) :=
  after_of_writes_sub (W := wr5) hostOps1 V (by writes_sub hostOps1) hr
theorem keep6 (r : Ref sig .tc) (hr : r ∉ wr6) : after hostOps2 V (Proc.devRef .tc r) = V (Proc.devRef .tc r) :=
  after_of_writes_sub (W := wr6) hostOps2 V (by writes_sub hostOps2) hr

end Stretches

/-! ## What each stretch leaves in the buffers the program goes on to read, over what the stretch found -/

section StretchValues
variable (V : Valuation τ sig (Elt Ideal))

/-- The first stretch: the edge lists, the degree's two readings and a zero. -/
theorem s0_v3 : after hostOps0 V (Proc.devRef .tc main_v3) = Term.kv_main_v3 (F := Ideal) (V (Proc.devRef .tc main_arg1)) := by
  after_results
  rfl
theorem s0_v6 : after hostOps0 V (Proc.devRef .tc main_v6) = Term.kv_main_v6 (F := Ideal) (V (Proc.devRef .tc main_arg1)) := by
  after_results
  rfl
theorem s0_v12 : (after hostOps0 V (Proc.devRef .tc main_v12) : (⟨S102400, .i1⟩ : BufTy).Contents (Elt Ideal))
    = cmpf (F := Ideal) (s := S102400) (φ := .f32) .ogt (Term.kv_main_v10 (F := Ideal) (V (Proc.devRef .tc main_arg1)))
        (Term.kv_main_v8 (F := Ideal)) := by
  after_results
  rfl
theorem s0_v13 : (after hostOps0 V (Proc.devRef .tc main_v13) : (⟨S102400, .f32⟩ : BufTy).Contents (Elt Ideal))
    = Host.rsqrt (F := Ideal) (s := S102400) (φ := .f32) (Term.kv_main_v10 (F := Ideal) (V (Proc.devRef .tc main_arg1))) := by
  after_results
  rfl
theorem s0_cst_2 : (after hostOps0 V (Proc.devRef .tc main_cst_2) : (⟨S_, .f32⟩ : BufTy).Contents (Elt Ideal)) = constant (F := Ideal) S_ .f32 0x00000000#32 := by
  after_results

/-- The second stretch: the scale, chosen between the reciprocal square root and zero. -/
theorem s1_v14 : (after hostOps0_1 V (Proc.devRef .tc main_v14) : (⟨S102400, .f32⟩ : BufTy).Contents (Elt Ideal))
    = select (V (Proc.devRef .tc main_v12)) (V (Proc.devRef .tc main_v13))
        (broadcastInDim S102400 ![] bcast_S_S102400 (V (Proc.devRef .tc main_cst_2))) := by
  after_results
  rfl

/-- The third stretch: an integer zero. -/
theorem s2_c : (after hostOps0_2 V (Proc.devRef .tc main_c) : (⟨S_, .i32⟩ : BufTy).Contents (Elt Ideal)) = constantI S_ 32 0#32 := by
  after_results

/-- The fourth stretch: the feature column padded. -/
theorem s3_v15 : (after hostOps0_3 V (Proc.devRef .tc main_v15) : (⟨S102400x1, .f32⟩ : BufTy).Contents (Elt Ideal))
    = pad S102400x1 ![0, 0] ![2400, 0] ![0, 0] (V (Proc.devRef .tc main_arg0)) (sitofp (F := Ideal) .f32 (V (Proc.devRef .tc main_c)))
        pads_S100000x1_S102400x1_024000_000 h_S_ := by
  after_results
  rfl

/-- The fifth stretch: the first launch's three computed operands. -/
theorem s4_v29 : (after hostOps0_4 V (Proc.devRef .tc main_v29) : (⟨S102400x1, .f32⟩ : BufTy).Contents (Elt Ideal))
    = shapeCast _ (mulf (F := Ideal) (s := S102400) (φ := .f32)
        (Host.scatterAdd scatter_S102400_S1700000x1_S1700000_n_0_0_1 (Term.kv_main_v8 (F := Ideal))
          (broadcastInDim S1700000x1 ![0] bcast_S1700000_S1700000x1_0 (V (Proc.devRef .tc main_v6)))
          (Host.gather gather_S102400_S1700000x1_S1700000_n_0_n_n_0_1_1
            (mulf (F := Ideal) (s := S102400) (φ := .f32) (shapeCast _ (V (Proc.devRef .tc main_v15)) shapeCasts_S102400x1_S102400)
              (V (Proc.devRef .tc main_v14)))
            (broadcastInDim S1700000x1 ![0] bcast_S1700000_S1700000x1_0
              (select (cmpi .slt (V (Proc.devRef .tc main_v3)) (broadcastInDim S1700000 ![] bcast_S_S1700000 (constantI S_ 32 0#32)))
                (addi (V (Proc.devRef .tc main_v3)) (broadcastInDim S1700000 ![] bcast_S_S1700000 (constantI S_ 32 102400#32)))
                (V (Proc.devRef .tc main_v3))))))
        (V (Proc.devRef .tc main_v14))) shapeCasts_S102400_S102400x1 := by
  after_results_simp
  rfl
theorem s4_v30 : (after hostOps0_4 V (Proc.devRef .tc main_v30) : (⟨S102400x1, .f32⟩ : BufTy).Contents (Elt Ideal))
    = shapeCast _ (V (Proc.devRef .tc main_v14)) shapeCasts_S102400_S102400x1 := by
  after_results
  rfl
theorem s4_v31 : after hostOps0_4 V (Proc.devRef .tc main_v31) = Term.kv_main_v31 (F := Ideal) (V (Proc.devRef .tc main_arg3)) := by
  after_results
  rfl

/-- The stretch between the launches: the second launch's three computed operands. -/
theorem s5_v42 : (after hostOps1 V (Proc.devRef .tc main_v42) : (⟨S102400x64, .f32⟩ : BufTy).Contents (Elt Ideal))
    = Host.scatterAdd scatter_S102400x64_S1700000x1_S1700000x64_1_0_0_1
        (broadcastInDim S102400x64 ![] bcast_S_S102400x64 (constant (F := Ideal) S_ .f32 0x00000000#32))
        (broadcastInDim S1700000x1 ![0] bcast_S1700000_S1700000x1_0 (V (Proc.devRef .tc main_v6)))
        (Host.gather gather_S102400x64_S1700000x1_S1700000x64_1_0_n_n_0_1_164 (V (Proc.devRef .tc main_v32))
          (broadcastInDim S1700000x1 ![0] bcast_S1700000_S1700000x1_0
            (select (cmpi .slt (V (Proc.devRef .tc main_v3)) (broadcastInDim S1700000 ![] bcast_S_S1700000 (constantI S_ 32 0#32)))
              (addi (V (Proc.devRef .tc main_v3)) (broadcastInDim S1700000 ![] bcast_S_S1700000 (constantI S_ 32 102400#32)))
              (V (Proc.devRef .tc main_v3))))) := by
  after_results
theorem s5_v43 : after hostOps1 V (Proc.devRef .tc main_v43) = Term.kv_main_v43 (F := Ideal) (V (Proc.devRef .tc main_arg5)) := by
  after_results
  rfl
theorem s5_v44 : after hostOps1 V (Proc.devRef .tc main_v44) = Term.kv_main_v44 (F := Ideal) (V (Proc.devRef .tc main_arg7)) := by
  after_results
  rfl

/-- The last stretch: the cut to the first 100000 rows, flat. -/
theorem s6_v47 : after hostOps2 V (Proc.devRef .tc main_v47) = Term.kv_main_v47 (F := Ideal) (V (Proc.devRef .tc main_v45)) := by
  after_results
  rfl

end StretchValues

/-! ## The fold, boundary by boundary

`x k` below is argument `k`'s array in the launch memory, `m ((c : Thread nD τ).loc main_argk)`. -/

section Fold
variable (m : (ℓ : Loc nD τ sig) → Buf (Elt Ideal) ℓ) (ρ : Dev nD → PrngReg) (c : Dev nD)

/-! ### Buffers no stretch before the first launch writes: the arguments -/

theorem W3_arg (r : Ref sig .tc) (h0 : r ∉ wr0) (h1 : r ∉ wr1) (h2 : r ∉ wr2) :
    Gen.W3 m ρ c (Proc.devRef .tc r) = m ((c : Thread nD τ).loc r) :=
  (keep2 (Gen.W2 m ρ c) r h2).trans <| (keep1 (Gen.W1 m ρ c) r h1).trans <| keep0 (Gen.W0 m ρ c) r h0
theorem W4_arg (r : Ref sig .tc) (h0 : r ∉ wr0) (h1 : r ∉ wr1) (h2 : r ∉ wr2) (h3 : r ∉ wr3) :
    Gen.W4 m ρ c (Proc.devRef .tc r) = m ((c : Thread nD τ).loc r) :=
  (keep3 (Gen.W3 m ρ c) r h3).trans (W3_arg m ρ c r h0 h1 h2)
theorem W5_arg (r : Ref sig .tc) (h0 : r ∉ wr0) (h1 : r ∉ wr1) (h2 : r ∉ wr2) (h3 : r ∉ wr3) (h4 : r ∉ wr4) :
    Gen.W5 m ρ c (Proc.devRef .tc r) = m ((c : Thread nD τ).loc r) :=
  (keep4 (Gen.W4 m ρ c) r h4).trans (W4_arg m ρ c r h0 h1 h2 h3)

/-! ### After the first stretch: the edge lists and the degree's readings -/

theorem W1_v3 : Gen.W1 m ρ c (Proc.devRef .tc main_v3) = Term.kv_main_v3 (F := Ideal) (m ((c : Thread nD τ).loc main_arg1)) :=
  s0_v3 (Gen.W0 m ρ c)
theorem W1_v6 : Gen.W1 m ρ c (Proc.devRef .tc main_v6) = Term.kv_main_v6 (F := Ideal) (m ((c : Thread nD τ).loc main_arg1)) :=
  s0_v6 (Gen.W0 m ρ c)
theorem W1_v12 : Gen.W1 m ρ c (Proc.devRef .tc main_v12)
    = cmpf (F := Ideal) (s := S102400) (φ := .f32) .ogt (Term.kv_main_v10 (F := Ideal) (m ((c : Thread nD τ).loc main_arg1)))
        (Term.kv_main_v8 (F := Ideal)) :=
  s0_v12 (Gen.W0 m ρ c)
theorem W1_v13 : Gen.W1 m ρ c (Proc.devRef .tc main_v13)
    = Host.rsqrt (F := Ideal) (s := S102400) (φ := .f32) (Term.kv_main_v10 (F := Ideal) (m ((c : Thread nD τ).loc main_arg1))) :=
  s0_v13 (Gen.W0 m ρ c)
theorem W1_cst_2 : Gen.W1 m ρ c (Proc.devRef .tc main_cst_2) = constant (F := Ideal) S_ .f32 0x00000000#32 :=
  s0_cst_2 (Gen.W0 m ρ c)

/-- The edge lists are written by the first stretch only. -/
theorem W4_of_W1 (r : Ref sig .tc) (h1 : r ∉ wr1) (h2 : r ∉ wr2) (h3 : r ∉ wr3) :
    Gen.W4 m ρ c (Proc.devRef .tc r) = Gen.W1 m ρ c (Proc.devRef .tc r) :=
  (keep3 (Gen.W3 m ρ c) r h3).trans <| (keep2 (Gen.W2 m ρ c) r h2).trans (keep1 (Gen.W1 m ρ c) r h1)
theorem W4_v3 : Gen.W4 m ρ c (Proc.devRef .tc main_v3) = Term.kv_main_v3 (F := Ideal) (m ((c : Thread nD τ).loc main_arg1)) :=
  (W4_of_W1 m ρ c main_v3 (by decide) (by decide) (by decide)).trans (W1_v3 m ρ c)
theorem W4_v6 : Gen.W4 m ρ c (Proc.devRef .tc main_v6) = Term.kv_main_v6 (F := Ideal) (m ((c : Thread nD τ).loc main_arg1)) :=
  (W4_of_W1 m ρ c main_v6 (by decide) (by decide) (by decide)).trans (W1_v6 m ρ c)
theorem W5_v3 : Gen.W5 m ρ c (Proc.devRef .tc main_v3) = Term.kv_main_v3 (F := Ideal) (m ((c : Thread nD τ).loc main_arg1)) :=
  (keep4 (Gen.W4 m ρ c) main_v3 (by decide)).trans (W4_v3 m ρ c)
theorem W5_v6 : Gen.W5 m ρ c (Proc.devRef .tc main_v6) = Term.kv_main_v6 (F := Ideal) (m ((c : Thread nD τ).loc main_arg1)) :=
  (keep4 (Gen.W4 m ρ c) main_v6 (by decide)).trans (W4_v6 m ρ c)

/-! ### After the second stretch: the scale -/

theorem W2_v14 : Gen.W2 m ρ c (Proc.devRef .tc main_v14) = Term.kv_main_v14 (F := Ideal) (m ((c : Thread nD τ).loc main_arg1)) := by
  refine (s1_v14 (Gen.W1 m ρ c)).trans ?_
  rw [W1_v12 m ρ c, W1_v13 m ρ c, W1_cst_2 m ρ c]
  rfl
theorem W4_v14 : Gen.W4 m ρ c (Proc.devRef .tc main_v14) = Term.kv_main_v14 (F := Ideal) (m ((c : Thread nD τ).loc main_arg1)) :=
  (keep3 (Gen.W3 m ρ c) main_v14 (by decide)).trans <| (keep2 (Gen.W2 m ρ c) main_v14 (by decide)).trans (W2_v14 m ρ c)

/-! ### After the third and fourth stretches: the padded feature -/

theorem W3_c : Gen.W3 m ρ c (Proc.devRef .tc main_c) = constantI S_ 32 0#32 := s2_c (Gen.W2 m ρ c)
theorem W4_v15 : Gen.W4 m ρ c (Proc.devRef .tc main_v15) = Term.kv_main_v15 (F := Ideal) (m ((c : Thread nD τ).loc main_arg0)) := by
  refine (s3_v15 (Gen.W3 m ρ c)).trans ?_
  rw [W3_c m ρ c, W3_arg m ρ c main_arg0 (by decide) (by decide) (by decide)]
  rfl

/-! ### At the first launch's entry: its five input arrays, by window -/

theorem V5_win0 : Gen.V5 m ρ c (Pipeline.arrRef spec0 0)
    = Term.kv_main_v29 (F := Ideal) (m ((c : Thread nD τ).loc main_arg0)) (m ((c : Thread nD τ).loc main_arg1)) := by
  refine (s4_v29 (Gen.W4 m ρ c)).trans ?_
  rw [W4_v6 m ρ c, W4_v15 m ρ c, W4_v14 m ρ c, W4_v3 m ρ c]
  rfl
theorem W5_v30 : Gen.W5 m ρ c (Proc.devRef .tc main_v30) = Term.kv_main_v30 (F := Ideal) (m ((c : Thread nD τ).loc main_arg1)) := by
  refine (s4_v30 (Gen.W4 m ρ c)).trans ?_
  rw [W4_v14 m ρ c]
  rfl
theorem V5_win1 : Gen.V5 m ρ c (Pipeline.arrRef spec0 1) = Term.kv_main_v30 (F := Ideal) (m ((c : Thread nD τ).loc main_arg1)) :=
  W5_v30 m ρ c
theorem V5_win2 : Gen.V5 m ρ c (Pipeline.arrRef spec0 2) = m ((c : Thread nD τ).loc main_arg2) :=
  W5_arg m ρ c main_arg2 (by decide) (by decide) (by decide) (by decide) (by decide)
theorem V5_win3 : Gen.V5 m ρ c (Pipeline.arrRef spec0 3) = Term.kv_main_v31 (F := Ideal) (m ((c : Thread nD τ).loc main_arg3)) := by
  refine (s4_v31 (Gen.W4 m ρ c)).trans ?_
  rw [W4_arg m ρ c main_arg3 (by decide) (by decide) (by decide) (by decide)]
theorem V5_win4 : Gen.V5 m ρ c (Pipeline.arrRef spec0 4) = m ((c : Thread nD τ).loc main_arg4) :=
  W5_arg m ρ c main_arg4 (by decide) (by decide) (by decide) (by decide) (by decide)

/-! ### At the first launch's exit: its output array at what the write-backs leave, the rest as entered -/

theorem W6_v32 : Gen.W6 m ρ c (Proc.devRef .tc main_v32) = (Gen.dat0 (Gen.V5 m ρ) c).arrAt 5 cfg0.N :=
  Gen.W6_arr m ρ c 5
theorem W6_v3 : Gen.W6 m ρ c (Proc.devRef .tc main_v3) = Term.kv_main_v3 (F := Ideal) (m ((c : Thread nD τ).loc main_arg1)) :=
  (Gen.W6_of_ne m ρ c main_v3 (by decide)).trans (W5_v3 m ρ c)
theorem W6_v6 : Gen.W6 m ρ c (Proc.devRef .tc main_v6) = Term.kv_main_v6 (F := Ideal) (m ((c : Thread nD τ).loc main_arg1)) :=
  (Gen.W6_of_ne m ρ c main_v6 (by decide)).trans (W5_v6 m ρ c)
/-- An input window's array leaves the launch as it entered. -/
theorem W6_in (w : Fin cfg0.W) (hin : (cfg0.win w).isOut = false) :
    Gen.W6 m ρ c (Proc.devRef .tc (Pipeline.arrRef spec0 w)) = Gen.V5 m ρ c (Pipeline.arrRef spec0 w) :=
  (Gen.W6_arr m ρ c w).trans (((Gen.dat0 (Gen.V5 m ρ) c).arrAt_in w hin _).trans (Gen.A_eq0 (Gen.V5 m ρ) c w))
theorem W6_v30 : Gen.W6 m ρ c (Proc.devRef .tc main_v30) = Term.kv_main_v30 (F := Ideal) (m ((c : Thread nD τ).loc main_arg1)) :=
  (W6_in m ρ c 1 rfl).trans (V5_win1 m ρ c)
theorem W6_arg (r : Ref sig .tc) (hr : ∀ w, Pipeline.arrRef spec0 w ≠ r)
    (h0 : r ∉ wr0) (h1 : r ∉ wr1) (h2 : r ∉ wr2) (h3 : r ∉ wr3) (h4 : r ∉ wr4) :
    Gen.W6 m ρ c (Proc.devRef .tc r) = m ((c : Thread nD τ).loc r) :=
  (Gen.W6_of_ne m ρ c r hr).trans (W5_arg m ρ c r h0 h1 h2 h3 h4)

/-! ### At the second launch's entry: its five input arrays, by window -/

theorem V7_win0 : Gen.V7 m ρ c (Pipeline.arrRef spec1 0)
    = Term.kv_main_v42 (F := Ideal) (m ((c : Thread nD τ).loc main_arg1)) (Gen.W6 m ρ c (Proc.devRef .tc main_v32)) := by
  refine (s5_v42 (Gen.W6 m ρ c)).trans ?_
  rw [W6_v6 m ρ c, W6_v3 m ρ c]
  rfl
theorem V7_win1 : Gen.V7 m ρ c (Pipeline.arrRef spec1 1) = Term.kv_main_v30 (F := Ideal) (m ((c : Thread nD τ).loc main_arg1)) :=
  (keep5 (Gen.W6 m ρ c) main_v30 (by decide)).trans (W6_v30 m ρ c)
theorem V7_win2 : Gen.V7 m ρ c (Pipeline.arrRef spec1 2) = Term.kv_main_v43 (F := Ideal) (m ((c : Thread nD τ).loc main_arg5)) := by
  refine (s5_v43 (Gen.W6 m ρ c)).trans ?_
  rw [W6_arg m ρ c main_arg5 (by decide) (by decide) (by decide) (by decide) (by decide) (by decide)]
theorem V7_win3 : Gen.V7 m ρ c (Pipeline.arrRef spec1 3) = m ((c : Thread nD τ).loc main_arg6) :=
  (keep5 (Gen.W6 m ρ c) main_arg6 (by decide)).trans
    (W6_arg m ρ c main_arg6 (by decide) (by decide) (by decide) (by decide) (by decide) (by decide))
theorem V7_win4 : Gen.V7 m ρ c (Pipeline.arrRef spec1 4) = Term.kv_main_v44 (F := Ideal) (m ((c : Thread nD τ).loc main_arg7)) := by
  refine (s5_v44 (Gen.W6 m ρ c)).trans ?_
  rw [W6_arg m ρ c main_arg7 (by decide) (by decide) (by decide) (by decide) (by decide) (by decide)]

/-! ### At the second launch's exit, and the result -/

theorem W8_v45 : Gen.W8 m ρ c (Proc.devRef .tc main_v45) = (Gen.dat1 (Gen.V7 m ρ) c).arrAt 5 cfg1.N :=
  Gen.W8_arr m ρ c 5
theorem W9_v47 : Gen.W9 m ρ c (Proc.devRef .tc main_v47) = Term.kv_main_v47 (F := Ideal) (Gen.W8 m ρ c (Proc.devRef .tc main_v45)) :=
  s6_v47 (Gen.W8 m ρ c)

/-- What the first launch's output array is, as a function of its five input arrays as the launch finds them. -/
abbrev Cover0 : Prop :=
  ∀ (V : (c : Dev nD) → (b : Ref sig .tc) → Buf (Elt Ideal) ((c : Thread nD τ).loc b)) (c : Dev nD),
    (Gen.dat0 V c).arrAt 5 cfg0.N
      = Term.G0 (V c (Pipeline.arrRef spec0 0)) (V c (Pipeline.arrRef spec0 1)) (V c (Pipeline.arrRef spec0 2))
          (V c (Pipeline.arrRef spec0 3)) (V c (Pipeline.arrRef spec0 4))
/-- What the second launch's output array is, as a function of its five input arrays as the launch finds them. -/
abbrev Cover1 : Prop :=
  ∀ (V : (c : Dev nD) → (b : Ref sig .tc) → Buf (Elt Ideal) ((c : Thread nD τ).loc b)) (c : Dev nD),
    (Gen.dat1 V c).arrAt 5 cfg1.N
      = Term.G1 (V c (Pipeline.arrRef spec1 0)) (V c (Pipeline.arrRef spec1 1)) (V c (Pipeline.arrRef spec1 2))
          (V c (Pipeline.arrRef spec1 3)) (V c (Pipeline.arrRef spec1 4))

/-- The first launch's output array after the launch, over the arguments. -/
theorem W6_v32_eq (h0 : Cover0) : Gen.W6 m ρ c (Proc.devRef .tc main_v32)
    = Term.G0 (Term.kv_main_v29 (F := Ideal) (m ((c : Thread nD τ).loc main_arg0)) (m ((c : Thread nD τ).loc main_arg1)))
        (Term.kv_main_v30 (F := Ideal) (m ((c : Thread nD τ).loc main_arg1))) (m ((c : Thread nD τ).loc main_arg2))
        (Term.kv_main_v31 (F := Ideal) (m ((c : Thread nD τ).loc main_arg3))) (m ((c : Thread nD τ).loc main_arg4)) := by
  refine (W6_v32 m ρ c).trans <| (h0 (Gen.V5 m ρ) c).trans ?_
  rw [V5_win0 m ρ c, V5_win1 m ρ c, V5_win2 m ρ c, V5_win3 m ρ c, V5_win4 m ρ c]

/-- The second launch's output array after the launch, over the arguments and the first launch's output array. -/
theorem W8_v45_eq (h1 : Cover1) : Gen.W8 m ρ c (Proc.devRef .tc main_v45)
    = Term.G1 (Term.kv_main_v42 (F := Ideal) (m ((c : Thread nD τ).loc main_arg1)) (Gen.W6 m ρ c (Proc.devRef .tc main_v32)))
        (Term.kv_main_v30 (F := Ideal) (m ((c : Thread nD τ).loc main_arg1))) (Term.kv_main_v43 (F := Ideal) (m ((c : Thread nD τ).loc main_arg5)))
        (m ((c : Thread nD τ).loc main_arg6)) (Term.kv_main_v44 (F := Ideal) (m ((c : Thread nD τ).loc main_arg7))) := by
  refine (W8_v45 m ρ c).trans <| (h1 (Gen.V7 m ρ) c).trans ?_
  rw [V7_win0 m ρ c, V7_win1 m ρ c, V7_win2 m ρ c, V7_win3 m ρ c, V7_win4 m ρ c]

/-- THE RESULT: given what each launch's output array is as a function of the launch's five input arrays (at any entry
    contents), the fold at the result buffer is the program's term of the eight argument arrays. -/
theorem result_eq (h0 : Cover0) (h1 : Cover1) :
    Gen.W9 m ρ c (Proc.devRef .tc main_v47)
      = Term.kernelOut (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  rw [W9_v47 m ρ c, W8_v45_eq m ρ c h1, W6_v32_eq m ρ c h0]
  rfl

end Fold

/-- info: 'Cert.KernelIdeal.RunValue.result_eq' depends on axioms: [propext, Classical.choice, Quot.sound] -/
#guard_msgs in #print axioms result_eq

end Cert.KernelIdeal.RunValue

end
-- ==== Proof.LibPlainDot.lean ====
/-
  A plain matrix product read at an entry, on the extended reals.

  For the dimension numbers "rows x contraction times contraction x columns" (`DotDims.plain M K N`: the left
  operand [M, K] contracted on its second axis, the right operand [K, N] on its first, no batch axis), both a
  `tpu.matmul` into the zero accumulator and the host's `dot_general` are, at an output entry (r, c), the plain sum

      sum over k < K of  l (r, k) * r (k, c)

  of products of extended reals: no rounding, no chunking and no accumulator are left. Nothing is assumed finite: the
  statement is about one and the same finite sum of products, only re-indexed from the contraction's own index type
  to `Fin K`. Generic in the three extents, so one statement serves a row block of a matrix and the whole matrix.
-/
import Idealize.ShloMosaic.PureOps.Ideal.Laws
import Idealize.ShloMosaic.Lib.ValueIdx

noncomputable section

namespace PlainDot

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single rfl j _).trans hk

/-- The right operand's index at output entry `j` and contraction position `k` is (`k`, column of `j`). -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ =>
    exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction's sum, over its own index type, is the sum over `k < K` of `l (row, k) * r (k, column)`. -/
theorem sum_eq (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  rw [lhsIdx_eq, rhsIdx_eq]
  rfl

/-- A `tpu.matmul` into the zero accumulator, at an entry: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, (l (ix2 (j 0) k) : EReal) * r (ix2 k (j 1)) :=
  (Ideal.matmul_constant_zero_apply (DotDims.plain M K N) prec l r j).trans (sum_eq M K N l r j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, (l (ix2 (j 0) k) : EReal) * r (ix2 k (j 1)) :=
  (Ideal.dotGeneral_apply (DotDims.plain M K N) prec sched l r j).trans (sum_eq M K N l r j)

end PlainDot

end
-- ==== Proof.LibColumnBroadcast.lean ====
/-
  A column broadcast across columns, read at an entry.

  An `[a, 1]` array broadcast to `[a, b]` holds, at `(p, c)`, the operand's entry `(p, 0)`: every column of the
  result is the operand's one column. Generic in the two extents and in the element type.
-/
import Idealize.ShloMosaic.Lib.Pipeline.Value
import Idealize.ShloMosaic.Lib.ValueIdx

noncomputable section

namespace ColumnBroadcast

open Idealize.ShloMosaic Idealize.ShloMosaic.ValueIdx

/-- An `[a, 1]` array broadcast to `[a, b]` reads, at `(p, c)`, the operand at `(p, 0)`. -/
theorem apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end ColumnBroadcast

end
-- ==== Proof.LibRowBroadcast.lean ====
/-
  A row [1, b] broadcast along the rows of an [a, b] array, read at coordinates: the entry (p, c) is the row's entry
  (0, c). (The column counterpart, an [a, 1] column broadcast to [a, b], reads the column's entry (p, 0).)
-/
import Idealize.ShloMosaic.Lib.ValueLayout
import Idealize.ShloMosaic.Lib.Pipeline.Value

namespace RowBroadcast

open Idealize.ShloMosaic Idealize.ShloMosaic.ValueIdx

/-- A [1, b] row broadcast to [a, b] reads, at (p, c), the row's entry at column c. -/
theorem broadcastTo_1b_ab_apply {α : Type} {a b : ℕ} (v : (⟨2, ![1, b]⟩ : Shape).Idx → α)
    (h : (⟨2, ![1, b]⟩ : Shape).Broadcasts ⟨2, ![a, b]⟩) (hb : b ≠ 1) (p : Fin a) (c : Fin b) :
    broadcastTo ⟨2, ![a, b]⟩ v h (ix2 p c) = v (ix2 (0 : Fin 1) c) := by
  refine broadcastTo_apply v h (ix2 p c) (ix2 (0 : Fin 1) c) fun ax => ?_
  match ax with
  | ⟨0, _⟩ => show (0 : Nat) = if (1 : Nat) = 1 then 0 else _; rw [if_pos rfl]
  | ⟨1, _⟩ => show c.val = if b = 1 then 0 else c.val; rw [if_neg hb]

end RowBroadcast
-- ==== Proof.RegionCover.lean ====
/-
  What each of the two launches leaves in its output array, as one function of the arrays the launch finds.

  Both launches run over a grid of 25 points. At point `t` every row-tiled operand's block is rows
  `4096 t … 4096 t + 4095` of its array and every weight operand's block is its whole array; the body stores one
  whole block. So the value stored at row `p` of point `t`'s block is the target function at row `4096 t + p` of the
  array (`point0`, `point1`: the stored value read at an entry, against the arrays), point `t` writes back block `t` of
  that function (`flushed0_eq`, `flushed1_eq`), row `r` lies in the block of point `r / 4096` (`cover0`, `cover1`), and
  the array ends holding the function everywhere (`arr0`, `arr1`).
-/
import proofs.«165254_j14748917694868_2_alg».proof.Proof.Gen.KernelIdeal.Frame
import proofs.«165254_j14748917694868_2_alg».proof.Proof.KernelTerm
import proofs.«165254_j14748917694868_2_alg».proof.Proof.LibPlainDot
import proofs.«165254_j14748917694868_2_alg».proof.Proof.LibColumnBroadcast
import proofs.«165254_j14748917694868_2_alg».proof.Proof.LibRowBroadcast
import Idealize.ShloMosaic.Lib.Pipeline.Value
import Idealize.ShloMosaic.Lib.ValueIdx

set_option maxRecDepth 16384

noncomputable section

namespace Cert.KernelIdeal.Cover

open Cert.KernelIdeal Cert.KernelIdeal.Gen Idealize.ShloMosaic Idealize.ShloMosaic.TcCoe Idealize.ShloMosaic.ValueIdx
open Idealize.ShloMosaic.Pipeline (Dat)
open scoped BigOperators

/-- The zero offsets of a whole-block rectangle. -/
theorem hz : (![0, 0] : Fin 2 → Nat) = fun _ => 0 := funext fun a => by fin_cases a <;> rfl

/-! ## The first launch's stored value at an entry -/

/-- The first body's stored value at row `p`, column `q` of its block: the row's scalar times the first weight row plus
    the bias, rectified, multiplied into column `q` of the 64×64 matrix, times the row's scale. -/
theorem pay0_apply (v0 : Vec Ideal S4096x1 .f32) (v2 v6 : Vec Ideal S1x64 .f32) (v13 : Vec Ideal S64x64 .f32)
    (v16 : Vec Ideal S4096x1 .f32) (p : Fin 4096) (q : Fin 64) :
    k0_pay1 v0 v2 v6 v13 v16 (ix2 p q)
      = (∑ k : Fin 64, max (v0 (ix2 p (0 : Fin 1)) * v2 (ix2 (0 : Fin 1) k) + v6 (ix2 (0 : Fin 1) k)) 0 * v13 (ix2 k q))
          * v16 (ix2 p (0 : Fin 1)) := by
  unfold k0_pay1
  simp only [shapeCast_self]
  rw [mulf_apply, ColumnBroadcast.apply]
  refine congrArg (fun x : EReal => x * v16 (ix2 p (0 : Fin 1))) ?_
  refine (PlainDot.matmul_zero_apply 4096 64 64 none _ _ (ix2 p q)).trans ?_
  refine Finset.sum_congr rfl fun k _ => ?_
  rw [truncf_apply, truncf_apply, maximumf_apply, addf_apply, mulf_apply,
    ColumnBroadcast.apply, RowBroadcast.broadcastTo_1b_ab_apply _ _ (by decide),
    RowBroadcast.broadcastTo_1b_ab_apply _ _ (by decide), broadcast_apply]
  show max _ (Ideal.ofBits .f32 0x00000000#32) * v13 (ix2 k q) = _
  rw [Ideal.ofBits_zero_f32]

/-- The same value against the whole arrays: when the block's row `p` is row `r` of the row-tiled arrays and the weight
    blocks are the weight arrays, the stored value at `(p, q)` is the target function at the array index `i = (r, q)`. -/
theorem point0 (sc dv : FVec Ideal S102400x1 .f32) (w1 b1r : FVec Ideal S1x64 .f32) (w2 : FVec Ideal S64x64 .f32)
    (x0 x1 : Vec Ideal S4096x1 .f32) (x2 x3 : Vec Ideal S1x64 .f32) (x4 : Vec Ideal S64x64 .f32)
    (p : Fin 4096) (q : Fin 64) (i : S102400x64.Idx) (r : Fin 102400)
    (hi0 : (i 0).val = r.val) (hi1 : (i 1).val = q.val)
    (h0 : x0 (ix2 p (0 : Fin 1)) = sc (ix2 r (0 : Fin 1)))
    (h1 : x1 (ix2 p (0 : Fin 1)) = dv (ix2 r (0 : Fin 1)))
    (h2 : ∀ k : Fin 64, x2 (ix2 (0 : Fin 1) k) = w1 (ix2 (0 : Fin 1) k))
    (h3 : ∀ k : Fin 64, x3 (ix2 (0 : Fin 1) k) = b1r (ix2 (0 : Fin 1) k))
    (h4 : ∀ k : Fin 64, x4 (ix2 k q) = w2 (ix2 k q)) :
    k0_pay1 x0 x2 x3 x4 x1 (ix2 p q) = Term.G0 sc dv w1 b1r w2 i := by
  rw [pay0_apply, h0, h1]
  simp only [h2, h3, h4]
  have e0 : i 0 = r := Fin.ext hi0
  have e1 : i 1 = q := Fin.ext hi1
  show _ = Term.G0c sc dv w1 b1r w2 (i 0) (i 1)
  rw [e0, e1]
  rfl

/-! ## The first launch: from blocks to the array -/

section Region0
variable (V : (c : Dev nD) → (b : Ref sig .tc) → Buf (Elt Ideal) ((c : Thread nD τ).loc b))

/-- The printed index maps over the 25 grid points: the row-tiled windows sit at block row `t`, the weight windows at
    block (0, 0). -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Window 0's block at point `t` holds rows `4096 t … 4096 t + 4095` of its array. -/
theorem blk0_0 (c : Dev nD) (t : Fin cfg0.N) (x : S4096x1.Idx) (k : S102400x1.Idx)
    (hk0 : (k 0).val = 4096 * t.val + (x 0).val) (hk1 : (k 1).val = (x 1).val) :
    (iblk0 V c 0 t : Vec Ideal S4096x1 .f32) x = (V c (Pipeline.arrRef spec0 0) : S102400x1.Idx → Elt Ideal .f32) k := by
  obtain ⟨e0, e1, -⟩ := index0 t
  unfold iblk0
  rw [View.read_apply]
  show V c main_v29 _ = V c main_v29 _
  refine congrArg (V c main_v29) ?_
  funext a
  apply Fin.ext
  match a with
  | ⟨0, _⟩ => show win0_0.index t 0 * 4096 + 1 * (x 0).val = (k 0).val; rw [e0, hk0]; omega
  | ⟨1, _⟩ => show win0_0.index t 1 * 1 + 1 * (x 1).val = (k 1).val; rw [e1, hk1]; omega

/-- Window 1's block at point `t` holds rows `4096 t … 4096 t + 4095` of its array. -/
theorem blk0_1 (c : Dev nD) (t : Fin cfg0.N) (x : S4096x1.Idx) (k : S102400x1.Idx)
    (hk0 : (k 0).val = 4096 * t.val + (x 0).val) (hk1 : (k 1).val = (x 1).val) :
    (iblk0 V c 1 t : Vec Ideal S4096x1 .f32) x = (V c (Pipeline.arrRef spec0 1) : S102400x1.Idx → Elt Ideal .f32) k := by
  obtain ⟨-, -, e0, e1, -⟩ := index0 t
  unfold iblk0
  rw [View.read_apply]
  show V c main_v30 _ = V c main_v30 _
  refine congrArg (V c main_v30) ?_
  funext a
  apply Fin.ext
  match a with
  | ⟨0, _⟩ => show win0_1.index t 0 * 4096 + 1 * (x 0).val = (k 0).val; rw [e0, hk0]; omega
  | ⟨1, _⟩ => show win0_1.index t 1 * 1 + 1 * (x 1).val = (k 1).val; rw [e1, hk1]; omega

/-- Window 2's block at every point is its whole array. -/
theorem blk0_2 (c : Dev nD) (t : Fin cfg0.N) (x : S1x64.Idx) :
    (iblk0 V c 2 t : Vec Ideal S1x64 .f32) x = (V c (Pipeline.arrRef spec0 2) : S1x64.Idx → Elt Ideal .f32) x := by
  obtain ⟨-, -, -, -, e0, e1, -⟩ := index0 t
  unfold iblk0
  rw [View.read_apply]
  show V c main_arg2 _ = V c main_arg2 _
  refine congrArg (V c main_arg2) ?_
  funext a
  apply Fin.ext
  match a with
  | ⟨0, _⟩ => show win0_2.index t 0 * 1 + 1 * (x 0).val = (x 0).val; rw [e0]; omega
  | ⟨1, _⟩ => show win0_2.index t 1 * 64 + 1 * (x 1).val = (x 1).val; rw [e1]; omega

/-- Window 3's block at every point is its whole array. -/
theorem blk0_3 (c : Dev nD) (t : Fin cfg0.N) (x : S1x64.Idx) :
    (iblk0 V c 3 t : Vec Ideal S1x64 .f32) x = (V c (Pipeline.arrRef spec0 3) : S1x64.Idx → Elt Ideal .f32) x := by
  obtain ⟨-, -, -, -, -, -, e0, e1, -⟩ := index0 t
  unfold iblk0
  rw [View.read_apply]
  show V c main_v31 _ = V c main_v31 _
  refine congrArg (V c main_v31) ?_
  funext a
  apply Fin.ext
  match a with
  | ⟨0, _⟩ => show win0_3.index t 0 * 1 + 1 * (x 0).val = (x 0).val; rw [e0]; omega
  | ⟨1, _⟩ => show win0_3.index t 1 * 64 + 1 * (x 1).val = (x 1).val; rw [e1]; omega

/-- Window 4's block at every point is its whole array. -/
theorem blk0_4 (c : Dev nD) (t : Fin cfg0.N) (x : S64x64.Idx) :
    (iblk0 V c 4 t : Vec Ideal S64x64 .f32) x = (V c (Pipeline.arrRef spec0 4) : S64x64.Idx → Elt Ideal .f32) x := by
  obtain ⟨-, -, -, -, -, -, -, -, e0, e1, -⟩ := index0 t
  unfold iblk0
  rw [View.read_apply]
  show V c main_arg4 _ = V c main_arg4 _
  refine congrArg (V c main_arg4) ?_
  funext a
  apply Fin.ext
  match a with
  | ⟨0, _⟩ => show win0_4.index t 0 * 64 + 1 * (x 0).val = (x 0).val; rw [e0]; omega
  | ⟨1, _⟩ => show win0_4.index t 1 * 64 + 1 * (x 1).val = (x 1).val; rw [e1]; omega

/-- What point `t` writes back is block `t` of the target function of the arrays as the region finds them. -/
theorem flushed0_eq (c : Dev nD) (t : Fin cfg0.N) :
    (dat0 V c).flushed 5 t = ((cfg0.win 5).blk t).view.read (Elt Ideal)
      (Term.G0 (V c (Pipeline.arrRef spec0 0)) (V c (Pipeline.arrRef spec0 1)) (V c (Pipeline.arrRef spec0 2))
        (V c (Pipeline.arrRef spec0 3)) (V c (Pipeline.arrRef spec0 4))) := by
  show (cfg0.win 5).cut (grid0.coords t) ((dat0 V c).after 5 t) = _
  rw [after0_5]
  unfold out0_5
  rw [View.canon_unit_zero hz]
  simp only [View.ld_unit_zero (S := S4096x1) hz, View.ld_unit_zero (S := S1x64) hz, View.ld_unit_zero (S := S64x64) hz]
  obtain ⟨-, -, -, -, -, -, -, -, -, -, e0, e1⟩ := index0 t
  have ht : t.val < 25 := Nat.lt_of_lt_of_eq t.isLt N_0
  funext j
  obtain ⟨p, q, rfl⟩ : ∃ (p : Fin 4096) (q : Fin 64), j = ix2 p q := ⟨j 0, j 1, eq_ix2 j⟩
  have hp : p.val < 4096 := p.isLt
  refine point0 (V c (Pipeline.arrRef spec0 0)) (V c (Pipeline.arrRef spec0 1)) (V c (Pipeline.arrRef spec0 2))
    (V c (Pipeline.arrRef spec0 3)) (V c (Pipeline.arrRef spec0 4))
    (iblk0 V c 0 t) (iblk0 V c 1 t) (iblk0 V c 2 t) (iblk0 V c 3 t) (iblk0 V c 4 t) p q
    (((cfg0.win 5).blk t).view.emb (ix2 p q)) ⟨4096 * t.val + p.val, by omega⟩ ?_ ?_ ?_ ?_ ?_ ?_ ?_
  · show win0_5.index t 0 * 4096 + 1 * p.val = 4096 * t.val + p.val; rw [e0]; omega
  · show win0_5.index t 1 * 64 + 1 * q.val = q.val; rw [e1]; omega
  · exact blk0_0 V c t _ _ rfl rfl
  · exact blk0_1 V c t _ _ rfl rfl
  · exact fun k => blk0_2 V c t _
  · exact fun k => blk0_3 V c t _
  · exact fun k => blk0_4 V c t _

/-- An index of the output array is in point `t`'s block iff each coordinate is in the block's range on its axis. -/
theorem mem_blk0 (t : Fin cfg0.N) (i : S102400x64.Idx) :
    i ∈ ((cfg0.win 5).blk t).view.set ↔ ∀ a : Fin 2, win0_5.index t a * S4096x64.size a ≤ (i a).val ∧ (i a).val < win0_5.index t a * S4096x64.size a + S4096x64.size a := by
  show i ∈ ((View.whole main_v32).slice (win0_5.rect t)).set ↔ _
  rw [View.set_slice_whole, Rect.mem_set_unit]
  exact Iff.rfl

/-- Every index of the output array is in some point's block: row `r` in the block of point `r / 4096`. -/
theorem cover0 (i : S102400x64.Idx) :
    ∃ t : Fin cfg0.N, (cfg0.win 5).flush t = true ∧ i ∈ ((cfg0.win 5).blk t).view.set := by
  have hi0 : (i 0).val < 102400 := (i 0).isLt
  have hi1 : (i 1).val < 64 := (i 1).isLt
  obtain ⟨t, ht⟩ : ∃ t : Fin cfg0.N, t.val = (i 0).val / 4096 :=
    ⟨⟨(i 0).val / 4096, Nat.lt_of_lt_of_eq (by omega : (i 0).val / 4096 < 25) N_0.symm⟩, rfl⟩
  obtain ⟨-, -, -, -, -, -, -, -, -, -, e0, e1⟩ := index0 t
  refine ⟨t, flush0_5 t, ?_⟩
  rw [mem_blk0]
  intro a
  match a with
  | ⟨0, _⟩ => show win0_5.index t 0 * 4096 ≤ (i 0).val ∧ (i 0).val < win0_5.index t 0 * 4096 + 4096; rw [e0, ht]; omega
  | ⟨1, _⟩ => show win0_5.index t 1 * 64 ≤ (i 1).val ∧ (i 1).val < win0_5.index t 1 * 64 + 64; rw [e1]; omega

/-- THE FIRST LAUNCH'S OUTPUT ARRAY after the run: the target function of the arrays as the region finds them. -/
theorem arr0 (c : Dev nD) :
    (Gen.dat0 V c).arrAt 5 cfg0.N
      = Term.G0 (V c (Pipeline.arrRef spec0 0)) (V c (Pipeline.arrRef spec0 1)) (V c (Pipeline.arrRef spec0 2))
          (V c (Pipeline.arrRef spec0 3)) (V c (Pipeline.arrRef spec0 4)) :=
  (dat0 V c).arrAt_eq_of_cover 5
    (Term.G0 (V c (Pipeline.arrRef spec0 0)) (V c (Pipeline.arrRef spec0 1)) (V c (Pipeline.arrRef spec0 2))
      (V c (Pipeline.arrRef spec0 3)) (V c (Pipeline.arrRef spec0 4)))
    (fun t _ => flushed0_eq V c t) cover0

end Region0

/-! ## The second launch's stored value at an entry -/

/-- The second body's stored value at row `p` of its block: the row times its scale plus the bias, rectified, multiplied
    into the head's column, plus the head's bias. -/
theorem pay1_apply (v0 : Vec Ideal S4096x64 .f32) (v2 : Vec Ideal S4096x1 .f32) (v6 : Vec Ideal S1x64 .f32)
    (v13 : Vec Ideal S64x1 .f32) (v16 : Vec Ideal S1x1 .f32) (p : Fin 4096) (q : Fin 1) :
    k1_pay1 v0 v2 v6 v13 v16 (ix2 p q)
      = (∑ k : Fin 64, max (v0 (ix2 p k) * v2 (ix2 p (0 : Fin 1)) + v6 (ix2 (0 : Fin 1) k)) 0 * v13 (ix2 k q))
          + v16 (ix2 (0 : Fin 1) (0 : Fin 1)) := by
  unfold k1_pay1
  simp only [shapeCast_self]
  rw [addf_apply]
  refine congrArg₂ (fun x y : EReal => x + y) ?_ ?_
  · refine (PlainDot.matmul_zero_apply 4096 64 1 none _ _ (ix2 p q)).trans ?_
    refine Finset.sum_congr rfl fun k _ => ?_
    rw [truncf_apply, truncf_apply, maximumf_apply, addf_apply, mulf_apply, ColumnBroadcast.apply,
      RowBroadcast.broadcastTo_1b_ab_apply _ _ (by decide), broadcast_apply]
    show max _ (Ideal.ofBits .f32 0x00000000#32) * v13 (ix2 k q) = _
    rw [Ideal.ofBits_zero_f32]
  · refine broadcastTo_apply v16 broadcasts_S1x1_S4096x1 (ix2 p q) (ix2 (0 : Fin 1) (0 : Fin 1)) fun a => ?_
    match a with
    | ⟨0, _⟩ => show (0 : Nat) = if (1 : Nat) = 1 then 0 else _; rw [if_pos rfl]
    | ⟨1, _⟩ => show (0 : Nat) = if (1 : Nat) = 1 then 0 else _; rw [if_pos rfl]

/-- The same value against the whole arrays: when the block's row `p` is row `r` of the row-tiled arrays and the weight
    blocks are the weight arrays, the stored value at row `p` is the target function at the array index `i = (r, 0)`. -/
theorem point1 (agg : FVec Ideal S102400x64 .f32) (dv : FVec Ideal S102400x1 .f32) (b2r : FVec Ideal S1x64 .f32)
    (wfc : FVec Ideal S64x1 .f32) (bfcr : FVec Ideal S1x1 .f32)
    (x0 : Vec Ideal S4096x64 .f32) (x1 : Vec Ideal S4096x1 .f32) (x2 : Vec Ideal S1x64 .f32) (x3 : Vec Ideal S64x1 .f32)
    (x4 : Vec Ideal S1x1 .f32) (p : Fin 4096) (q : Fin 1) (i : S102400x1.Idx) (r : Fin 102400)
    (hi0 : (i 0).val = r.val)
    (h0 : ∀ k : Fin 64, x0 (ix2 p k) = agg (ix2 r k))
    (h1 : x1 (ix2 p (0 : Fin 1)) = dv (ix2 r (0 : Fin 1)))
    (h2 : ∀ k : Fin 64, x2 (ix2 (0 : Fin 1) k) = b2r (ix2 (0 : Fin 1) k))
    (h3 : ∀ k : Fin 64, x3 (ix2 k (0 : Fin 1)) = wfc (ix2 k (0 : Fin 1)))
    (h4 : x4 (ix2 (0 : Fin 1) (0 : Fin 1)) = bfcr (ix2 (0 : Fin 1) (0 : Fin 1))) :
    k1_pay1 x0 x1 x2 x3 x4 (ix2 p q) = Term.G1 agg dv b2r wfc bfcr i := by
  obtain rfl : q = 0 := Subsingleton.elim _ _
  rw [pay1_apply, h1, h4]
  simp only [h0, h2, h3]
  have e0 : i 0 = r := Fin.ext hi0
  show _ = Term.G1c agg dv b2r wfc bfcr (i 0)
  rw [e0]
  rfl

/-! ## The second launch: from blocks to the array -/

section Region1
variable (V : (c : Dev nD) → (b : Ref sig .tc) → Buf (Elt Ideal) ((c : Thread nD τ).loc b))

/-- The printed index maps over the 25 grid points: the row-tiled windows sit at block row `t`, the weight windows at
    block (0, 0). -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point `t` holds rows `4096 t … 4096 t + 4095` of its array. -/
theorem blk1_0 (c : Dev nD) (t : Fin cfg1.N) (x : S4096x64.Idx) (k : S102400x64.Idx)
    (hk0 : (k 0).val = 4096 * t.val + (x 0).val) (hk1 : (k 1).val = (x 1).val) :
    (iblk1 V c 0 t : Vec Ideal S4096x64 .f32) x = (V c (Pipeline.arrRef spec1 0) : S102400x64.Idx → Elt Ideal .f32) k := by
  obtain ⟨e0, e1, -⟩ := index1 t
  unfold iblk1
  rw [View.read_apply]
  show V c main_v42 _ = V c main_v42 _
  refine congrArg (V c main_v42) ?_
  funext a
  apply Fin.ext
  match a with
  | ⟨0, _⟩ => show win1_0.index t 0 * 4096 + 1 * (x 0).val = (k 0).val; rw [e0, hk0]; omega
  | ⟨1, _⟩ => show win1_0.index t 1 * 64 + 1 * (x 1).val = (k 1).val; rw [e1, hk1]; omega

/-- Window 1's block at point `t` holds rows `4096 t … 4096 t + 4095` of its array. -/
theorem blk1_1 (c : Dev nD) (t : Fin cfg1.N) (x : S4096x1.Idx) (k : S102400x1.Idx)
    (hk0 : (k 0).val = 4096 * t.val + (x 0).val) (hk1 : (k 1).val = (x 1).val) :
    (iblk1 V c 1 t : Vec Ideal S4096x1 .f32) x = (V c (Pipeline.arrRef spec1 1) : S102400x1.Idx → Elt Ideal .f32) k := by
  obtain ⟨-, -, e0, e1, -⟩ := index1 t
  unfold iblk1
  rw [View.read_apply]
  show V c main_v30 _ = V c main_v30 _
  refine congrArg (V c main_v30) ?_
  funext a
  apply Fin.ext
  match a with
  | ⟨0, _⟩ => show win1_1.index t 0 * 4096 + 1 * (x 0).val = (k 0).val; rw [e0, hk0]; omega
  | ⟨1, _⟩ => show win1_1.index t 1 * 1 + 1 * (x 1).val = (k 1).val; rw [e1, hk1]; omega

/-- Window 2's block at every point is its whole array. -/
theorem blk1_2 (c : Dev nD) (t : Fin cfg1.N) (x : S1x64.Idx) :
    (iblk1 V c 2 t : Vec Ideal S1x64 .f32) x = (V c (Pipeline.arrRef spec1 2) : S1x64.Idx → Elt Ideal .f32) x := by
  obtain ⟨-, -, -, -, e0, e1, -⟩ := index1 t
  unfold iblk1
  rw [View.read_apply]
  show V c main_v43 _ = V c main_v43 _
  refine congrArg (V c main_v43) ?_
  funext a
  apply Fin.ext
  match a with
  | ⟨0, _⟩ => show win1_2.index t 0 * 1 + 1 * (x 0).val = (x 0).val; rw [e0]; omega
  | ⟨1, _⟩ => show win1_2.index t 1 * 64 + 1 * (x 1).val = (x 1).val; rw [e1]; omega

/-- Window 3's block at every point is its whole array. -/
theorem blk1_3 (c : Dev nD) (t : Fin cfg1.N) (x : S64x1.Idx) :
    (iblk1 V c 3 t : Vec Ideal S64x1 .f32) x = (V c (Pipeline.arrRef spec1 3) : S64x1.Idx → Elt Ideal .f32) x := by
  obtain ⟨-, -, -, -, -, -, e0, e1, -⟩ := index1 t
  unfold iblk1
  rw [View.read_apply]
  show V c main_arg6 _ = V c main_arg6 _
  refine congrArg (V c main_arg6) ?_
  funext a
  apply Fin.ext
  match a with
  | ⟨0, _⟩ => show win1_3.index t 0 * 64 + 1 * (x 0).val = (x 0).val; rw [e0]; omega
  | ⟨1, _⟩ => show win1_3.index t 1 * 1 + 1 * (x 1).val = (x 1).val; rw [e1]; omega

/-- Window 4's block at every point is its whole array. -/
theorem blk1_4 (c : Dev nD) (t : Fin cfg1.N) (x : S1x1.Idx) :
    (iblk1 V c 4 t : Vec Ideal S1x1 .f32) x = (V c (Pipeline.arrRef spec1 4) : S1x1.Idx → Elt Ideal .f32) x := by
  obtain ⟨-, -, -, -, -, -, -, -, e0, e1, -⟩ := index1 t
  unfold iblk1
  rw [View.read_apply]
  show V c main_v44 _ = V c main_v44 _
  refine congrArg (V c main_v44) ?_
  funext a
  apply Fin.ext
  match a with
  | ⟨0, _⟩ => show win1_4.index t 0 * 1 + 1 * (x 0).val = (x 0).val; rw [e0]; omega
  | ⟨1, _⟩ => show win1_4.index t 1 * 1 + 1 * (x 1).val = (x 1).val; rw [e1]; omega

/-- What point `t` writes back is block `t` of the target function of the arrays as the region finds them. -/
theorem flushed1_eq (c : Dev nD) (t : Fin cfg1.N) :
    (dat1 V c).flushed 5 t = ((cfg1.win 5).blk t).view.read (Elt Ideal)
      (Term.G1 (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  unfold out1_5
  rw [View.canon_unit_zero hz]
  simp only [View.ld_unit_zero (S := S4096x64) hz, View.ld_unit_zero (S := S4096x1) hz, View.ld_unit_zero (S := S1x64) hz,
    View.ld_unit_zero (S := S64x1) hz, View.ld_unit_zero (S := S1x1) hz]
  obtain ⟨-, -, -, -, -, -, -, -, -, -, e0, e1⟩ := index1 t
  have ht : t.val < 25 := Nat.lt_of_lt_of_eq t.isLt N_1
  funext j
  obtain ⟨p, q, rfl⟩ : ∃ (p : Fin 4096) (q : Fin 1), j = ix2 p q := ⟨j 0, j 1, eq_ix2 j⟩
  have hp : p.val < 4096 := p.isLt
  refine point1 (V c (Pipeline.arrRef spec1 0)) (V c (Pipeline.arrRef spec1 1)) (V c (Pipeline.arrRef spec1 2))
    (V c (Pipeline.arrRef spec1 3)) (V c (Pipeline.arrRef spec1 4))
    (iblk1 V c 0 t) (iblk1 V c 1 t) (iblk1 V c 2 t) (iblk1 V c 3 t) (iblk1 V c 4 t) p q
    (((cfg1.win 5).blk t).view.emb (ix2 p q)) ⟨4096 * t.val + p.val, by omega⟩ ?_ ?_ ?_ ?_ ?_ ?_
  · show win1_5.index t 0 * 4096 + 1 * p.val = 4096 * t.val + p.val; rw [e0]; omega
  · exact fun k => blk1_0 V c t _ _ rfl rfl
  · exact blk1_1 V c t _ _ rfl rfl
  · exact fun k => blk1_2 V c t _
  · exact fun k => blk1_3 V c t _
  · exact blk1_4 V c t _

/-- An index of the output array is in point `t`'s block iff each coordinate is in the block's range on its axis. -/
theorem mem_blk1 (t : Fin cfg1.N) (i : S102400x1.Idx) :
    i ∈ ((cfg1.win 5).blk t).view.set ↔ ∀ a : Fin 2, win1_5.index t a * S4096x1.size a ≤ (i a).val ∧ (i a).val < win1_5.index t a * S4096x1.size a + S4096x1.size a := by
  show i ∈ ((View.whole main_v45).slice (win1_5.rect t)).set ↔ _
  rw [View.set_slice_whole, Rect.mem_set_unit]
  exact Iff.rfl

/-- Every index of the output array is in some point's block: row `r` in the block of point `r / 4096`. -/
theorem cover1 (i : S102400x1.Idx) :
    ∃ t : Fin cfg1.N, (cfg1.win 5).flush t = true ∧ i ∈ ((cfg1.win 5).blk t).view.set := by
  have hi0 : (i 0).val < 102400 := (i 0).isLt
  have hi1 : (i 1).val < 1 := (i 1).isLt
  obtain ⟨t, ht⟩ : ∃ t : Fin cfg1.N, t.val = (i 0).val / 4096 :=
    ⟨⟨(i 0).val / 4096, Nat.lt_of_lt_of_eq (by omega : (i 0).val / 4096 < 25) N_1.symm⟩, rfl⟩
  obtain ⟨-, -, -, -, -, -, -, -, -, -, e0, e1⟩ := index1 t
  refine ⟨t, flush1_5 t, ?_⟩
  rw [mem_blk1]
  intro a
  match a with
  | ⟨0, _⟩ => show win1_5.index t 0 * 4096 ≤ (i 0).val ∧ (i 0).val < win1_5.index t 0 * 4096 + 4096; rw [e0, ht]; omega
  | ⟨1, _⟩ => show win1_5.index t 1 * 1 ≤ (i 1).val ∧ (i 1).val < win1_5.index t 1 * 1 + 1; rw [e1]; omega

/-- THE SECOND LAUNCH'S OUTPUT ARRAY after the run: the target function of the arrays as the region finds them. -/
theorem arr1 (c : Dev nD) :
    (Gen.dat1 V c).arrAt 5 cfg1.N
      = Term.G1 (V c (Pipeline.arrRef spec1 0)) (V c (Pipeline.arrRef spec1 1)) (V c (Pipeline.arrRef spec1 2))
          (V c (Pipeline.arrRef spec1 3)) (V c (Pipeline.arrRef spec1 4)) :=
  (dat1 V c).arrAt_eq_of_cover 5
    (Term.G1 (V c (Pipeline.arrRef spec1 0)) (V c (Pipeline.arrRef spec1 1)) (V c (Pipeline.arrRef spec1 2))
      (V c (Pipeline.arrRef spec1 3)) (V c (Pipeline.arrRef spec1 4)))
    (fun t _ => flushed1_eq V c t) cover1

end Region1

end Cert.KernelIdeal.Cover

end
-- ==== Proof.KernelLayout.lean ====
/-
  Three of the host stages before the first launch, read at an entry (layout only).

  The scalar feature is padded with zeros from 100000 to 102400 rows, flattened and scaled; a row below 100000 of the
  padded column is the feature's own row, and a column [n, 1] and the flat vector [n] hold the same entries in the
  same order. So: the scaled feature at a node below 100000 is the feature there times the scale there (`v17_apply`);
  the first launch's first operand at row `r` is the aggregated feature at `r` times the scale at `r` (`v29_apply`); its
  second operand at row `r` is the scale at `r` (`v30_apply`).
-/
import proofs.«165254_j14748917694868_2_alg».proof.Proof.KernelTerm
import Idealize.ShloMosaic.Lib.KernelVsHost
import Idealize.ShloMosaic.Lib.Pipeline.Value
import Idealize.ShloMosaic.Lib.ValueIdx

noncomputable section

namespace Cert.KernelIdeal.KLayout

open Cert.KernelIdeal Cert.KernelIdeal.Gen Cert.KernelIdeal.Term Idealize.ShloMosaic Idealize.ShloMosaic.ValueIdx

/-- A flat vector [102400] viewed as a column [102400, 1] reads, at row `r`, the vector's entry `r`. -/
theorem column_apply {α : Type} (y : S102400.Idx → α) (r : Fin 102400) :
    shapeCast S102400x1 y shapeCasts_S102400_S102400x1 (ix2 r (0 : Fin 1)) = y (ix1 r) :=
  shapeCast_apply y shapeCasts_S102400_S102400x1 (ix2 r (0 : Fin 1)) (ix1 r)
    (by rewrite [Shape.rowMajor_val_two, Shape.rowMajor_val_one]; show r.val = r.val * 1 + 0; omega)

/-- A column [102400, 1] viewed as a flat vector [102400] reads, at entry `r`, the column's row `r`. -/
theorem flat_apply {α : Type} (y : S102400x1.Idx → α) (r : Fin 102400) :
    shapeCast S102400 y shapeCasts_S102400x1_S102400 (ix1 r) = y (ix2 r (0 : Fin 1)) :=
  shapeCast_apply y shapeCasts_S102400x1_S102400 (ix1 r) (ix2 r (0 : Fin 1))
    (by rewrite [Shape.rowMajor_val_two, Shape.rowMajor_val_one]; show r.val * 1 + 0 = r.val; omega)

/-- The scaled padded feature at a node below 100000: the feature there times the scale there. -/
theorem v17_apply (x0 : FVec Ideal S100000x1 .f32) (x1 : IVec S2x1600000 32) (u : Fin 100000) :
    kv_main_v17 (F := Ideal) x0 x1 (ix1 (⟨u.val, by have := u.isLt; omega⟩ : Fin 102400))
      = x0 (ix2 u (0 : Fin 1)) * kv_main_v14 (F := Ideal) x1 (ix1 (⟨u.val, by have := u.isLt; omega⟩ : Fin 102400)) := by
  have hu : u.val < 102400 := by have := u.isLt; omega
  unfold kv_main_v17
  generalize kv_main_v14 (F := Ideal) x1 = b
  rw [mulf_apply]
  refine congrArg (fun z : EReal => z * b (ix1 (⟨u.val, hu⟩ : Fin 102400))) ?_
  refine (flat_apply (kv_main_v15 (F := Ideal) x0) ⟨u.val, hu⟩).trans ?_
  unfold kv_main_v15
  exact pad_apply_of_inside ![0, 0] ![2400, 0] ![0, 0] x0 _ pads_S100000x1_S102400x1_024000_000 h_S_
    (ix2 (⟨u.val, hu⟩ : Fin 102400) (0 : Fin 1)) (ix2 u (0 : Fin 1)) (fun a => by
      match a with
      | ⟨0, _⟩ => show u.val = 0 + u.val * (0 + 1); omega
      | ⟨1, _⟩ => show (0 : Nat) = 0 + 0 * (0 + 1); omega)

/-- The first launch's first operand at row `r`: the aggregated feature at `r` times the scale at `r`. -/
theorem v29_apply (x0 : FVec Ideal S100000x1 .f32) (x1 : IVec S2x1600000 32) (r : Fin 102400) :
    kv_main_v29 (F := Ideal) x0 x1 (ix2 r (0 : Fin 1))
      = kv_main_v27 (F := Ideal) x0 x1 (ix1 r) * kv_main_v14 (F := Ideal) x1 (ix1 r) := by
  unfold kv_main_v29
  generalize (kv_main_v27 (F := Ideal) x0 x1 : FVec Ideal S102400 .f32) = a
  generalize (kv_main_v14 (F := Ideal) x1 : FVec Ideal S102400 .f32) = b
  refine (column_apply (mulf (F := Ideal) a b) r).trans ?_
  exact mulf_apply a b (ix1 r)

/-- The launches' second operand at row `r`: the scale at `r`. -/
theorem v30_apply (x1 : IVec S2x1600000 32) (r : Fin 102400) :
    kv_main_v30 (F := Ideal) x1 (ix2 r (0 : Fin 1)) = kv_main_v14 (F := Ideal) x1 (ix1 r) := by
  unfold kv_main_v30
  generalize kv_main_v14 (F := Ideal) x1 = y
  exact column_apply y r

end Cert.KernelIdeal.KLayout

end
-- ==== Proof.GcnSpec.lean ====
/-
  A two-layer graph convolution with a linear head, in two arrangements, on the extended reals.  No program is imported.

  Nodes are `Fin n`, edges a finite type `E` with source `s` and target `d` (self-loops are edges like any other).
  The degree of a node is the number of edges into it, counted by adding a constant `one` per edge; its scale is
  `δ v = deg v ^ (-1/2)` where the degree is positive and `0` elsewhere.  A layer sends features `h` to
  `relu (Σ over edges p into v of (h (s p) · W) · (δ (s p) · δ v) + b)`.

  * The TEXTBOOK arrangement (`R`) multiplies every message by the edge's weight `δ (s p) · δ v` before summing.
  * The FACTORED arrangement (`K`) scales each node's row by `δ` once before the sum over edges and once after it;
    its first layer, whose input has one channel, sums the scaled scalars first and multiplies by the weight row after.

  The two agree whenever the inputs are real numbers (`out_eq`): the only law used beyond commutativity and
  associativity is `(Σ f) · c = Σ (f · c)`, which holds for real `f`, `c` and fails at infinities; the scale `δ` is
  real whatever the degree is (`dinv_real`: `rsqrt` sends every positive extended real, `⊤` included, to a real).
-/
import Idealize.ShloMosaic.PureOps.Ideal

noncomputable section

namespace GcnSpec

open Idealize.ShloMosaic
open scoped BigOperators

/-! ## Real entries -/

/-- An extended real that is a real number. -/
def IsReal (a : EReal) : Prop := ∃ r : ℝ, a = (r : EReal)

theorem IsReal.zero : IsReal 0 := ⟨0, rfl⟩

theorem IsReal.mul {a b : EReal} (ha : IsReal a) (hb : IsReal b) : IsReal (a * b) := by
  obtain ⟨r, rfl⟩ := ha; obtain ⟨t, rfl⟩ := hb
  exact ⟨r * t, (EReal.coe_mul r t).symm⟩

theorem IsReal.add {a b : EReal} (ha : IsReal a) (hb : IsReal b) : IsReal (a + b) := by
  obtain ⟨r, rfl⟩ := ha; obtain ⟨t, rfl⟩ := hb
  exact ⟨r + t, (EReal.coe_add r t).symm⟩

theorem IsReal.max {a b : EReal} (ha : IsReal a) (hb : IsReal b) : IsReal (max a b) := by
  rcases le_total a b with h | h
  · rw [max_eq_right h]; exact hb
  · rw [max_eq_left h]; exact ha

theorem IsReal.sum {ι : Type} (S : Finset ι) (f : ι → EReal) (hf : ∀ i ∈ S, IsReal (f i)) : IsReal (∑ i ∈ S, f i) := by
  classical
  induction S using Finset.induction_on with
  | empty => rw [Finset.sum_empty]; exact IsReal.zero
  | insert a S ha ih =>
    rw [Finset.sum_insert ha]
    exact (hf a (Finset.mem_insert_self a S)).add (ih fun i hi => hf i (Finset.mem_insert_of_mem hi))

/-- THE LAW: a real factor goes inside a finite sum of reals. -/
theorem sum_mul_real {ι : Type} (S : Finset ι) (f : ι → EReal) (c : EReal) (hf : ∀ i ∈ S, IsReal (f i))
    (hc : IsReal c) : (∑ i ∈ S, f i) * c = ∑ i ∈ S, f i * c := by
  classical
  induction S using Finset.induction_on with
  | empty => rw [Finset.sum_empty, Finset.sum_empty, zero_mul]
  | insert a S ha ih =>
    rw [Finset.sum_insert ha, Finset.sum_insert ha, ← ih fun i hi => hf i (Finset.mem_insert_of_mem hi)]
    obtain ⟨r, hr⟩ := hf a (Finset.mem_insert_self a S)
    obtain ⟨t, ht⟩ := IsReal.sum S f fun i hi => hf i (Finset.mem_insert_of_mem hi)
    obtain ⟨u, rfl⟩ := hc
    rw [hr, ht, ← EReal.coe_add, ← EReal.coe_mul, ← EReal.coe_mul, ← EReal.coe_mul, ← EReal.coe_add, add_mul]

/-! ## Degrees and scales -/

section
variable {E : Type} [Fintype E] {n : ℕ} (s d : E → Fin n) (one : EReal)

/-- The edges into the node numbered `v`. -/
def into (v : ℕ) : Finset E := Finset.univ.filter fun p => (d p).val = v

/-- The degree: the constant `one` added once per edge into the node. -/
def deg (v : ℕ) : EReal := 0 + ∑ _p ∈ into d v, one

/-- The scale: the reciprocal square root of the degree where it is positive, `0` elsewhere. -/
def dinv (v : ℕ) : EReal :=
  Scalar.select (Ideal.cmp .ogt (deg d one v) 0) (Ideal.rsqrt (deg d one v)) 0

/-- The scale is a real number, whatever the degree. -/
theorem dinv_real (v : ℕ) : IsReal (dinv d one v) := by
  unfold dinv Scalar.select Ideal.cmp
  generalize deg d one v = g
  by_cases h : (0 : EReal) < g
  · rw [if_pos (by simp [h])]
    induction g using EReal.rec with
    | bot => exact absurd h (by simp)
    | top => exact ⟨0, rfl⟩
    | coe r =>
      have hr : 0 < r := by exact_mod_cast h
      rw [Ideal.rsqrt_coe, if_neg (not_lt.mpr hr.le), if_neg hr.ne']
      exact ⟨_, rfl⟩
  · rw [if_neg (by simp [h])]
    exact IsReal.zero

variable (x : Fin n → EReal) (w1 b1 : Fin 64 → EReal) (w2 : Fin 64 → Fin 64 → EReal) (b2 wfc : Fin 64 → EReal)
  (bfc : EReal)

/-! ## The textbook arrangement -/

/-- An edge's weight: the product of its two ends' scales. -/
def R.norm (p : E) : EReal := dinv d one (s p).val * dinv d one (d p).val
/-- First layer: the weighted messages `(x (s p) · w1 j) · norm p` summed over the edges into `v`. -/
def R.agg1 (v : Fin n) (j : Fin 64) : EReal := 0 + ∑ p ∈ into d v.val, (x (s p) * w1 j) * R.norm s d one p
def R.a1 (v : Fin n) (j : Fin 64) : EReal := max (R.agg1 s d one x w1 v j + b1 j) 0
/-- Second layer's linear map. -/
def R.h2 (v : Fin n) (j : Fin 64) : EReal := ∑ k : Fin 64, R.a1 s d one x w1 b1 v k * w2 k j
def R.agg2 (v : Fin n) (j : Fin 64) : EReal :=
  0 + ∑ p ∈ into d v.val, R.h2 s d one x w1 b1 w2 (s p) j * R.norm s d one p
def R.a2 (v : Fin n) (j : Fin 64) : EReal := max (R.agg2 s d one x w1 b1 w2 v j + b2 j) 0
/-- The head. -/
def R.out (v : Fin n) : EReal := (∑ k : Fin 64, R.a2 s d one x w1 b1 w2 b2 v k * wfc k) + bfc

/-! ## The factored arrangement -/

/-- The scalar feature scaled at its own node. -/
def K.xs (v : Fin n) : EReal := x v * dinv d one v.val
def K.sraw (v : Fin n) : EReal := 0 + ∑ p ∈ into d v.val, K.xs d one x (s p)
def K.ssum (v : Fin n) : EReal := K.sraw s d one x v * dinv d one v.val
def K.a1 (v : Fin n) (j : Fin 64) : EReal := max (K.ssum s d one x v * w1 j + b1 j) 0
/-- Second layer's linear map, scaled at its own node before it travels. -/
def K.hs (v : Fin n) (j : Fin 64) : EReal := (∑ k : Fin 64, K.a1 s d one x w1 b1 v k * w2 k j) * dinv d one v.val
def K.agg (v : Fin n) (j : Fin 64) : EReal := 0 + ∑ p ∈ into d v.val, K.hs s d one x w1 b1 w2 (s p) j
def K.a2 (v : Fin n) (j : Fin 64) : EReal := max (K.agg s d one x w1 b1 w2 v j * dinv d one v.val + b2 j) 0
def K.out (v : Fin n) : EReal := (∑ k : Fin 64, K.a2 s d one x w1 b1 w2 b2 v k * wfc k) + bfc

/-! ## The two agree on real inputs -/

section
variable (hx : ∀ v, IsReal (x v)) (hw1 : ∀ j, IsReal (w1 j)) (hb1 : ∀ j, IsReal (b1 j))
  (hw2 : ∀ k j, IsReal (w2 k j))
include hx hw1

theorem a1_eq (v : Fin n) (j : Fin 64) : K.a1 s d one x w1 b1 v j = R.a1 s d one x w1 b1 v j := by
  unfold K.a1 R.a1
  refine congrArg (fun a => max (a + b1 j) 0) ?_
  unfold K.ssum K.sraw R.agg1 K.xs R.norm
  rw [zero_add, zero_add,
    sum_mul_real _ _ _ (fun p _ => (hx (s p)).mul (dinv_real d one _)) (dinv_real d one _),
    sum_mul_real _ _ _ (fun p _ => ((hx (s p)).mul (dinv_real d one _)).mul (dinv_real d one _)) (hw1 j)]
  refine Finset.sum_congr rfl fun p hp => ?_
  rw [(Finset.mem_filter.mp hp).2]
  simp only [mul_assoc, mul_comm, mul_left_comm]

include hb1 hw2

theorem h2_real (v : Fin n) (j : Fin 64) : IsReal (R.h2 s d one x w1 b1 w2 v j) := by
  unfold R.h2
  refine IsReal.sum _ _ fun k _ => IsReal.mul ?_ (hw2 k j)
  unfold R.a1
  refine IsReal.max (IsReal.add ?_ (hb1 k)) IsReal.zero
  unfold R.agg1
  refine IsReal.add IsReal.zero (IsReal.sum _ _ fun p _ => ((hx (s p)).mul (hw1 k)).mul ?_)
  exact (dinv_real d one _).mul (dinv_real d one _)

theorem hs_eq (v : Fin n) (j : Fin 64) :
    K.hs s d one x w1 b1 w2 v j = R.h2 s d one x w1 b1 w2 v j * dinv d one v.val := by
  unfold K.hs R.h2
  simp only [a1_eq s d one x w1 b1 hx hw1]

theorem a2_eq (v : Fin n) (j : Fin 64) :
    K.a2 s d one x w1 b1 w2 b2 v j = R.a2 s d one x w1 b1 w2 b2 v j := by
  unfold K.a2 R.a2
  refine congrArg (fun a => max (a + b2 j) 0) ?_
  unfold K.agg R.agg2 R.norm
  simp only [hs_eq s d one x w1 b1 w2 hx hw1 hb1 hw2]
  rw [zero_add, zero_add,
    sum_mul_real _ _ _ (fun p _ => (h2_real s d one x w1 b1 w2 hx hw1 hb1 hw2 (s p) j).mul (dinv_real d one _))
      (dinv_real d one _)]
  refine Finset.sum_congr rfl fun p hp => ?_
  rw [(Finset.mem_filter.mp hp).2, mul_assoc]

/-- THE TWO ARRANGEMENTS AGREE at every node, for real features, weights and first-layer bias. -/
theorem out_eq (v : Fin n) :
    K.out s d one x w1 b1 w2 b2 wfc bfc v = R.out s d one x w1 b1 w2 b2 wfc bfc v := by
  unfold K.out R.out
  simp only [a2_eq s d one x w1 b1 w2 b2 hx hw1 hb1 hw2]

end

end

end GcnSpec

end
-- ==== Proof.LibScatterLanding.lean ====
/-
  Where a scatter's update lands, for ANY scatter dimension numbers.

  An update element `j` of a `stablehlo.scatter` lands on operand index `i` exactly when, on every operand axis,
  the start read off the scatter indices (a signed integer, not clamped) plus `j`'s window coordinate equals `i`'s
  coordinate; otherwise — some axis out of range — the update is dropped.  This turns the option-valued
  `ScatterDims.resultIdx?` into one equation per axis, which is the form in which an accumulating scatter's exact
  sum ("each operand element plus the sum of the updates landing on it") is re-indexed by hand.
-/
import Idealize.ShloMosaic.PureOps.Ideal

namespace Idealize.ShloMosaic.ScatterDims

/-- An update lands on operand index `i` exactly when, on every axis, start plus window coordinate is
    `i`'s coordinate (which is then in range, so nothing is dropped). -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      have := h a
      show _ = (((d.start j idx a + (d.window j a : Int)).toNat : Nat) : Int)
      omega
    · intro e
      funext a
      apply Fin.ext
      have := e a
      have := h a
      show (d.start j idx a + (d.window j a : Int)).toNat = (i a).val
      omega
  · rename_i h
    constructor
    · intro e; cases e
    · intro e
      exfalso
      apply h
      intro a
      have := e a
      have := (i a).isLt
      omega

end Idealize.ShloMosaic.ScatterDims
-- ==== Proof.LibScatterFlat.lean ====
/-
  An accumulating `stablehlo.scatter` of SCALARS into a vector, read at an element.  No program is imported.

  What `x.at[idx].add(upd)` (jax's segment_sum) lowers to for a vector `x : [A]`, `M` indices passed as an `[M, 1]`
  array and `M` scalar updates `upd : [M]` (no update window axis, inserted window axis 0, the one index component
  naming operand axis 0): update `p` lands on element `b` exactly when the index `idx[p, 0]`, read as a signed
  integer, is `b` — an index outside `[0, A)` lands nowhere and the update is dropped.  So, over the extended
  reals, the result's element `b` is `x[b]` plus the sum of `upd[p]` over the `p` whose index is `b`
  (`scatterAdd_flat_apply`).  The rank-1 twin of the scatter of rows.

  The dimension numbers are a literal record with an arbitrary proof of its conditions, so a program's own record
  with the same fields is this one by `rfl`.
-/
import Idealize.ShloMosaic.PureOps.Ideal
import Idealize.ShloMosaic.Lib.ValueIdx
import proofs.«165254_j14748917694868_2_alg».proof.Proof.LibScatterLanding

noncomputable section

namespace ScatterFlat

open Idealize.ShloMosaic Idealize.ShloMosaic.ValueIdx
open scoped BigOperators

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Dimension numbers of a scatter of scalars by a column of indices: operand `[A]`, scatter indices `[M, 1]`,
    updates `[M]`. -/
abbrev flatScatter (A M : Nat) (wf : ScatterDims.WF ⟨1, ![A]⟩ ⟨2, ![M, 1]⟩ ⟨1, ![M]⟩ [] [0] [0] 1) :
    ScatterDims ⟨1, ![A]⟩ ⟨2, ![M, 1]⟩ ⟨1, ![M]⟩ where
  updateWindowDims := []
  insertedWindowDims := [0]
  scatterDimsToOperandDims := [0]
  indexVectorDim := 1
  wf := wf

section
variable {A M w : Nat} (wf : ScatterDims.WF ⟨1, ![A]⟩ ⟨2, ![M, 1]⟩ ⟨1, ![M]⟩ [] [0] [0] 1)
  (idx : IVec ⟨2, ![M, 1]⟩ w) (p : Fin M)

/-- On the one axis the window starts at the index, read signed … -/
theorem flatScatter_start0 : (flatScatter A M wf).start (ix1 p) idx 0 = (idx (ix2 p 0)).toInt := by
  unfold ScatterDims.start
  rw [dif_pos (show (0 : Fin 1) ∈ (flatScatter A M wf).scatterDimsToOperandDims from List.mem_singleton.mpr rfl)]
  have hsi : (flatScatter A M wf).siIdx (ix1 p) ⟨List.idxOf (0 : Fin 1) (flatScatter A M wf).scatterDimsToOperandDims,
      List.idxOf_lt_length_iff.2 (List.mem_singleton.mpr rfl)⟩ = ix2 p 0 := by
    funext b; refine Fin.ext ?_
    match b with
    | ⟨0, _⟩ => rfl
    | ⟨1, _⟩ => rfl
  rw [hsi]

/-- … and the window has no extent there. -/
theorem flatScatter_window0 : (flatScatter A M wf).window (ix1 p) 0 = 0 := by
  unfold ScatterDims.window
  rw [dif_neg]
  show (0 : Fin 1) ∉ (List.finRange 1).filter (· ∉ [(0 : Fin 1)])
  decide

/-- WHERE A SCALAR LANDS: update `p` lands on element `b` exactly when its index, read signed, is `b`. -/
theorem flatScatter_lands (b : Fin A) :
    (flatScatter A M wf).resultIdx? (ix1 p) idx = some (ix1 b) ↔ (idx (ix2 p 0)).toInt = (b.val : Int) := by
  rw [ScatterDims.resultIdx?_eq_some_iff]
  constructor
  · intro e
    have e0 := e 0
    rw [flatScatter_start0, flatScatter_window0] at e0
    have : ((ix1 b : (⟨1, ![A]⟩ : Shape).Idx) 0).val = b.val := rfl
    rw [this] at e0
    omega
  · intro e0 a
    match a with
    | ⟨0, _⟩ =>
      show (flatScatter A M wf).start (ix1 p) idx 0 + ((flatScatter A M wf).window (ix1 p) 0 : Int) = (b.val : Int)
      rw [flatScatter_start0, flatScatter_window0, e0]
      omega

end

/-- THE SCALAR SCATTER-ADD READ AT `b`: the vector's element plus the sum of the updates whose index, read
    signed, is `b`. -/
theorem scatterAdd_flat_apply {A M w : Nat} (wf : ScatterDims.WF ⟨1, ![A]⟩ ⟨2, ![M, 1]⟩ ⟨1, ![M]⟩ [] [0] [0] 1)
    (x : (⟨1, ![A]⟩ : Shape).Idx → EReal) (idx : IVec ⟨2, ![M, 1]⟩ w) (upd : (⟨1, ![M]⟩ : Shape).Idx → EReal)
    (b : Fin A) :
    Ideal.hostScatterAdd (flatScatter A M wf) x idx upd (ix1 b)
      = x (ix1 b) + ∑ p ∈ Finset.univ.filter (fun p : Fin M => (idx (ix2 p 0)).toInt = (b.val : Int)), upd (ix1 p) := by
  unfold Ideal.hostScatterAdd
  refine congrArg (x (ix1 b) + ·) ?_
  rw [Finset.sum_filter, sum_idx1, Finset.sum_filter]
  refine Finset.sum_congr rfl fun p _ => ?_
  by_cases hp : (idx (ix2 p 0)).toInt = (b.val : Int)
  · rw [if_pos hp, if_pos ((flatScatter_lands wf idx p b).mpr hp)]
  · rw [if_neg hp, if_neg fun e => hp ((flatScatter_lands wf idx p b).mp e)]

end ScatterFlat

end
-- ==== Proof.LibGatherRows.lean ====
/-
  `stablehlo.gather` by a COLUMN of start indices, read at an index.  No program is imported.

  What `x[idx]` lowers to when the integer array `idx` of `M` indices is passed as an `[M, 1]` array (index vector
  axis 1, one component per start index):

  * `gather_flat_apply`: of a flat operand `x : [N]`, result `[M]` — element `p` is `x` at the start index `idx[p, 0]`
    read as a signed integer and clamped into `[0, N − 1]`;
  * `gather_rows_apply`: of a table of rows `x : [A, C]`, result `[M, C]` (whole rows: slice sizes `[1, C]`, axis 0
    collapsed, axis 1 the result's offset axis) — element `(p, k)` is `x` at row `idx[p, 0]`, read signed and clamped
    into `[0, A − 1]`, and column `k`.

  The dimension numbers are literal records with an arbitrary proof of their conditions, so a program's own record
  with the same fields is one of these by `rfl`.
-/
import Idealize.ShloMosaic.Lib.ValueIdx

noncomputable section

namespace Cert.Moe

open Idealize.ShloMosaic Idealize.ShloMosaic.ValueIdx

section
variable {α : Type}

/-- Dimension numbers of a flat gather by a column of indices: operand `[N]`, start indices `[M, 1]`, result `[M]`. -/
abbrev flatDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE FLAT GATHER READ AT `p`: the operand at the start index `idx[p, 0]`, read signed and clamped into
    `[0, N − 1]`. -/
theorem gather_flat_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (p : Fin M) :
    Host.gather (flatDims N M wf) x idx (ix1 p) = x (ix1 ⟨min (idx (ix2 p 0)).toInt.toNat (N - 1), by omega⟩) := by
  unfold Host.gather
  refine congrArg x ?_
  funext a
  obtain rfl : a = 0 := Subsingleton.elim _ _
  refine Fin.ext ?_
  show (flatDims N M wf).start (ix1 p) idx 0 + (flatDims N M wf).batchCoord (ix1 p) 0
    + (flatDims N M wf).offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N M wf).startIndexMap from List.mem_singleton.mpr rfl)]
  have hsi : (flatDims N M wf).siIdx (ix1 p) ⟨List.idxOf (0 : Fin 1) (flatDims N M wf).startIndexMap,
      List.idxOf_lt_length_iff.2 (List.mem_singleton.mpr rfl)⟩ = ix2 p 0 := by
    funext b; refine Fin.ext ?_
    match b with
    | ⟨0, _⟩ => rfl
    | ⟨1, _⟩ => rfl
  rw [hsi]
  rfl

/-- Dimension numbers of a gather of whole rows by a column of indices: operand `[A, C]`, start indices `[M, 1]`,
    result `[M, C]`. -/
abbrev rowDims (A C M : Nat) (wf : GatherDims.WF ⟨2, ![A, C]⟩ ⟨2, ![M, 1]⟩ ⟨2, ![M, C]⟩ [1] [0] [] [0] [] 1 ![1, C]) :
    GatherDims ⟨2, ![A, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

set_option maxHeartbeats 50000 in
/-- THE ROW GATHER READ AT `(p, k)`: the operand at the row `idx[p, 0]`, read signed and clamped into `[0, A − 1]`,
    and column `k`. -/
theorem gather_rows_apply {A C M w : Nat} (hA : 0 < A)
    (wf : GatherDims.WF ⟨2, ![A, C]⟩ ⟨2, ![M, 1]⟩ ⟨2, ![M, C]⟩ [1] [0] [] [0] [] 1 ![1, C])
    (x : (⟨2, ![A, C]⟩ : Shape).Idx → α) (idx : IVec ⟨2, ![M, 1]⟩ w) (p : Fin M) (k : Fin C) :
    Host.gather (rowDims A C M wf) x idx (ix2 p k)
      = x (ix2 ⟨min (idx (ix2 p 0)).toInt.toNat (A - 1), by omega⟩ k) := by
  unfold Host.gather
  refine congrArg x ?_
  funext a
  refine Fin.ext ?_
  match a with
  | ⟨0, _⟩ =>
    show (rowDims A C M wf).start (ix2 p k) idx 0 + (rowDims A C M wf).batchCoord (ix2 p k) 0
      + (rowDims A C M wf).offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims A C M wf).startIndexMap from List.mem_singleton.mpr rfl)]
    have hsi : (rowDims A C M wf).siIdx (ix2 p k) ⟨List.idxOf (0 : Fin 2) (rowDims A C M wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    show (rowDims A C M wf).start (ix2 p k) idx 1 + (rowDims A C M wf).batchCoord (ix2 p k) 1
      + (rowDims A C M wf).offCoord (ix2 p k) 1 = k.val
    have hs : (rowDims A C M wf).start (ix2 p k) idx 1 = 0 := by
      unfold GatherDims.start
      rw [dif_neg (show (1 : Fin 2) ∉ (rowDims A C M wf).startIndexMap from
        (by decide : (1 : Fin 2) ∉ [(0 : Fin 2)]))]
    have ho : (rowDims A C M wf).offCoord (ix2 p k) 1 = k.val := by
      unfold GatherDims.offCoord
      rw [dif_pos (show (1 : Fin 2) ∈ (rowDims A C M wf).sKept from
        (GatherDims.mem_sKept _ _).mpr ⟨(by decide : (1 : Fin 2) ∉ [(0 : Fin 2)]), List.not_mem_nil⟩)]
      rfl
    rw [hs, ho, GatherDims.batchCoord_eq_zero _ _ _ List.not_mem_nil]
    omega

end

end Cert.Moe

end
-- ==== Proof.LibIndexWords.lean ====
/-
  Small facts about 32-bit index words, for a natural number `v` below `2^31` written as the word `BitVec.ofNat 32 v`.
  No program is imported.

  * `wrap_word`: the "wrap a negative index" select (`if x < 0 then x + n else x`, signed) leaves such a word alone.
  * `clamp_word`: reading such a word signed and clamping it into `[0, N − 1]` gives `v` back when `v < N ≤ 2^31`.
  * `floorDiv2_word`: the chain jax prints for the floor division `x // 2` of signed integers — the quotient rounded
    toward zero, minus one where the signs of dividend and divisor differ and the remainder is not zero — is, on such
    a word, the word of `v / 2`.  `floorDiv2_apply` is the same chain of vector operations read at one index of any
    shape (the divisor and the constants `0`, `1` broadcast from rank-0 tables), and `tokTable_apply` the closed
    term over the table `0, 1, …, 32767`: its entry `i` is the word of `i / 2`.
  * `iotaInDim_ix1`: the rank-1 iota table at coordinate `i` is the word of `i`.
-/
import Idealize.ShloMosaic.PureOps
import Idealize.ShloMosaic.Lib.ValueIdx

noncomputable section

namespace Cert.Moe

open Idealize.ShloMosaic Idealize.ShloMosaic.ValueIdx

/-! ## The word of a natural below `2^31` -/

/-- Its unsigned value is the natural. -/
theorem idxWord_toNat (v : Nat) (hv : v < 2 ^ 31) : (BitVec.ofNat 32 v).toNat = v := by
  rw [BitVec.toNat_ofNat]; exact Nat.mod_eq_of_lt (by omega)

/-- Its sign bit is clear. -/
theorem idxWord_msb (v : Nat) (hv : v < 2 ^ 31) : (BitVec.ofNat 32 v).msb = false :=
  BitVec.msb_eq_false_iff_two_mul_lt.mpr (by rw [idxWord_toNat v hv]; omega)

/-- Its signed value is the natural. -/
theorem idxWord_toInt (v : Nat) (hv : v < 2 ^ 31) : (BitVec.ofNat 32 v).toInt = (v : Int) := by
  rw [BitVec.toInt_eq_toNat_of_lt (by rw [idxWord_toNat v hv]; omega), idxWord_toNat v hv]

/-- It is the zero word only for `v = 0`. -/
theorem idxWord_ne_zero (v : Nat) (hv : v < 2 ^ 31) (h0 : v ≠ 0) : BitVec.ofNat 32 v ≠ 0 := by
  intro h
  have := congrArg BitVec.toNat h
  rw [idxWord_toNat v hv] at this
  exact h0 this

/-! ## Wrapping and clamping -/

/-- The wrap of a possibly negative index, `if x < 0 then x + n else x` (signed), leaves a non-negative word alone. -/
theorem wrap_word (n : BitVec 32) (v : Nat) (hv : v < 2 ^ 31) :
    Scalar.select (IntOp.cmpi .slt (BitVec.ofNat 32 v) 0#32) (IntOp.addi (BitVec.ofNat 32 v) n) (BitVec.ofNat 32 v)
      = BitVec.ofNat 32 v := by
  have h : IntOp.cmpi .slt (BitVec.ofNat 32 v) 0#32 = 0#1 := by
    show BitVec.ofBool ((BitVec.ofNat 32 v).slt 0#32) = 0#1
    have hlt : ¬ ((v : Int) < 0) := by omega
    rw [BitVec.slt_eq_decide, idxWord_toInt v hv, BitVec.toInt_zero, decide_eq_false hlt]
    rfl
  rw [h, select_zero]

/-- A word below `N ≤ 2^31`, read signed and clamped into `[0, N − 1]`, is its natural. -/
theorem clamp_word (v N : Nat) (hv : v < N) (hN : N ≤ 2 ^ 31) : min (BitVec.ofNat 32 v).toInt.toNat (N - 1) = v := by
  rw [idxWord_toInt v (by omega), Int.toNat_natCast]
  omega

/-! ## Floor division by two -/

/-- The sign of a word as a word (`-1`, `0` or `1`): what `signi` computes at each index. -/
def signWord {w : Nat} (x : BitVec w) : BitVec w := if x = 0 then 0 else if x.msb then -1 else 1

/-- `signi` at an index is the sign of the element. -/
theorem signi_apply {s : Shape} {w : Nat} (x : IVec s w) (i : s.Idx) : signi x i = signWord (x i) := rfl

/-- The sign of the word of a positive natural below `2^31` is `1`. -/
theorem signWord_pos (v : Nat) (hv : v < 2 ^ 31) (h0 : v ≠ 0) : signWord (BitVec.ofNat 32 v) = 1 := by
  unfold signWord
  rw [if_neg (idxWord_ne_zero v hv h0), idxWord_msb v hv]
  rfl

/-- Dividing by the word `2` is not a corner of signed division. -/
theorem not_sdivCorner_two (x : BitVec 32) : ¬ IntOp.SDivCorner x 2#32 := by
  unfold IntOp.SDivCorner
  rintro (h | ⟨_, h⟩)
  · exact idxWord_ne_zero 2 (by norm_num) (by norm_num) h
  · have := congrArg BitVec.toNat h
    simp at this

/-- The signed quotient by `2` of the word of `v` is the word of `v / 2`. -/
theorem divsi_two (u : ArithUnit) (v : Nat) (hv : v < 2 ^ 31) :
    IntOp.divsi u (BitVec.ofNat 32 v) 2#32 = BitVec.ofNat 32 (v / 2) := by
  unfold IntOp.divsi
  rw [if_neg (not_sdivCorner_two _), BitVec.sdiv_eq, idxWord_msb v hv, idxWord_msb 2 (by norm_num)]
  show (BitVec.ofNat 32 v) / 2#32 = _
  apply BitVec.eq_of_toNat_eq
  rw [BitVec.toNat_udiv, idxWord_toNat v hv, idxWord_toNat 2 (by norm_num), idxWord_toNat (v / 2) (by omega)]

/-- The signed remainder by `2` of the zero word is the zero word. -/
theorem remsi_zero_two (u : ArithUnit) : IntOp.remsi u (0#32) 2#32 = 0#32 := by
  unfold IntOp.remsi
  rw [if_neg (not_sdivCorner_two _), BitVec.zero_srem]

/-- jax's floor division by two on the word of a natural `v < 2^31`: the quotient rounded toward zero, less one
    where the signs of `x` and `2` differ and the remainder is not zero, is the word of `v / 2`.  (For `v > 0` the
    signs agree; for `v = 0` the remainder is zero: the correction never applies.) -/
theorem floorDiv2_word (u : ArithUnit) (v : Nat) (hv : v < 2 ^ 31) :
    Scalar.select
        (IntOp.andi (IntOp.cmpi .ne (signWord (BitVec.ofNat 32 v)) (signWord 2#32))
          (IntOp.cmpi .ne (IntOp.remsi u (BitVec.ofNat 32 v) 2#32) 0#32))
        (IntOp.subi (IntOp.divsi u (BitVec.ofNat 32 v) 2#32) 1#32)
        (IntOp.divsi u (BitVec.ofNat 32 v) 2#32)
      = BitVec.ofNat 32 (v / 2) := by
  have hc : IntOp.andi (IntOp.cmpi .ne (signWord (BitVec.ofNat 32 v)) (signWord 2#32))
      (IntOp.cmpi .ne (IntOp.remsi u (BitVec.ofNat 32 v) 2#32) 0#32) = 0#1 := by
    by_cases h0 : v = 0
    · subst h0
      have : IntOp.cmpi .ne (IntOp.remsi u (BitVec.ofNat 32 0) 2#32) 0#32 = 0#1 := by
        rw [show BitVec.ofNat 32 0 = 0#32 from rfl, remsi_zero_two]
        rfl
      rw [this]
      exact BitVec.and_zero
    · have : IntOp.cmpi .ne (signWord (BitVec.ofNat 32 v)) (signWord 2#32) = 0#1 := by
        rw [signWord_pos v hv h0, signWord_pos 2 (by norm_num) (by norm_num)]
        rfl
      rw [this]
      exact BitVec.zero_and
  rw [hc, select_zero, divsi_two u v hv]

/-! ## The same chain of vector operations, read at an index -/

/-- The rank-1 iota table at coordinate `i` is the word of `i`. -/
theorem iotaInDim_ix1 {n : Nat} (w : Nat) (i : Fin n) : iotaInDim ⟨1, ![n]⟩ w 0 (ix1 i) = BitVec.ofNat w i.val := rfl

/-- A rank-0 constant table broadcast to any shape reads the constant everywhere. -/
theorem broadcastInDim_constantI {t : Shape} (dims : Fin (⟨0, ![]⟩ : Shape).rank → Fin t.rank)
    (hb : (⟨0, ![]⟩ : Shape).BroadcastsInDim t dims) (w : Nat) (b : BitVec w) (j : t.Idx) :
    broadcastInDim t dims hb (constantI ⟨0, ![]⟩ w b) j = b := rfl

/-- The floor-division-by-two chain over any table `x`, the divisor `2` and the constants `0`, `1` being rank-0
    constant tables broadcast to the shape, read at an index where `x` holds the word of a natural `v < 2^31`. -/
theorem floorDiv2_apply {t : Shape} (dims : Fin (⟨0, ![]⟩ : Shape).rank → Fin t.rank)
    (hb : (⟨0, ![]⟩ : Shape).BroadcastsInDim t dims) (x : IVec t 32) (j : t.Idx) (v : Nat) (hv : v < 2 ^ 31)
    (hx : x j = BitVec.ofNat 32 v) :
    select
        (andi (cmpi .ne (signi x) (broadcastInDim t dims hb (signi (constantI ⟨0, ![]⟩ 32 2#32))))
          (cmpi .ne (Host.remsi x (broadcastInDim t dims hb (constantI ⟨0, ![]⟩ 32 2#32)))
            (broadcastInDim t dims hb (constantI ⟨0, ![]⟩ 32 0#32))))
        (subi (Host.divsi x (broadcastInDim t dims hb (constantI ⟨0, ![]⟩ 32 2#32)))
          (broadcastInDim t dims hb (constantI ⟨0, ![]⟩ 32 1#32)))
        (Host.divsi x (broadcastInDim t dims hb (constantI ⟨0, ![]⟩ 32 2#32))) j
      = BitVec.ofNat 32 (v / 2) := by
  show Scalar.select
        (IntOp.andi (IntOp.cmpi .ne (signWord (x j)) (signWord 2#32))
          (IntOp.cmpi .ne (IntOp.remsi .host (x j) 2#32) 0#32))
        (IntOp.subi (IntOp.divsi .host (x j) 2#32) 1#32)
        (IntOp.divsi .host (x j) 2#32) = _
  rw [hx]
  exact floorDiv2_word .host v hv

/-- The table jax prints for `iota // 2` over 32768 positions: entry `i` is the word of `i / 2`. -/
theorem tokTable_apply (hb : (⟨0, ![]⟩ : Shape).BroadcastsInDim ⟨1, ![32768]⟩ ![]) (i : Fin 32768) :
    select
        (andi (cmpi .ne (signi (iotaInDim ⟨1, ![32768]⟩ 32 0))
            (broadcastInDim ⟨1, ![32768]⟩ ![] hb (signi (constantI ⟨0, ![]⟩ 32 2#32))))
          (cmpi .ne (Host.remsi (iotaInDim ⟨1, ![32768]⟩ 32 0) (broadcastInDim ⟨1, ![32768]⟩ ![] hb (constantI ⟨0, ![]⟩ 32 2#32)))
            (broadcastInDim ⟨1, ![32768]⟩ ![] hb (constantI ⟨0, ![]⟩ 32 0#32))))
        (subi (Host.divsi (iotaInDim ⟨1, ![32768]⟩ 32 0) (broadcastInDim ⟨1, ![32768]⟩ ![] hb (constantI ⟨0, ![]⟩ 32 2#32)))
          (broadcastInDim ⟨1, ![32768]⟩ ![] hb (constantI ⟨0, ![]⟩ 32 1#32)))
        (Host.divsi (iotaInDim ⟨1, ![32768]⟩ 32 0) (broadcastInDim ⟨1, ![32768]⟩ ![] hb (constantI ⟨0, ![]⟩ 32 2#32)))
        (ix1 i)
      = BitVec.ofNat 32 (i.val / 2) :=
  floorDiv2_apply ![] hb (iotaInDim ⟨1, ![32768]⟩ 32 0) (ix1 i) i.val (by have := i.isLt; omega) (iotaInDim_ix1 32 i)

end Cert.Moe

end
-- ==== Proof.KernelApply.lean ====
/-
  The idealized kernel's host side before the first launch, read at an index.

  Every host operation of the program (named in KernelTerm) is read at one coordinate, on the extended reals, for edge
  lists whose entries are given as hypotheses: edge `p` goes from node `s p` to node `d p`, both below 100000.  The
  node tables are padded to 102400 rows; only rows below 100000 are ever read or kept.  The chain ends in the four
  facts the two launches are read from: the scale column (`hdinv`), the scaled sum column (`hssum`), and the two
  index columns read as node numbers (`hsrc`, `hdst`).
-/
import proofs.«165254_j14748917694868_2_alg».proof.Proof.KernelTerm
import proofs.«165254_j14748917694868_2_alg».proof.Proof.KernelLayout
import proofs.«165254_j14748917694868_2_alg».proof.Proof.GcnSpec
import proofs.«165254_j14748917694868_2_alg».proof.Proof.LibScatterFlat
import proofs.«165254_j14748917694868_2_alg».proof.Proof.LibGatherRows
import proofs.«165254_j14748917694868_2_alg».proof.Proof.LibIndexWords
import Idealize.ShloMosaic.Lib.ValueIdx
import Idealize.ShloMosaic.Lib.IdealHost
import Idealize.ShloMosaic.Lib.KernelVsHost
import Idealize.ShloMosaic.Lib.Pipeline.Value

noncomputable section

namespace Cert.KernelIdeal.KValue

open Cert.KernelIdeal Cert.KernelIdeal.Term Idealize.ShloMosaic Idealize.ShloMosaic.ValueIdx
open scoped BigOperators

/-- The constant added once per edge: the word of the float one. -/
abbrev one : EReal := Ideal.ofBits .f32 0x3F800000#32

/-- A node number as a row of the padded tables. -/
abbrev up (v : Fin 100000) : Fin 102400 := ⟨v.val, by have := v.isLt; omega⟩

/-! ## Constants -/

/-- The zero table reads zero. -/
theorem v8_apply (r : Fin 102400) : kv_main_v8 (F := Ideal) (ix1 r) = 0 := by
  unfold kv_main_v8
  rw [broadcastInDim_scalar_apply, constant_apply]
  exact Ideal.ofBits_zero_f32

/-- The table of ones reads the constant. -/
theorem v7_apply (p : Fin 1700000) : kv_main_v7 (F := Ideal) (ix1 p) = one := by
  unfold kv_main_v7
  rw [broadcastInDim_scalar_apply, constant_apply]

/-! ## Host operations at the extended reals, and the program's records -/

/-- The host's accumulating scatter is the exact one. -/
theorem hostScatterAdd_ideal {s si u : Shape} {w : Nat} {φ : FTy} (dd : ScatterDims s si u) (x : FVec Ideal s φ)
    (idx : IVec si w) (upd : FVec Ideal u φ) : Host.scatterAdd dd x idx upd = Ideal.hostScatterAdd dd x idx upd := rfl

/-- The host's reciprocal square root at an index. -/
theorem hostRsqrt_ideal {s : Shape} {φ : FTy} (x : FVec Ideal s φ) (i : s.Idx) : Host.rsqrt x i = Ideal.rsqrt (x i) := rfl

/-- A float comparison at an index. -/
theorem cmpf_ideal {s : Shape} {φ : FTy} (p : CmpFPredicate) (a b : FVec Ideal s φ) (i : s.Idx) :
    cmpf p a b i = Ideal.cmp p (a i) (b i) := rfl

/-- The program's scatter of scalars is the flat scatter of its sizes. -/
theorem scatter_flat_rec : scatter_S102400_S1700000x1_S1700000_n_0_0_1
    = ScatterFlat.flatScatter 102400 1700000 Gen.scatter_S102400_S1700000x1_S1700000_n_0_0_1_wf := rfl

/-- The program's gather of scalars is the flat gather of its sizes. -/
theorem gather_flat_rec : gather_S102400_S1700000x1_S1700000_n_0_n_n_0_1_1
    = Cert.Moe.flatDims 102400 1700000 Gen.gather_S102400_S1700000x1_S1700000_n_0_n_n_0_1_1_wf := rfl

section Edges
variable (x1 : IVec S2x1600000 32) (s d : Fin 1700000 → Fin 100000)

/-! ## The index columns -/

/-- The target column at edge `p`, read signed, is the target node. -/
theorem dstCol_toInt (hd : ∀ p : Fin 1700000, kv_main_v6 (F := Ideal) x1 (ix1 p) = BitVec.ofNat 32 (d p).val)
    (p : Fin 1700000) : (kv_dstCol (F := Ideal) x1 (ix2 p 0)).toInt = ((d p).val : Int) := by
  have e : kv_dstCol (F := Ideal) x1 (ix2 p 0) = kv_main_v6 (F := Ideal) x1 (ix1 p) := by
    unfold kv_dstCol
    exact broadcastInDim_apply _ _ _ _ (ix1 p) fun a => match a with | ⟨0, _⟩ => rfl
  rw [e, hd p]
  exact Cert.Moe.idxWord_toInt _ (by have := (d p).isLt; omega)

/-- The edges whose target column reads `r` are the edges into node `r`. -/
theorem filter_dst (hd : ∀ p : Fin 1700000, kv_main_v6 (F := Ideal) x1 (ix1 p) = BitVec.ofNat 32 (d p).val)
    (r : Fin 102400) :
    Finset.univ.filter (fun p : Fin 1700000 => (kv_dstCol (F := Ideal) x1 (ix2 p 0)).toInt = (r.val : Int))
      = GcnSpec.into d r.val := by
  unfold GcnSpec.into
  refine Finset.filter_congr fun p _ => ?_
  rw [dstCol_toInt x1 d hd p]
  exact Int.ofNat_inj

/-! ## Degrees and scales -/

/-- The degree table at row `r`: a one added per edge into `r`. -/
theorem v10_apply (hd : ∀ p : Fin 1700000, kv_main_v6 (F := Ideal) x1 (ix1 p) = BitVec.ofNat 32 (d p).val)
    (r : Fin 102400) : kv_main_v10 (F := Ideal) x1 (ix1 r) = GcnSpec.deg d one r.val := by
  unfold kv_main_v10
  rw [hostScatterAdd_ideal, scatter_flat_rec, ScatterFlat.scatterAdd_flat_apply, filter_dst x1 d hd r, v8_apply]
  unfold GcnSpec.deg
  exact congrArg (0 + ·) (Finset.sum_congr rfl fun p _ => v7_apply p)

/-- The scale table at row `r`. -/
theorem v14_apply (hd : ∀ p : Fin 1700000, kv_main_v6 (F := Ideal) x1 (ix1 p) = BitVec.ofNat 32 (d p).val)
    (r : Fin 102400) : kv_main_v14 (F := Ideal) x1 (ix1 r) = GcnSpec.dinv d one r.val := by
  unfold kv_main_v14
  rw [select_apply, cmpf_ideal, hostRsqrt_ideal, broadcastInDim_scalar_apply, constant_apply, Ideal.ofBits_zero_f32,
    v8_apply, v10_apply x1 d hd r]
  rfl

/-! ## The source column -/

/-- The source column at edge `p`, read signed and clamped into the padded table's rows, is the source node. -/
theorem srcCol_clamp (hs : ∀ p : Fin 1700000, kv_main_v3 (F := Ideal) x1 (ix1 p) = BitVec.ofNat 32 (s p).val)
    (p : Fin 1700000) : min (kv_srcCol (F := Ideal) x1 (ix2 p (0 : Fin 1))).toInt.toNat (102400 - 1) = (s p).val := by
  have e : kv_srcCol (F := Ideal) x1 (ix2 p 0) = kv_srcWrapped (F := Ideal) x1 (ix1 p) := by
    unfold kv_srcCol
    exact broadcastInDim_apply _ _ _ _ (ix1 p) fun a => match a with | ⟨0, _⟩ => rfl
  have e' : kv_srcWrapped (F := Ideal) x1 (ix1 p)
      = Scalar.select (IntOp.cmpi .slt (kv_main_v3 (F := Ideal) x1 (ix1 p)) 0#32)
          (IntOp.addi (kv_main_v3 (F := Ideal) x1 (ix1 p)) 102400#32) (kv_main_v3 (F := Ideal) x1 (ix1 p)) := by
    unfold kv_srcWrapped
    rw [select_apply]
    rfl
  rw [e, e', hs p, Cert.Moe.wrap_word _ _ (by have := (s p).isLt; omega)]
  exact Cert.Moe.clamp_word _ 102400 (by have := (s p).isLt; omega) (by norm_num)

/-! ## The scaled feature along the edges, summed into the targets -/

/-- The scaled padded feature at a node below 100000. -/
theorem v17_apply (x0 : FVec Ideal S100000x1 .f32)
    (hd : ∀ p : Fin 1700000, kv_main_v6 (F := Ideal) x1 (ix1 p) = BitVec.ofNat 32 (d p).val) (u : Fin 100000) :
    kv_main_v17 (F := Ideal) x0 x1 (ix1 (up u)) = GcnSpec.K.xs d one (fun v => x0 (ix2 v (0 : Fin 1))) u := by
  rw [KLayout.v17_apply x0 x1 u, v14_apply x1 d hd (up u)]
  rfl

/-- The scaled feature of edge `p`'s source. -/
theorem v24_apply (x0 : FVec Ideal S100000x1 .f32)
    (hs : ∀ p : Fin 1700000, kv_main_v3 (F := Ideal) x1 (ix1 p) = BitVec.ofNat 32 (s p).val)
    (hd : ∀ p : Fin 1700000, kv_main_v6 (F := Ideal) x1 (ix1 p) = BitVec.ofNat 32 (d p).val) (p : Fin 1700000) :
    kv_main_v24 (F := Ideal) x0 x1 (ix1 p) = GcnSpec.K.xs d one (fun v => x0 (ix2 v (0 : Fin 1))) (s p) := by
  unfold kv_main_v24
  rw [gather_flat_rec, Cert.Moe.gather_flat_apply (by norm_num)]
  have e : (⟨min (kv_srcCol (F := Ideal) x1 (ix2 p 0)).toInt.toNat (102400 - 1), by omega⟩ : Fin 102400) = up (s p) :=
    Fin.ext (srcCol_clamp x1 s hs p)
  rw [e]
  exact v17_apply x1 d x0 hd (s p)

/-- The sum into node `v` of the scaled features of the sources of its edges. -/
theorem v27_apply (x0 : FVec Ideal S100000x1 .f32)
    (hs : ∀ p : Fin 1700000, kv_main_v3 (F := Ideal) x1 (ix1 p) = BitVec.ofNat 32 (s p).val)
    (hd : ∀ p : Fin 1700000, kv_main_v6 (F := Ideal) x1 (ix1 p) = BitVec.ofNat 32 (d p).val) (v : Fin 100000) :
    kv_main_v27 (F := Ideal) x0 x1 (ix1 (up v)) = GcnSpec.K.sraw s d one (fun v => x0 (ix2 v (0 : Fin 1))) v := by
  unfold kv_main_v27
  rw [hostScatterAdd_ideal, scatter_flat_rec, ScatterFlat.scatterAdd_flat_apply, filter_dst x1 d hd (up v), v8_apply]
  unfold GcnSpec.K.sraw
  exact congrArg (0 + ·) (Finset.sum_congr rfl fun p _ => v24_apply x1 s d x0 hs hd p)

/-! ## The four facts the launches are read from -/

/-- The launches' second operand at row `r` is the scale of `r`. -/
theorem hdinv (hd : ∀ p : Fin 1700000, kv_main_v6 (F := Ideal) x1 (ix1 p) = BitVec.ofNat 32 (d p).val) (r : Fin 102400) :
    kv_main_v30 (F := Ideal) x1 (ix2 r (0 : Fin 1)) = GcnSpec.dinv d one r.val :=
  (KLayout.v30_apply x1 r).trans (v14_apply x1 d hd r)

/-- The first launch's first operand at a node below 100000 is the factored arrangement's scaled sum there. -/
theorem hssum (x0 : FVec Ideal S100000x1 .f32)
    (hs : ∀ p : Fin 1700000, kv_main_v3 (F := Ideal) x1 (ix1 p) = BitVec.ofNat 32 (s p).val)
    (hd : ∀ p : Fin 1700000, kv_main_v6 (F := Ideal) x1 (ix1 p) = BitVec.ofNat 32 (d p).val) (v : Fin 100000) :
    kv_main_v29 (F := Ideal) x0 x1 (ix2 (⟨v.val, by have := v.isLt; omega⟩ : Fin 102400) (0 : Fin 1))
      = GcnSpec.K.ssum s d one (fun v => x0 (ix2 v (0 : Fin 1))) v := by
  rw [KLayout.v29_apply x0 x1 (up v), v27_apply x1 s d x0 hs hd v, v14_apply x1 d hd (up v)]
  rfl

/-- The source column at edge `p`, read signed and clamped into the padded table's rows, is the source node. -/
theorem hsrc (hs : ∀ p : Fin 1700000, kv_main_v3 (F := Ideal) x1 (ix1 p) = BitVec.ofNat 32 (s p).val) (p : Fin 1700000) :
    min (kv_srcCol (F := Ideal) x1 (ix2 p (0 : Fin 1))).toInt.toNat (102400 - 1) = (s p).val :=
  srcCol_clamp x1 s hs p

/-- The target column at edge `p`, read signed, is the target node. -/
theorem hdst (hd : ∀ p : Fin 1700000, kv_main_v6 (F := Ideal) x1 (ix1 p) = BitVec.ofNat 32 (d p).val) (p : Fin 1700000) :
    (kv_dstCol (F := Ideal) x1 (ix2 p (0 : Fin 1))).toInt = ((d p).val : Int) :=
  dstCol_toInt x1 d hd p

end Edges

end Cert.KernelIdeal.KValue

end
-- ==== Proof.LibScatterRows.lean ====
/-
  An accumulating `stablehlo.scatter` of ROWS into a table, read at an element.  No program is imported.

  What `x.at[idx].add(upd)` lowers to for a table `x : [A, C]`, `M` row indices passed as an `[M, 1]` array and `M`
  rows of updates `upd : [M, C]` (update window axis 1, inserted window axis 0, the one index component naming
  operand axis 0): update element `(p, c)` lands on table element `(b, h)` exactly when the index `idx[p, 0]`, read
  as a signed integer, is `b` and `c = h` — an index outside `[0, A)` lands nowhere and the row is dropped.  So, over
  the extended reals, the result's element `(b, h)` is `x[b, h]` plus the sum, over the rows `p` whose index is `b`,
  of `upd[p, h]` (`scatterAdd_rows_apply`).

  The dimension numbers are a literal record with an arbitrary proof of its conditions, so a program's own record
  with the same fields is this one by `rfl`.
-/
import Idealize.ShloMosaic.PureOps.Ideal
import Idealize.ShloMosaic.Lib.ValueIdx
import proofs.«165254_j14748917694868_2_alg».proof.Proof.LibScatterLanding

noncomputable section

namespace Cert.Moe

open Idealize.ShloMosaic Idealize.ShloMosaic.ValueIdx
open scoped BigOperators

/-- Dimension numbers of a scatter of whole rows by a column of indices: operand `[A, C]`, scatter indices `[M, 1]`,
    updates `[M, C]`. -/
abbrev rowScatter (A C M : Nat) (wf : ScatterDims.WF ⟨2, ![A, C]⟩ ⟨2, ![M, 1]⟩ ⟨2, ![M, C]⟩ [1] [0] [0] 1) :
    ScatterDims ⟨2, ![A, C]⟩ ⟨2, ![M, 1]⟩ ⟨2, ![M, C]⟩ where
  updateWindowDims := [1]
  insertedWindowDims := [0]
  scatterDimsToOperandDims := [0]
  indexVectorDim := 1
  wf := wf

section
variable {A C M w : Nat} (wf : ScatterDims.WF ⟨2, ![A, C]⟩ ⟨2, ![M, 1]⟩ ⟨2, ![M, C]⟩ [1] [0] [0] 1)
  (idx : IVec ⟨2, ![M, 1]⟩ w) (p : Fin M) (c : Fin C)

/-- On the row axis the window starts at the row index, read signed … -/
theorem rowScatter_start0 : (rowScatter A C M wf).start (ix2 p c) idx 0 = (idx (ix2 p 0)).toInt := by
  unfold ScatterDims.start
  rw [dif_pos (show (0 : Fin 2) ∈ (rowScatter A C M wf).scatterDimsToOperandDims from List.mem_singleton.mpr rfl)]
  have hsi : (rowScatter A C M wf).siIdx (ix2 p c) ⟨List.idxOf (0 : Fin 2) (rowScatter A C M wf).scatterDimsToOperandDims,
      List.idxOf_lt_length_iff.2 (List.mem_singleton.mpr rfl)⟩ = ix2 p 0 := by
    funext b; refine Fin.ext ?_
    match b with
    | ⟨0, _⟩ => rfl
    | ⟨1, _⟩ => rfl
  rw [hsi]

/-- … and the window has no extent there; -/
theorem rowScatter_window0 : (rowScatter A C M wf).window (ix2 p c) 0 = 0 := by
  unfold ScatterDims.window
  rw [dif_neg]
  show (0 : Fin 2) ∉ (List.finRange 2).filter (· ∉ [(0 : Fin 2)])
  decide

/-- on the column axis the window starts at `0` … -/
theorem rowScatter_start1 : (rowScatter A C M wf).start (ix2 p c) idx 1 = 0 := by
  unfold ScatterDims.start
  rw [dif_neg (show (1 : Fin 2) ∉ (rowScatter A C M wf).scatterDimsToOperandDims from
    (by decide : (1 : Fin 2) ∉ [(0 : Fin 2)]))]

/-- … and its coordinate is the update's column. -/
theorem rowScatter_window1 : (rowScatter A C M wf).window (ix2 p c) 1 = c.val := by
  unfold ScatterDims.window
  rw [dif_pos (show (1 : Fin 2) ∈ (rowScatter A C M wf).sKept from
    (by decide : (1 : Fin 2) ∈ (List.finRange 2).filter (· ∉ [(0 : Fin 2)])))]
  rfl

/-- WHERE A ROW'S ELEMENT LANDS: update `(p, c)` lands on `(b, h)` exactly when row `p`'s index, read signed, is `b`
    and the columns agree. -/
theorem rowScatter_lands (b : Fin A) (h : Fin C) :
    (rowScatter A C M wf).resultIdx? (ix2 p c) idx = some (ix2 b h)
      ↔ (idx (ix2 p 0)).toInt = (b.val : Int) ∧ c = h := by
  rw [ScatterDims.resultIdx?_eq_some_iff]
  constructor
  · intro e
    have e0 := e 0
    have e1 := e 1
    rw [rowScatter_start0, rowScatter_window0] at e0
    rw [rowScatter_start1, rowScatter_window1] at e1
    refine ⟨?_, Fin.ext ?_⟩
    · have : ((ix2 b h : (⟨2, ![A, C]⟩ : Shape).Idx) 0).val = b.val := rfl
      rw [this] at e0
      omega
    · have : ((ix2 b h : (⟨2, ![A, C]⟩ : Shape).Idx) 1).val = h.val := rfl
      rw [this] at e1
      omega
  · rintro ⟨e0, rfl⟩ a
    match a with
    | ⟨0, _⟩ =>
      show (rowScatter A C M wf).start (ix2 p c) idx 0 + ((rowScatter A C M wf).window (ix2 p c) 0 : Int) = (b.val : Int)
      rw [rowScatter_start0, rowScatter_window0, e0]
      omega
    | ⟨1, _⟩ =>
      show (rowScatter A C M wf).start (ix2 p c) idx 1 + ((rowScatter A C M wf).window (ix2 p c) 1 : Int) = (c.val : Int)
      rw [rowScatter_start1, rowScatter_window1]
      omega

end

/-- THE ROW SCATTER-ADD READ AT `(b, h)`: the table's element plus the sum of column `h` of the update rows whose
    index, read signed, is `b`. -/
theorem scatterAdd_rows_apply {A C M w : Nat} (wf : ScatterDims.WF ⟨2, ![A, C]⟩ ⟨2, ![M, 1]⟩ ⟨2, ![M, C]⟩ [1] [0] [0] 1)
    (x : (⟨2, ![A, C]⟩ : Shape).Idx → EReal) (idx : IVec ⟨2, ![M, 1]⟩ w) (upd : (⟨2, ![M, C]⟩ : Shape).Idx → EReal)
    (b : Fin A) (h : Fin C) :
    Ideal.hostScatterAdd (rowScatter A C M wf) x idx upd (ix2 b h)
      = x (ix2 b h) + ∑ p ∈ Finset.univ.filter (fun p : Fin M => (idx (ix2 p 0)).toInt = (b.val : Int)), upd (ix2 p h) := by
  unfold Ideal.hostScatterAdd
  refine congrArg (x (ix2 b h) + ·) ?_
  rw [Finset.sum_filter, sum_idx2, Finset.sum_filter]
  refine Finset.sum_congr rfl fun p _ => ?_
  by_cases hp : (idx (ix2 p 0)).toInt = (b.val : Int)
  · rw [if_pos hp]
    rw [Finset.sum_eq_single h]
    · rw [if_pos ((rowScatter_lands wf idx p h b h).mpr ⟨hp, rfl⟩)]
    · intro c _ hc
      rw [if_neg fun e => hc ((rowScatter_lands wf idx p c b h).mp e).2]
    · intro hh
      exact absurd (Finset.mem_univ h) hh
  · rw [if_neg hp]
    refine Finset.sum_eq_zero fun c _ => ?_
    rw [if_neg fun e => hp ((rowScatter_lands wf idx p c b h).mp e).1]

end Cert.Moe

end
-- ==== Proof.LibRowVector.lean ====
/-
  A vector made a row, read at coordinates.

  A bias or any per-column vector [n] often reaches a kernel as a row [1, n] (a reshape that adds a leading unit
  axis). Read at (0, q) the row's entry is the vector's entry q: in row-major order the position of (0, q) in
  [1, n] is 0 * n + q = q, the position of q in [n]. This is the row counterpart of the kept-axis column
  [a] -> [a, 1] read at (r, 0).
-/
import Idealize.ShloMosaic.Lib.ValueLayout
import Idealize.ShloMosaic.Lib.Pipeline.Value

namespace RowVector

open Idealize.ShloMosaic Idealize.ShloMosaic.ValueIdx

/-- A vector [n] cast to a row [1, n] reads, at (u, q), the vector's entry q, whatever the unit coordinate u. -/
theorem shapeCast_n_1n_apply {α : Type} {n : ℕ} (v : (⟨1, ![n]⟩ : Shape).Idx → α)
    (h : (⟨1, ![n]⟩ : Shape).ShapeCasts ⟨2, ![1, n]⟩) (u : Fin 1) (q : Fin n) :
    shapeCast ⟨2, ![1, n]⟩ v h (ix2 u q) = v (ix1 q) :=
  shapeCast_apply v h _ _ (by
    have hu : u.val = 0 := by omega
    rw [Shape.rowMajor_val_two, Shape.rowMajor_val_one]
    show q.val = u.val * n + q.val
    rw [hu, Nat.zero_mul, Nat.zero_add])

end RowVector
-- ==== Proof.KernelApply2.lean ====
import proofs.«165254_j14748917694868_2_alg».proof.Proof.LibScatterRows
import proofs.«165254_j14748917694868_2_alg».proof.Proof.LibGatherRows
import proofs.«165254_j14748917694868_2_alg».proof.Proof.LibIndexWords
import proofs.«165254_j14748917694868_2_alg».proof.Proof.LibRowVector
import proofs.«165254_j14748917694868_2_alg».proof.Proof.GcnSpec
import proofs.«165254_j14748917694868_2_alg».proof.Proof.KernelTerm
import Idealize.ShloMosaic.PureOps.Ideal.Laws

/-! # The program's term read at a node: the second layer and the head

The program's term `Term.kernelOut` is read at a node `v` below 100000, given four facts about its first half (the
scale column is the specification's scale; the first launch's scalar operand is the specification's scaled sum; the
gather's clamped row index of edge `p` is the edge's source; the scatter's index of edge `p`, read signed, is the
edge's target). The first launch's row `u` is then the specification's scaled hidden row `K.hs u`; the gather of those
rows along the edges summed into the targets is `K.agg`; the second launch's row `v` is `K.out v`; and the final cut
and flattening read the second launch's column at row `v`. -/

noncomputable section

namespace Cert.KernelIdeal.KValue2

open Cert.KernelIdeal Cert.KernelIdeal.Gen Cert.KernelIdeal.Term Idealize.ShloMosaic Idealize.ShloMosaic.ValueIdx
open scoped BigOperators

/-! ## The two row operations of the stretch between the launches, over any operands -/

/-- The program's scatter of rows, read at an entry: the table's entry plus column `h` of the update rows whose index,
    read signed, is `b`. -/
theorem scatterRows_apply (x : FVec Ideal S102400x64 .f32) (idx : IVec S1700000x1 32) (upd : FVec Ideal S1700000x64 .f32)
    (b : Fin 102400) (h : Fin 64) :
    Host.scatterAdd scatter_S102400x64_S1700000x1_S1700000x64_1_0_0_1 x idx upd (ix2 b h)
      = x (ix2 b h) + ∑ p ∈ Finset.univ.filter (fun p : Fin 1700000 => (idx (ix2 p (0 : Fin 1))).toInt = (b.val : Int)),
          upd (ix2 p h) :=
  Cert.Moe.scatterAdd_rows_apply Facts₀.scatter_S102400x64_S1700000x1_S1700000x64_1_0_0_1_wf x idx upd b h

/-- The program's gather of rows, read at an entry: the table at the row index read signed and clamped, same column. -/
theorem gatherRows_apply (x : FVec Ideal S102400x64 .f32) (idx : IVec S1700000x1 32) (p : Fin 1700000) (k : Fin 64) :
    Host.gather gather_S102400x64_S1700000x1_S1700000x64_1_0_n_n_0_1_164 x idx (ix2 p k)
      = x (ix2 (⟨min (idx (ix2 p (0 : Fin 1))).toInt.toNat (102400 - 1), by omega⟩ : Fin 102400) k) :=
  Cert.Moe.gather_rows_apply (by omega) Facts₀.gather_S102400x64_S1700000x1_S1700000x64_1_0_n_n_0_1_164_wf x idx p k

/-- The table the rows are summed into holds zero everywhere. -/
theorem zeroTable_apply (i : S102400x64.Idx) :
    broadcastInDim S102400x64 ![] bcast_S_S102400x64 (constant (F := Ideal) S_ .f32 0x00000000#32) i = (0 : EReal) :=
  Ideal.ofBits_zero_f32

/-- The rows `y` gathered along the edges and summed into the targets, read at an entry. -/
theorem v42_apply (x1 : IVec S2x1600000 32) (y : FVec Ideal S102400x64 .f32) (b : Fin 102400) (h : Fin 64) :
    kv_main_v42 (F := Ideal) x1 y (ix2 b h)
      = 0 + ∑ p ∈ Finset.univ.filter
            (fun p : Fin 1700000 => (kv_dstCol (F := Ideal) x1 (ix2 p (0 : Fin 1))).toInt = (b.val : Int)),
          y (ix2 (⟨min (kv_srcCol (F := Ideal) x1 (ix2 p (0 : Fin 1))).toInt.toNat (102400 - 1), by omega⟩ : Fin 102400) h) := by
  unfold kv_main_v42
  rw [scatterRows_apply, zeroTable_apply]
  refine congrArg (0 + ·) (Finset.sum_congr rfl fun p _ => ?_)
  exact gatherRows_apply y _ p h

/-- The final cut and flattening read the column at the node's row. -/
theorem v47_apply (y : FVec Ideal S102400x1 .f32) (v : Fin 100000) :
    kv_main_v47 (F := Ideal) y (ix1 v) = y (ix2 (⟨v.val, by omega⟩ : Fin 102400) (0 : Fin 1)) := by
  unfold kv_main_v47
  rw [shapeCast_apply _ shapeCasts_S100000x1_S100000 (ix1 v) (ix2 v (0 : Fin 1))
    (by rw [Shape.rowMajor_val_two, Shape.rowMajor_val_one]; show v.val * 1 + 0 = v.val; omega)]
  exact extractStridedSlice_apply ![0, 0] y slices_S102400x1_S100000x1_0_0 (ix2 v (0 : Fin 1))
    (ix2 (⟨v.val, by omega⟩ : Fin 102400) (0 : Fin 1)) (fun a => match a with
      | ⟨0, _⟩ => by show v.val = 0 + v.val; omega
      | ⟨1, _⟩ => by show (0 : ℕ) = 0 + 0; omega)

/-- The three vectors made rows read at their entries. -/
theorem v31_apply (x3 : FVec Ideal S64 .f32) (k : Fin 64) : kv_main_v31 (F := Ideal) x3 (ix2 (0 : Fin 1) k) = x3 (ix1 k) :=
  RowVector.shapeCast_n_1n_apply x3 shapeCasts_S64_S1x64 0 k
theorem v43_apply (x5 : FVec Ideal S64 .f32) (k : Fin 64) : kv_main_v43 (F := Ideal) x5 (ix2 (0 : Fin 1) k) = x5 (ix1 k) :=
  RowVector.shapeCast_n_1n_apply x5 shapeCasts_S64_S1x64 0 k
theorem v44_apply (x7 : FVec Ideal S1 .f32) :
    kv_main_v44 (F := Ideal) x7 (ix2 (0 : Fin 1) (0 : Fin 1)) = x7 (ix1 (0 : Fin 1)) :=
  RowVector.shapeCast_n_1n_apply x7 shapeCasts_S1_S1x1 0 0

/-! ## The program at a node -/

section
variable (x0 : FVec Ideal S100000x1 .f32) (x1 : IVec S2x1600000 32) (x2 : FVec Ideal S1x64 .f32) (x3 : FVec Ideal S64 .f32)
  (x4 : FVec Ideal S64x64 .f32) (x5 : FVec Ideal S64 .f32) (x6 : FVec Ideal S64x1 .f32) (x7 : FVec Ideal S1 .f32)
  (s d : Fin 1700000 → Fin 100000)
  (hdinv : ∀ r : Fin 102400, kv_main_v30 (F := Ideal) x1 (ix2 r (0 : Fin 1))
    = GcnSpec.dinv d (Ideal.ofBits .f32 0x3F800000#32) r.val)
  (hssum : ∀ v : Fin 100000, kv_main_v29 (F := Ideal) x0 x1 (ix2 (⟨v.val, by omega⟩ : Fin 102400) (0 : Fin 1))
    = GcnSpec.K.ssum s d (Ideal.ofBits .f32 0x3F800000#32) (fun v => x0 (ix2 v (0 : Fin 1))) v)
  (hsrc : ∀ p : Fin 1700000, min (kv_srcCol (F := Ideal) x1 (ix2 p (0 : Fin 1))).toInt.toNat (102400 - 1) = (s p).val)
  (hdst : ∀ p : Fin 1700000, (kv_dstCol (F := Ideal) x1 (ix2 p (0 : Fin 1))).toInt = ((d p).val : Int))

include hdinv hssum in
/-- The first launch's row of a node is the specification's scaled hidden row. -/
theorem hs_apply (u : Fin 100000) (j : Fin 64) :
    G0 (kv_main_v29 (F := Ideal) x0 x1) (kv_main_v30 (F := Ideal) x1) x2 (kv_main_v31 (F := Ideal) x3) x4
        (ix2 (⟨u.val, by omega⟩ : Fin 102400) j)
      = GcnSpec.K.hs s d (Ideal.ofBits .f32 0x3F800000#32) (fun v => x0 (ix2 v (0 : Fin 1))) (fun j => x2 (ix2 (0 : Fin 1) j))
          (fun j => x3 (ix1 j)) (fun k j => x4 (ix2 k j)) u j := by
  show G0c _ _ _ _ _ (⟨u.val, by omega⟩ : Fin 102400) j = _
  unfold G0c GcnSpec.K.hs GcnSpec.K.a1
  rw [hssum u, hdinv ⟨u.val, by omega⟩]
  simp only [v31_apply x3]

include hdinv hssum hsrc hdst in
/-- Those rows gathered along the edges and summed into a node are the specification's aggregate. -/
theorem agg_apply (v : Fin 100000) (j : Fin 64) :
    kv_main_v42 (F := Ideal) x1
        (G0 (kv_main_v29 (F := Ideal) x0 x1) (kv_main_v30 (F := Ideal) x1) x2 (kv_main_v31 (F := Ideal) x3) x4)
        (ix2 (⟨v.val, by omega⟩ : Fin 102400) j)
      = GcnSpec.K.agg s d (Ideal.ofBits .f32 0x3F800000#32) (fun v => x0 (ix2 v (0 : Fin 1))) (fun j => x2 (ix2 (0 : Fin 1) j))
          (fun j => x3 (ix1 j)) (fun k j => x4 (ix2 k j)) v j := by
  rw [v42_apply]
  unfold GcnSpec.K.agg GcnSpec.into
  refine congrArg (0 + ·) (Finset.sum_congr (Finset.filter_congr fun p _ => ?_) fun p _ => ?_)
  · rw [hdst p]
    show ((d p).val : Int) = (v.val : Int) ↔ (d p).val = v.val
    omega
  · have e : (⟨min (kv_srcCol (F := Ideal) x1 (ix2 p (0 : Fin 1))).toInt.toNat (102400 - 1), by omega⟩ : Fin 102400)
        = ⟨(s p).val, by omega⟩ := Fin.ext (hsrc p)
    rw [e]
    exact hs_apply x0 x1 x2 x3 x4 s d hdinv hssum (s p) j

include hdinv hssum hsrc hdst in
/-- THE PROGRAM AT A NODE is the factored arrangement's output there. -/
theorem out_apply_of (v : Fin 100000) :
    kernelOut x0 x1 x2 x3 x4 x5 x6 x7 (ix1 v)
      = GcnSpec.K.out s d (Ideal.ofBits .f32 0x3F800000#32) (fun v => x0 (ix2 v (0 : Fin 1))) (fun j => x2 (ix2 (0 : Fin 1) j))
          (fun j => x3 (ix1 j)) (fun k j => x4 (ix2 k j)) (fun j => x5 (ix1 j)) (fun k => x6 (ix2 k (0 : Fin 1)))
          (x7 (ix1 (0 : Fin 1))) v := by
  unfold kernelOut
  rw [v47_apply]
  show G1c _ _ _ _ _ (⟨v.val, by omega⟩ : Fin 102400) = _
  unfold G1c GcnSpec.K.out GcnSpec.K.a2
  rw [hdinv ⟨v.val, by omega⟩, v44_apply x7]
  simp only [agg_apply x0 x1 x2 x3 x4 s d hdinv hssum hsrc hdst v, v43_apply x5]

end

end Cert.KernelIdeal.KValue2

end
-- ==== Proof.RefApply.lean ====
/-
  The reference program read at an index.

  The reference is a two-layer graph convolution with a linear head, written with gathers and accumulating
  scatters over the list of 1700000 edges (1600000 given edges followed by one self-loop per node).  Given the
  source and target node of every edge as functions `s d : Fin 1700000 → Fin 100000` (the entries of the two
  concatenated index vectors, taken as hypotheses), each stage of the program is read at explicit coordinates and
  identified with the corresponding quantity of the textbook arrangement `GcnSpec.R`:

  * the degree of node `v` is the accumulating scatter of the constant one over the edges into `v`;
  * the scale is the reciprocal square root of the degree where it is positive, zero elsewhere;
  * an edge's weight is the product of the scales gathered at its two ends (a gather index that is the word of a
    node number is neither wrapped nor clamped);
  * a layer is a product with the weight matrix, a gather of rows at the sources, a product with the edge weight,
    an accumulating scatter of rows at the targets, the bias and the maximum with zero;
  * the head is a product with a column, the bias and a reshape of the column into a vector.
-/
import proofs.«165254_j14748917694868_2_alg».proof.Proof.RefRead
import proofs.«165254_j14748917694868_2_alg».proof.Proof.LibScatterFlat
import proofs.«165254_j14748917694868_2_alg».proof.Proof.LibScatterRows
import proofs.«165254_j14748917694868_2_alg».proof.Proof.LibGatherRows
import proofs.«165254_j14748917694868_2_alg».proof.Proof.LibIndexWords
import proofs.«165254_j14748917694868_2_alg».proof.Proof.GcnSpec

noncomputable section

namespace Cert.ReferenceIdeal.RefValue

open Cert.ReferenceIdeal Cert.ReferenceIdeal.Gen Cert.ReferenceIdeal.Read Idealize.ShloMosaic Idealize.ShloMosaic.ValueIdx
open scoped BigOperators

/-- The constant added once per edge by the degree count: the float word of the number one, kept as a word. -/
abbrev one : EReal := Ideal.ofBits .f32 0x3F800000#32

/-! ## Index bookkeeping -/

/-- An index of a matrix shape is the pair of its coordinates. -/
theorem ix2_of_val {n0 n1 : Nat} (j : (⟨2, ![n0, n1]⟩ : Shape).Idx) (a : Fin n0) (b : Fin n1)
    (h0 : (j 0).val = a.val) (h1 : (j 1).val = b.val) : j = ix2 a b := by
  funext t
  match t with
  | ⟨0, _⟩ => exact Fin.ext h0
  | ⟨1, _⟩ => exact Fin.ext h1

/-- An index of a vector shape is its coordinate. -/
theorem ix1_of_val {n : Nat} (j : (⟨1, ![n]⟩ : Shape).Idx) (a : Fin n) (h0 : (j 0).val = a.val) : j = ix1 a := by
  funext t
  match t with
  | ⟨0, _⟩ => exact Fin.ext h0

/-- The filter of a scatter by target node `v` is the set of edges into `v`. -/
theorem filter_into (d : Fin 1700000 → Fin 100000) (idx : IVec S1700000x1 32)
    (hidx : ∀ p : Fin 1700000, (idx (ix2 p (0 : Fin 1))).toInt = ((d p).val : Int)) (v : Fin 100000) :
    (Finset.univ.filter fun p : Fin 1700000 => (idx (ix2 p 0)).toInt = (v.val : Int)) = GcnSpec.into d v.val := by
  unfold GcnSpec.into
  refine Finset.filter_congr fun p _ => ?_
  rw [hidx p]
  omega

/-! ## The program's four index-dependent operations, at any operands -/

/-- The program's scatter of scalars has the dimension numbers of the library's lemma. -/
theorem scatter10_eq : scatter_S100000_S1700000x1_S1700000_n_0_0_1
    = ScatterFlat.flatScatter 100000 1700000 scatter_S100000_S1700000x1_S1700000_n_0_0_1_wf := rfl

/-- The accumulating scatter of scalars, read at element `b`. -/
theorem scatterFlat_apply (x : FVec Ideal S100000 .f32) (idx : IVec S1700000x1 32) (upd : FVec Ideal S1700000 .f32)
    (b : Fin 100000) :
    Host.scatterAdd scatter_S100000_S1700000x1_S1700000_n_0_0_1 x idx upd (ix1 b)
      = x (ix1 b) + ∑ p ∈ Finset.univ.filter (fun p : Fin 1700000 => (idx (ix2 p 0)).toInt = (b.val : Int)), upd (ix1 p) := by
  rw [scatter10_eq]
  exact ScatterFlat.scatterAdd_flat_apply _ x idx upd b

/-- The program's scatter of rows has the dimension numbers of the library's lemma. -/
theorem scatter43_eq : scatter_S100000x64_S1700000x1_S1700000x64_1_0_0_1
    = Cert.Moe.rowScatter 100000 64 1700000 scatter_S100000x64_S1700000x1_S1700000x64_1_0_0_1_wf := rfl

/-- The accumulating scatter of rows, read at element `(b, h)`. -/
theorem scatterRows_apply (x : FVec Ideal S100000x64 .f32) (idx : IVec S1700000x1 32) (upd : FVec Ideal S1700000x64 .f32)
    (b : Fin 100000) (h : Fin 64) :
    Host.scatterAdd scatter_S100000x64_S1700000x1_S1700000x64_1_0_0_1 x idx upd (ix2 b h)
      = x (ix2 b h) + ∑ p ∈ Finset.univ.filter (fun p : Fin 1700000 => (idx (ix2 p 0)).toInt = (b.val : Int)), upd (ix2 p h) := by
  rw [scatter43_eq]
  exact Cert.Moe.scatterAdd_rows_apply _ x idx upd b h

/-- The program's gather of scalars has the dimension numbers of the library's lemma. -/
theorem gather21_eq : gather_S100000_S1700000x1_S1700000_n_0_n_n_0_1_1
    = Cert.Moe.flatDims 100000 1700000 gather_S100000_S1700000x1_S1700000_n_0_n_n_0_1_1_wf := rfl

/-- The gather of scalars, read at `p`, where the start index is the word of a node number `n`. -/
theorem gatherFlat_apply (x : FVec Ideal S100000 .f32) (idx : IVec S1700000x1 32) (p : Fin 1700000) (n : Fin 100000)
    (hn : idx (ix2 p (0 : Fin 1)) = BitVec.ofNat 32 n.val) :
    Host.gather gather_S100000_S1700000x1_S1700000_n_0_n_n_0_1_1 x idx (ix1 p) = x (ix1 n) := by
  rw [gather21_eq]
  refine (Cert.Moe.gather_flat_apply (by decide) _ x idx p).trans ?_
  refine congrArg (fun a => x (ix1 a)) (Fin.ext ?_)
  show min (idx (ix2 p 0)).toInt.toNat (100000 - 1) = n.val
  rw [hn]
  exact Cert.Moe.clamp_word n.val 100000 n.isLt (by decide)

/-- The program's gather of rows has the dimension numbers of the library's lemma. -/
theorem gather37_eq : gather_S100000x64_S1700000x1_S1700000x64_1_0_n_n_0_1_164
    = Cert.Moe.rowDims 100000 64 1700000 gather_S100000x64_S1700000x1_S1700000x64_1_0_n_n_0_1_164_wf := rfl

/-- The gather of rows, read at `(p, k)`, where the start index is the word of a node number `n`. -/
theorem gatherRows_apply (x : FVec Ideal S100000x64 .f32) (idx : IVec S1700000x1 32) (p : Fin 1700000) (k : Fin 64)
    (n : Fin 100000) (hn : idx (ix2 p (0 : Fin 1)) = BitVec.ofNat 32 n.val) :
    Host.gather gather_S100000x64_S1700000x1_S1700000x64_1_0_n_n_0_1_164 x idx (ix2 p k) = x (ix2 n k) := by
  rw [gather37_eq]
  refine (Cert.Moe.gather_rows_apply (by decide) _ x idx p k).trans ?_
  refine congrArg (fun a => x (ix2 a k)) (Fin.ext ?_)
  show min (idx (ix2 p 0)).toInt.toNat (100000 - 1) = n.val
  rw [hn]
  exact Cert.Moe.clamp_word n.val 100000 n.isLt (by decide)

/-- The wrap of a possibly negative gather index leaves the word of a node number alone. -/
theorem wrap_node (n : Fin 100000) :
    Scalar.select (IntOp.cmpi .slt (BitVec.ofNat 32 n.val) 0#32) (IntOp.addi (BitVec.ofNat 32 n.val) 100000#32)
      (BitVec.ofNat 32 n.val) = BitVec.ofNat 32 n.val :=
  Cert.Moe.wrap_word _ n.val (by have := n.isLt; omega)

section
variable (x1 : IVec S2x1600000 32) (s d : Fin 1700000 → Fin 100000)
  (hs : ∀ p : Fin 1700000, val_main_v3 (F := Ideal) x1 (ix1 p) = BitVec.ofNat 32 (s p).val)
  (hd : ∀ p : Fin 1700000, val_main_v6 (F := Ideal) x1 (ix1 p) = BitVec.ofNat 32 (d p).val)
include hs hd

/-! ## The degree and the scale -/

omit hs in
/-- A scatter's index column at edge `p`, read signed, is the number of the edge's target node. -/
theorem v9_toInt (p : Fin 1700000) :
    (val_main_v9 (F := Ideal) x1 (ix2 p (0 : Fin 1))).toInt = ((d p).val : Int) := by
  rw [val_main_v9_apply, ix1_of_val (idx_main_v9 (ix2 p (0 : Fin 1))) p rfl, hd p]
  exact Cert.Moe.idxWord_toInt _ (by have := (d p).isLt; omega)

omit hs in
/-- THE DEGREE: the accumulating scatter of the constant one, read at node `v`. -/
theorem deg_apply (v : Fin 100000) :
    val_main_v10 (F := Ideal) x1 (ix1 v) = GcnSpec.deg d one v.val := by
  unfold val_main_v10
  rw [scatterFlat_apply, filter_into d (val_main_v9 (F := Ideal) x1) (v9_toInt x1 d hd) v]
  unfold GcnSpec.deg
  rw [val_main_v8_apply, val_main_cst_0_apply, Ideal.ofBits_def, Ideal.ofBits_zero_f32]
  refine congrArg (0 + ·) (Finset.sum_congr rfl fun p _ => ?_)
  rw [val_main_v7_apply, val_main_cst_apply, Ideal.ofBits_def]

omit hs in
/-- THE SCALE: the reciprocal square root of the degree where it is positive, zero elsewhere. -/
theorem dinv_apply (v : Fin 100000) :
    val_main_v14 (F := Ideal) x1 (ix1 v) = GcnSpec.dinv d one v.val := by
  unfold GcnSpec.dinv
  rw [val_main_v14_apply, val_main_v12_apply, val_main_v13_apply, deg_apply x1 d hd v, val_main_v11_apply,
    val_main_cst_1_apply, val_main_call0_v1_apply, val_main_call0_v0_apply, val_main_cst_2_apply, Ideal.ofBits_def,
    Ideal.ofBits_zero_f32, Ideal.cmpf_def, Ideal.hostUnary_rsqrt_def]

/-! ## The edge weights -/

omit hd in
/-- The wrapped gather index of an edge's source is the word of the source node. -/
theorem v20_word (p : Fin 1700000) :
    val_main_v20 (F := Ideal) x1 (ix2 p (0 : Fin 1)) = BitVec.ofNat 32 (s p).val := by
  rw [val_main_v20_apply, ix1_of_val (idx_main_v20 (ix2 p (0 : Fin 1))) p rfl, val_main_v19_apply, val_main_v16_apply,
    val_main_v18_apply, hs p, val_main_v15_apply, val_main_c_apply, val_main_v17_apply, val_main_c_3_apply]
  exact wrap_node (s p)

omit hs in
/-- The wrapped gather index of an edge's target is the word of the target node. -/
theorem v27_word (p : Fin 1700000) :
    val_main_v27 (F := Ideal) x1 (ix2 p (0 : Fin 1)) = BitVec.ofNat 32 (d p).val := by
  rw [val_main_v27_apply, ix1_of_val (idx_main_v27 (ix2 p (0 : Fin 1))) p rfl, val_main_v26_apply, val_main_v23_apply,
    val_main_v25_apply, hd p, val_main_v22_apply, val_main_c_4_apply, val_main_v24_apply, val_main_c_5_apply]
  exact wrap_node (d p)

/-- The scale gathered at an edge's source. -/
theorem v21_apply (p : Fin 1700000) :
    val_main_v21 (F := Ideal) x1 (ix1 p) = GcnSpec.dinv d one (s p).val := by
  unfold val_main_v21
  rw [gatherFlat_apply _ _ p (s p) (v20_word x1 s hs p), dinv_apply x1 d hd (s p)]

omit hs in
/-- The scale gathered at an edge's target. -/
theorem v28_apply (p : Fin 1700000) :
    val_main_v28 (F := Ideal) x1 (ix1 p) = GcnSpec.dinv d one (d p).val := by
  unfold val_main_v28
  rw [gatherFlat_apply _ _ p (d p) (v27_word x1 d hd p), dinv_apply x1 d hd (d p)]

/-- THE EDGE WEIGHT: the product of the scales at the edge's two ends. -/
theorem norm_apply (p : Fin 1700000) :
    val_main_v29 (F := Ideal) x1 (ix1 p) = GcnSpec.R.norm s d one p := by
  unfold GcnSpec.R.norm
  rw [val_main_v29_apply, v21_apply x1 s d hs hd p, v28_apply x1 d hd p, Ideal.mulf_def]

/-- The edge weight broadcast along a row of 64 features. -/
theorem v39_apply (p : Fin 1700000) (c : Fin 64) :
    val_main_v39 (F := Ideal) x1 (ix2 p c) = GcnSpec.R.norm s d one p := by
  rw [val_main_v39_apply, ix2_of_val (idx_main_v39 (ix2 p c)) p (0 : Fin 1) rfl rfl, val_main_v38_apply,
    ix1_of_val (idx_main_v38 (ix2 p (0 : Fin 1))) p rfl, norm_apply x1 s d hs hd p]

/-- The same broadcast, as the second layer reads it. -/
theorem v57_apply (p : Fin 1700000) (c : Fin 64) :
    val_main_v57 (F := Ideal) x1 (ix2 p c) = GcnSpec.R.norm s d one p := by
  rw [val_main_v57_apply, ix2_of_val (idx_main_v57 (ix2 p c)) p (0 : Fin 1) rfl rfl, val_main_v56_apply,
    ix1_of_val (idx_main_v56 (ix2 p (0 : Fin 1))) p rfl, norm_apply x1 s d hs hd p]

omit hd in
/-- The wrapped index of the first layer's row gather is the word of the source node. -/
theorem v36_word (p : Fin 1700000) :
    val_main_v36 (F := Ideal) x1 (ix2 p (0 : Fin 1)) = BitVec.ofNat 32 (s p).val := by
  rw [val_main_v36_apply, ix1_of_val (idx_main_v36 (ix2 p (0 : Fin 1))) p rfl, val_main_v35_apply, val_main_v32_apply,
    val_main_v34_apply, hs p, val_main_v31_apply, val_main_c_6_apply, val_main_v33_apply, val_main_c_7_apply]
  exact wrap_node (s p)

omit hd in
/-- The wrapped index of the second layer's row gather is the word of the source node. -/
theorem v54_word (p : Fin 1700000) :
    val_main_v54 (F := Ideal) x1 (ix2 p (0 : Fin 1)) = BitVec.ofNat 32 (s p).val := by
  rw [val_main_v54_apply, ix1_of_val (idx_main_v54 (ix2 p (0 : Fin 1))) p rfl, val_main_v53_apply, val_main_v50_apply,
    val_main_v52_apply, hs p, val_main_v49_apply, val_main_c_9_apply, val_main_v51_apply, val_main_c_10_apply]
  exact wrap_node (s p)

omit hs in
/-- The first layer's scatter index column, read signed, is the target node's number. -/
theorem v42_toInt (p : Fin 1700000) :
    (val_main_v42 (F := Ideal) x1 (ix2 p (0 : Fin 1))).toInt = ((d p).val : Int) := by
  rw [val_main_v42_apply, ix1_of_val (idx_main_v42 (ix2 p (0 : Fin 1))) p rfl, hd p]
  exact Cert.Moe.idxWord_toInt _ (by have := (d p).isLt; omega)

omit hs in
/-- The second layer's scatter index column, read signed, is the target node's number. -/
theorem v60_toInt (p : Fin 1700000) :
    (val_main_v60 (F := Ideal) x1 (ix2 p (0 : Fin 1))).toInt = ((d p).val : Int) := by
  rw [val_main_v60_apply, ix1_of_val (idx_main_v60 (ix2 p (0 : Fin 1))) p rfl, hd p]
  exact Cert.Moe.idxWord_toInt _ (by have := (d p).isLt; omega)

/-! ## The first layer -/

section
variable (x0 : FVec Ideal S100000x1 .f32) (x2 : FVec Ideal S1x64 .f32) (x3 : FVec Ideal S64 .f32)

omit hs hd in
/-- The first layer's linear map: one input channel, so the contraction is a single product. -/
theorem v30_apply (r : Fin 100000) (c : Fin 64) :
    val_main_v30 (F := Ideal) x0 x2 (ix2 r c) = x0 (ix2 r (0 : Fin 1)) * x2 (ix2 (0 : Fin 1) c) := by
  rw [val_main_v30_apply, Fin.sum_univ_one,
    ix2_of_val (lidx_main_v30 (ix2 r c) (0 : Fin 1)) r (0 : Fin 1) rfl rfl,
    ix2_of_val (ridx_main_v30 (ix2 r c) (0 : Fin 1)) (0 : Fin 1) c rfl rfl]

omit hd in
/-- The rows of the linear map gathered at the edges' sources. -/
theorem v37_apply (p : Fin 1700000) (c : Fin 64) :
    val_main_v37 (F := Ideal) x0 x1 x2 (ix2 p c) = x0 (ix2 (s p) (0 : Fin 1)) * x2 (ix2 (0 : Fin 1) c) := by
  unfold val_main_v37
  rw [gatherRows_apply _ _ p c (s p) (v36_word x1 s hs p), v30_apply x0 x2 (s p) c]

/-- The weighted message of edge `p` in channel `c`. -/
theorem v40_apply (p : Fin 1700000) (c : Fin 64) :
    val_main_v40 (F := Ideal) x0 x1 x2 (ix2 p c)
      = (x0 (ix2 (s p) (0 : Fin 1)) * x2 (ix2 (0 : Fin 1) c)) * GcnSpec.R.norm s d one p := by
  rw [val_main_v40_apply, v37_apply x1 s hs x0 x2 p c, v39_apply x1 s d hs hd p c, Ideal.mulf_def]

/-- THE FIRST AGGREGATION: the weighted messages summed over the edges into `v`. -/
theorem v43_apply (v : Fin 100000) (j : Fin 64) :
    val_main_v43 (F := Ideal) x0 x1 x2 (ix2 v j)
      = GcnSpec.R.agg1 s d one (fun v => x0 (ix2 v (0 : Fin 1))) (fun j => x2 (ix2 (0 : Fin 1) j)) v j := by
  unfold val_main_v43
  rw [scatterRows_apply, filter_into d (val_main_v42 (F := Ideal) x1) (v42_toInt x1 d hd) v]
  unfold GcnSpec.R.agg1
  rw [val_main_v41_apply, val_main_cst_8_apply, Ideal.ofBits_def, Ideal.ofBits_zero_f32]
  exact congrArg (0 + ·) (Finset.sum_congr rfl fun p _ => v40_apply x1 s d hs hd x0 x2 p j)

/-- THE FIRST LAYER'S OUTPUT: the aggregation plus the bias, floored at zero. -/
theorem v47_apply (v : Fin 100000) (j : Fin 64) :
    val_main_v47 (F := Ideal) x0 x1 x2 x3 (ix2 v j)
      = GcnSpec.R.a1 s d one (fun v => x0 (ix2 v (0 : Fin 1))) (fun j => x2 (ix2 (0 : Fin 1) j)) (fun j => x3 (ix1 j)) v j := by
  unfold GcnSpec.R.a1
  rw [val_main_v47_apply, val_main_v46_apply, v43_apply x1 s d hs hd x0 x2 v j, val_main_v45_apply,
    ix2_of_val (idx_main_v45 (ix2 v j)) (0 : Fin 1) j rfl rfl, val_main_v44_apply,
    ix1_of_val (idx_main_v44 (ix2 (0 : Fin 1) j)) j rfl, val_main_call1_v0_apply, val_main_call1_cst_apply,
    Ideal.ofBits_def, Ideal.ofBits_zero_f32, Ideal.addf_def, Ideal.maximumf_def]

end

/-! ## The second layer and the head -/

section
variable (x0 : FVec Ideal S100000x1 .f32) (x2 : FVec Ideal S1x64 .f32) (x3 : FVec Ideal S64 .f32)
  (x4 : FVec Ideal S64x64 .f32) (x5 : FVec Ideal S64 .f32) (x6 : FVec Ideal S64x1 .f32) (x7 : FVec Ideal S1 .f32)

/-- The second layer's linear map: the contraction over the 64 channels of the first layer's output. -/
theorem v48_apply (v : Fin 100000) (j : Fin 64) :
    val_main_v48 (F := Ideal) x0 x1 x2 x3 x4 (ix2 v j)
      = GcnSpec.R.h2 s d one (fun v => x0 (ix2 v (0 : Fin 1))) (fun j => x2 (ix2 (0 : Fin 1) j)) (fun j => x3 (ix1 j))
          (fun k j => x4 (ix2 k j)) v j := by
  unfold GcnSpec.R.h2
  rw [val_main_v48_apply]
  refine Finset.sum_congr rfl fun k _ => ?_
  rw [ix2_of_val (lidx_main_v48 (ix2 v j) k) v k rfl rfl, ix2_of_val (ridx_main_v48 (ix2 v j) k) k j rfl rfl,
    v47_apply x1 s d hs hd x0 x2 x3 v k]

/-- The rows of the second linear map gathered at the edges' sources. -/
theorem v55_apply (p : Fin 1700000) (j : Fin 64) :
    val_main_v55 (F := Ideal) x0 x1 x2 x3 x4 (ix2 p j)
      = GcnSpec.R.h2 s d one (fun v => x0 (ix2 v (0 : Fin 1))) (fun j => x2 (ix2 (0 : Fin 1) j)) (fun j => x3 (ix1 j))
          (fun k j => x4 (ix2 k j)) (s p) j := by
  unfold val_main_v55
  rw [gatherRows_apply _ _ p j (s p) (v54_word x1 s hs p), v48_apply x1 s d hs hd x0 x2 x3 x4 (s p) j]

/-- THE SECOND AGGREGATION: the weighted rows summed over the edges into `v`. -/
theorem v61_apply (v : Fin 100000) (j : Fin 64) :
    val_main_v61 (F := Ideal) x0 x1 x2 x3 x4 (ix2 v j)
      = GcnSpec.R.agg2 s d one (fun v => x0 (ix2 v (0 : Fin 1))) (fun j => x2 (ix2 (0 : Fin 1) j)) (fun j => x3 (ix1 j))
          (fun k j => x4 (ix2 k j)) v j := by
  unfold val_main_v61
  rw [scatterRows_apply, filter_into d (val_main_v60 (F := Ideal) x1) (v60_toInt x1 d hd) v]
  unfold GcnSpec.R.agg2
  rw [val_main_v59_apply, val_main_cst_11_apply, Ideal.ofBits_def, Ideal.ofBits_zero_f32]
  refine congrArg (0 + ·) (Finset.sum_congr rfl fun p _ => ?_)
  rw [val_main_v58_apply, v55_apply x1 s d hs hd x0 x2 x3 x4 p j, v57_apply x1 s d hs hd p j, Ideal.mulf_def]

/-- THE SECOND LAYER'S OUTPUT: the aggregation plus the bias, floored at zero. -/
theorem v65_apply (v : Fin 100000) (j : Fin 64) :
    val_main_v65 (F := Ideal) x0 x1 x2 x3 x4 x5 (ix2 v j)
      = GcnSpec.R.a2 s d one (fun v => x0 (ix2 v (0 : Fin 1))) (fun j => x2 (ix2 (0 : Fin 1) j)) (fun j => x3 (ix1 j))
          (fun k j => x4 (ix2 k j)) (fun j => x5 (ix1 j)) v j := by
  unfold GcnSpec.R.a2
  rw [val_main_v65_apply, val_main_v64_apply, v61_apply x1 s d hs hd x0 x2 x3 x4 v j, val_main_v63_apply,
    ix2_of_val (idx_main_v63 (ix2 v j)) (0 : Fin 1) j rfl rfl, val_main_v62_apply,
    ix1_of_val (idx_main_v62 (ix2 (0 : Fin 1) j)) j rfl, val_main_call2_v0_apply, val_main_call2_cst_apply,
    Ideal.ofBits_def, Ideal.ofBits_zero_f32, Ideal.addf_def, Ideal.maximumf_def]

/-- THE HEAD, as a column: the contraction with the output weights plus the output bias. -/
theorem v69_apply (v : Fin 100000) :
    val_main_v69 (F := Ideal) x0 x1 x2 x3 x4 x5 x6 x7 (ix2 v (0 : Fin 1))
      = GcnSpec.R.out s d one (fun v => x0 (ix2 v (0 : Fin 1))) (fun j => x2 (ix2 (0 : Fin 1) j)) (fun j => x3 (ix1 j))
          (fun k j => x4 (ix2 k j)) (fun j => x5 (ix1 j)) (fun k => x6 (ix2 k (0 : Fin 1))) (x7 (ix1 (0 : Fin 1))) v := by
  unfold GcnSpec.R.out
  rw [val_main_v69_apply, val_main_v66_apply, val_main_v68_apply,
    ix2_of_val (idx_main_v68 (ix2 v (0 : Fin 1))) (0 : Fin 1) (0 : Fin 1) rfl rfl, val_main_v67_apply,
    ix1_of_val (idx_main_v67 (ix2 (0 : Fin 1) (0 : Fin 1))) (0 : Fin 1) rfl, Ideal.addf_def]
  refine congrArg (· + x7 (ix1 (0 : Fin 1))) (Finset.sum_congr rfl fun k _ => ?_)
  rw [ix2_of_val (lidx_main_v66 (ix2 v (0 : Fin 1)) k) v k rfl rfl,
    ix2_of_val (ridx_main_v66 (ix2 v (0 : Fin 1)) k) k (0 : Fin 1) rfl rfl,
    v65_apply x1 s d hs hd x0 x2 x3 x4 x5 v k]

/-- THE RESULT: the head's column reshaped into a vector. -/
theorem v70_apply (v : Fin 100000) :
    val_main_v70 (F := Ideal) x0 x1 x2 x3 x4 x5 x6 x7 (ix1 v)
      = GcnSpec.R.out s d one (fun v => x0 (ix2 v (0 : Fin 1))) (fun j => x2 (ix2 (0 : Fin 1) j)) (fun j => x3 (ix1 j))
          (fun k j => x4 (ix2 k j)) (fun j => x5 (ix1 j)) (fun k => x6 (ix2 k (0 : Fin 1))) (x7 (ix1 (0 : Fin 1))) v := by
  rw [val_main_v70_apply, ix2_of_val (idx_main_v70 (ix1 v)) v (0 : Fin 1) (Nat.div_one _) rfl]
  exact v69_apply x1 s d hs hd x0 x2 x3 x4 x5 x6 x7 v

end

end

/-- THE REFERENCE READ AT A NODE: given the source and target node of every edge, the reference's result at node `v` is
    the textbook arrangement's output there. -/
theorem out_apply (x0 : FVec Ideal S100000x1 .f32) (x1 : IVec S2x1600000 32) (x2 : FVec Ideal S1x64 .f32)
    (x3 : FVec Ideal S64 .f32) (x4 : FVec Ideal S64x64 .f32) (x5 : FVec Ideal S64 .f32) (x6 : FVec Ideal S64x1 .f32)
    (x7 : FVec Ideal S1 .f32) (s d : Fin 1700000 → Fin 100000)
    (hs : ∀ p : Fin 1700000, val_main_v3 (F := Ideal) x1 (ix1 p) = BitVec.ofNat 32 (s p).val)
    (hd : ∀ p : Fin 1700000, val_main_v6 (F := Ideal) x1 (ix1 p) = BitVec.ofNat 32 (d p).val)
    (v : Fin 100000) :
    val_main_v70 (F := Ideal) x0 x1 x2 x3 x4 x5 x6 x7 (ix1 v)
      = GcnSpec.R.out s d (Ideal.ofBits .f32 0x3F800000#32) (fun v => x0 (ix2 v (0 : Fin 1)))
          (fun j => x2 (ix2 (0 : Fin 1) j)) (fun j => x3 (ix1 j)) (fun k j => x4 (ix2 k j)) (fun j => x5 (ix1 j))
          (fun k => x6 (ix2 k (0 : Fin 1))) (x7 (ix1 (0 : Fin 1))) v :=
  v70_apply x1 s d hs hd x0 x2 x3 x4 x5 x6 x7 v

end Cert.ReferenceIdeal.RefValue

end
-- ==== Proof.EdgeLists.lean ====
/-
  The edge lists.

  Both programs build the list of every edge's source (and target) node the same way: row 0 (row 1) of the edge
  array, 1600000 entries, followed by the node numbers 0 … 99999 for the self-loops.  If every entry of the edge
  array is the word of a natural below 100000, so is every entry of the appended list: an entry before position
  1600000 is an entry of the edge array, an entry at position 1600000 + q is the word of q < 100000.
-/
import proofs.«165254_j14748917694868_2_alg».proof.Proof.RefRead
import proofs.«165254_j14748917694868_2_alg».proof.Proof.KernelTerm
import Idealize.ShloMosaic.Lib.Pipeline.Value
import Idealize.ShloMosaic.Lib.ValueIdx

noncomputable section

namespace Cert.EdgeLists

open Idealize.ShloMosaic Idealize.ShloMosaic.ValueIdx
open Cert.ReferenceIdeal Cert.ReferenceIdeal.Gen Cert.ReferenceIdeal.Read

/-- The reference's source list: every entry is a node id. -/
theorem ref_src (x1 : IVec S2x1600000 32) (hx : ∀ i, ∃ v : Nat, v < 100000 ∧ x1 i = BitVec.ofNat 32 v)
    (p : Fin 1700000) : ∃ v : Nat, v < 100000 ∧ val_main_v3 (F := Ideal) x1 (ix1 p) = BitVec.ofNat 32 v := by
  unfold val_main_v3
  by_cases hp : p.val < 1600000
  · rw [concatenate_pair_apply_left 0 _ _ concatenates_S1600000_S100000_S1700000_d0 (ix1 p) rfl (ix1 ⟨p.val, hp⟩)
      (fun b => by match b with | ⟨0, _⟩ => rfl)]
    rw [val_main_v2_apply, val_main_v1_apply]
    exact hx _
  · have hq : p.val - 1600000 < 100000 := by have := p.isLt; omega
    rw [concatenate_pair_apply_right 0 _ _ concatenates_S1600000_S100000_S1700000_d0 (ix1 p) rfl rfl
      (ix1 ⟨p.val - 1600000, hq⟩) (fun b hb => (hb (Fin.ext (by have h : b.val < 1 := b.isLt; show b.val = 0; omega))).elim)
      (by show (p.val - 1600000) + 1600000 = p.val; omega)]
    exact ⟨p.val - 1600000, hq, rfl⟩

/-- The reference's target list: every entry is a node id. -/
theorem ref_dst (x1 : IVec S2x1600000 32) (hx : ∀ i, ∃ v : Nat, v < 100000 ∧ x1 i = BitVec.ofNat 32 v)
    (p : Fin 1700000) : ∃ v : Nat, v < 100000 ∧ val_main_v6 (F := Ideal) x1 (ix1 p) = BitVec.ofNat 32 v := by
  unfold val_main_v6
  by_cases hp : p.val < 1600000
  · rw [concatenate_pair_apply_left 0 _ _ concatenates_S1600000_S100000_S1700000_d0 (ix1 p) rfl (ix1 ⟨p.val, hp⟩)
      (fun b => by match b with | ⟨0, _⟩ => rfl)]
    rw [val_main_v5_apply, val_main_v4_apply]
    exact hx _
  · have hq : p.val - 1600000 < 100000 := by have := p.isLt; omega
    rw [concatenate_pair_apply_right 0 _ _ concatenates_S1600000_S100000_S1700000_d0 (ix1 p) rfl rfl
      (ix1 ⟨p.val - 1600000, hq⟩) (fun b hb => (hb (Fin.ext (by have h : b.val < 1 := b.isLt; show b.val = 0; omega))).elim)
      (by show (p.val - 1600000) + 1600000 = p.val; omega)]
    exact ⟨p.val - 1600000, hq, rfl⟩

/-- The kernel's source list is the reference's: the same operations of the same argument. -/
theorem kernel_src_eq (x1 : IVec S2x1600000 32) :
    Cert.KernelIdeal.Term.kv_main_v3 (F := Ideal) x1 = val_main_v3 (F := Ideal) x1 := rfl

/-- The kernel's target list is the reference's. -/
theorem kernel_dst_eq (x1 : IVec S2x1600000 32) :
    Cert.KernelIdeal.Term.kv_main_v6 (F := Ideal) x1 = val_main_v6 (F := Ideal) x1 := rfl

end Cert.EdgeLists

end
-- ==== Proof.Precondition.lean ====
/-
  The precondition read back.

  It is a conjunction of nine `jnp.all`s: for each of the seven float inputs, `|x| < +inf` at every entry, and for
  the edge array, `0 ≤ e` and `e < 100000` (signed) at every entry.  On the extended reals `|x| < +inf` says exactly
  that `x` is a real number; a 32-bit word in `[0, 100000)` signed is the word of a natural below 100000.
-/
import proofs.«165254_j14748917694868_2_alg».proof.Pre_finite_inputs
import proofs.«165254_j14748917694868_2_alg».proof.Proof.GcnSpec
import Idealize.ShloMosaic.Lib.ReduceAll
import Idealize.ShloMosaic.Lib.ValueIdx

noncomputable section

namespace Cert.PreRead

open Cert.Pre_finite_inputs Idealize.ShloMosaic Idealize.ShloMosaic.ValueIdx

/-- The scalar shape has one index. -/
instance : Subsingleton S_.Idx := ⟨fun a b => funext fun d => d.elim0⟩

/-- An extended real whose absolute value is below `+inf` (the word `0x7F800000`) is a real number. -/
theorem real_of_abs_lt (x : EReal) (h : Ideal.cmp .olt (max x (-x)) (Ideal.ofBits .f32 0x7F800000#32) = 1#1) :
    GcnSpec.IsReal x := by
  have ht : Ideal.ofBits .f32 0x7F800000#32 = ⊤ := by simp [Ideal.ofBits, Ideal.ieee]
  rw [ht] at h
  unfold Ideal.cmp at h
  induction x using EReal.rec with
  | bot => simp at h
  | top => simp at h
  | coe r => exact ⟨r, rfl⟩

/-- One float conjunct: if `jnp.all(|x| < inf)` holds, every entry of `x` is a real number. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1) (i : s.Idx) : GcnSpec.IsReal (x i) :=
  real_of_abs_lt (x i) (Host.reduce_andi_all _ _ hr hu ix0 e i)

theorem ofBool_eq_one (b : Bool) : BitVec.ofBool b = 1#1 ↔ b = true := by cases b <;> decide

/-- A word that is `≥ 0` and `< 100000` as a signed integer is the word of a natural below 100000. -/
theorem word_of_range (w : BitVec 32) (h0 : IntOp.cmpi .sge w 0#32 = 1#1) (h1 : IntOp.cmpi .slt w 100000#32 = 1#1) :
    ∃ v : Nat, v < 100000 ∧ w = BitVec.ofNat 32 v := by
  refine ⟨w.toNat, ?_, by simp⟩
  unfold IntOp.cmpi at h0 h1
  rw [ofBool_eq_one] at h0 h1
  simp only [BitVec.slt, BitVec.sle, decide_eq_true_eq] at h0 h1
  have hw := w.isLt
  have e0 : (0#32 : BitVec 32).toInt = 0 := by decide
  have e1 : (100000#32 : BitVec 32).toInt = 100000 := by decide
  rw [e0] at h0
  rw [e1] at h1
  unfold BitVec.toInt at h0 h1
  split at h1 <;> omega

/-- The two integer conjuncts: every entry of the edge array is the word of a natural below 100000. -/
theorem all_in_range {s : Shape} {axes : List (Fin s.rank)} (x : IVec s 32)
    (hb : S_.BroadcastsInDim s (![] : Fin 0 → Fin s.rank)) (hr : s.ReducesTo axes S_) (hu : 0 < S_.numel)
    (e0 : Host.reduce IntOp.andi (cmpi .sge x (broadcastInDim s ![] hb (constantI S_ 32 0#32))) (constantI S_ 1 1#1)
            hr hu ix0 = 1#1)
    (e1 : Host.reduce IntOp.andi (cmpi .slt x (broadcastInDim s ![] hb (constantI S_ 32 100000#32))) (constantI S_ 1 1#1)
            hr hu ix0 = 1#1) (i : s.Idx) : ∃ v : Nat, v < 100000 ∧ x i = BitVec.ofNat 32 v :=
  word_of_range (x i) (Host.reduce_andi_all _ _ hr hu ix0 e0 i) (Host.reduce_andi_all _ _ hr hu ix0 e1 i)

variable [Cert.Pre_finite_inputs.Facts]
open Cert.Pre_finite_inputs.Facts

/-- THE PRECONDITION DECODED: every float input real, every edge entry a node id. -/
theorem decode (x0 : FVec Ideal S100000x1 .f32) (x1 : IVec S2x1600000 32) (x2 : FVec Ideal S1x64 .f32)
    (x3 : FVec Ideal S64 .f32) (x4 : FVec Ideal S64x64 .f32) (x5 : FVec Ideal S64 .f32) (x6 : FVec Ideal S64x1 .f32)
    (x7 : FVec Ideal S1 .f32) (h : fn (F := Ideal) x0 x1 x2 x3 x4 x5 x6 x7 = fun _ => 1#1) :
    (∀ i, GcnSpec.IsReal (x0 i)) ∧ (∀ i, GcnSpec.IsReal (x2 i)) ∧ (∀ i, GcnSpec.IsReal (x3 i))
      ∧ (∀ i, GcnSpec.IsReal (x4 i)) ∧ (∀ i, GcnSpec.IsReal (x5 i)) ∧ (∀ i, GcnSpec.IsReal (x6 i))
      ∧ (∀ i, GcnSpec.IsReal (x7 i)) ∧ (∀ i, ∃ v : Nat, v < 100000 ∧ x1 i = BitVec.ofNat 32 v) := by
  have e := congrFun h ix0
  unfold fn fn_part1 fn_part2 at e
  dsimp only at e
  simp only [andi, IntOp.andi_eq_one] at e
  obtain ⟨⟨⟨⟨⟨⟨⟨⟨h0, h2⟩, h3⟩, h4⟩, h5⟩, h6⟩, h7⟩, hge⟩, hlt⟩ := e
  exact ⟨all_real x0 _ _ _ h0, all_real x2 _ _ _ h2, all_real x3 _ _ _ h3, all_real x4 _ _ _ h4,
    all_real x5 _ _ _ h5, all_real x6 _ _ _ h6, all_real x7 _ _ _ h7, all_in_range x1 _ _ _ hge hlt⟩

end Cert.PreRead

end
-- ==== Proof.Bridge.lean ====
/-
  The two programs compute one array.

  Under the precondition every float input is a real number and every edge entry a node id.  The kernel's program,
  read entry by entry, is the factored arrangement of the graph convolution over the edge lists `s`, `d`; the
  reference's is the textbook arrangement over the same lists; on real inputs the two arrangements agree.
-/
import proofs.«165254_j14748917694868_2_alg».proof.Proof.KernelApply
import proofs.«165254_j14748917694868_2_alg».proof.Proof.KernelApply2
import proofs.«165254_j14748917694868_2_alg».proof.Proof.RefApply
import proofs.«165254_j14748917694868_2_alg».proof.Proof.EdgeLists
import proofs.«165254_j14748917694868_2_alg».proof.Proof.Precondition
import proofs.«165254_j14748917694868_2_alg».proof.Proof.GcnSpec

noncomputable section

namespace Cert.Bridge

open Idealize.ShloMosaic Idealize.ShloMosaic.ValueIdx

variable [Cert.Pre_finite_inputs.Facts]

/-- Under the precondition the kernel's whole term and the reference's last stage are the same array. -/
theorem terms_eq (x0 : FVec Ideal Cert.KernelIdeal.S100000x1 .f32) (x1 : IVec Cert.KernelIdeal.S2x1600000 32)
    (x2 : FVec Ideal Cert.KernelIdeal.S1x64 .f32) (x3 : FVec Ideal Cert.KernelIdeal.S64 .f32)
    (x4 : FVec Ideal Cert.KernelIdeal.S64x64 .f32) (x5 : FVec Ideal Cert.KernelIdeal.S64 .f32)
    (x6 : FVec Ideal Cert.KernelIdeal.S64x1 .f32) (x7 : FVec Ideal Cert.KernelIdeal.S1 .f32)
    (hpre : Cert.Pre_finite_inputs.fn (F := Ideal) x0 x1 x2 x3 x4 x5 x6 x7 = fun _ => 1#1) :
    Cert.KernelIdeal.Term.kernelOut x0 x1 x2 x3 x4 x5 x6 x7
      = Cert.ReferenceIdeal.Read.val_main_v70 (F := Ideal) x0 x1 x2 x3 x4 x5 x6 x7 := by
  obtain ⟨h0, h2, h3, h4, -, -, -, hx⟩ := Cert.PreRead.decode x0 x1 x2 x3 x4 x5 x6 x7 hpre
  choose s hs using fun p => Cert.EdgeLists.ref_src x1 hx p
  choose d hd using fun p => Cert.EdgeLists.ref_dst x1 hx p
  funext i
  obtain ⟨v, rfl⟩ : ∃ v : Fin 100000, i = ix1 v := ⟨i 0, eq_ix1 i⟩
  have hks : ∀ p : Fin 1700000, Cert.KernelIdeal.Term.kv_main_v3 (F := Ideal) x1 (ix1 p)
      = BitVec.ofNat 32 (⟨s p, (hs p).1⟩ : Fin 100000).val :=
    fun p => (congrFun (Cert.EdgeLists.kernel_src_eq x1) (ix1 p)).trans (hs p).2
  have hkd : ∀ p : Fin 1700000, Cert.KernelIdeal.Term.kv_main_v6 (F := Ideal) x1 (ix1 p)
      = BitVec.ofNat 32 (⟨d p, (hd p).1⟩ : Fin 100000).val :=
    fun p => (congrFun (Cert.EdgeLists.kernel_dst_eq x1) (ix1 p)).trans (hd p).2
  refine (Cert.KernelIdeal.KValue2.out_apply_of x0 x1 x2 x3 x4 x5 x6 x7 (fun p => ⟨s p, (hs p).1⟩) (fun p => ⟨d p, (hd p).1⟩)
      (fun r => Cert.KernelIdeal.KValue.hdinv x1 (fun p => ⟨d p, (hd p).1⟩) hkd r)
      (fun u => Cert.KernelIdeal.KValue.hssum x1 (fun p => ⟨s p, (hs p).1⟩) (fun p => ⟨d p, (hd p).1⟩) x0 hks hkd u)
      (fun p => Cert.KernelIdeal.KValue.hsrc x1 (fun p => ⟨s p, (hs p).1⟩) hks p)
      (fun p => Cert.KernelIdeal.KValue.hdst x1 (fun p => ⟨d p, (hd p).1⟩) hkd p) v).trans ?_
  refine Eq.trans ?_ (Cert.ReferenceIdeal.RefValue.out_apply x0 x1 x2 x3 x4 x5 x6 x7 (fun p => ⟨s p, (hs p).1⟩)
      (fun p => ⟨d p, (hd p).1⟩) (fun p => (hs p).2) (fun p => (hd p).2) v).symm
  exact GcnSpec.out_eq _ _ _ _ _ _ _ _ _ _ (fun _ => h0 _) (fun _ => h2 _) (fun _ => h3 _) (fun _ _ => h4 _) v

end Cert.Bridge

end
-- ==== Proof.lean ====
/-
  The certificate: a two-layer graph convolution with a linear head on 100000 nodes and 1700000 edges (the 1600000 given
  ones and a self-loop per node), computed by a kernel that factors the edge weight `δ(src)·δ(dst)` into a scale at
  each end, pads its node tables to 102400 rows and runs its two dense stages as kernel launches, against the textbook
  arrangement on the host.

  * The three frames: the two kernels' are the generated frame proofs; the reference, a host program, runs by its
    operations' composition.
  * `preserves`: the idealized kernel is the kernel's own text read on the extended reals; there is nothing to state.
  * `algebraic`: under the precondition — every float input a real number, every entry of the edge array a node id in
    `[0, 100000)` — both programs end with the same array.  The kernel's result is the fold of its host operations and
    its two launches' outputs; each is read entry by entry and meets the factored arrangement; the reference meets the
    textbook arrangement; the two arrangements agree on real inputs because a real factor goes inside a finite sum.
-/
import proofs.«165254_j14748917694868_2_alg».proof.Defs
import proofs.«165254_j14748917694868_2_alg».proof.Proof.Gen.Kernel
import proofs.«165254_j14748917694868_2_alg».proof.Proof.Gen.Kernel.Skeleton
import proofs.«165254_j14748917694868_2_alg».proof.Proof.Gen.Kernel.Launch
import proofs.«165254_j14748917694868_2_alg».proof.Proof.Gen.Kernel.Points
import proofs.«165254_j14748917694868_2_alg».proof.Proof.Gen.Kernel.Frame
import proofs.«165254_j14748917694868_2_alg».proof.Proof.Gen.KernelIdeal
import proofs.«165254_j14748917694868_2_alg».proof.Proof.Gen.KernelIdeal.Skeleton
import proofs.«165254_j14748917694868_2_alg».proof.Proof.Gen.KernelIdeal.Launch
import proofs.«165254_j14748917694868_2_alg».proof.Proof.Gen.KernelIdeal.Points
import proofs.«165254_j14748917694868_2_alg».proof.Proof.Gen.KernelIdeal.Frame
import proofs.«165254_j14748917694868_2_alg».proof.Proof.Gen.ReferenceIdeal
import proofs.«165254_j14748917694868_2_alg».proof.Proof.RefRun
import proofs.«165254_j14748917694868_2_alg».proof.Proof.RefRead
import proofs.«165254_j14748917694868_2_alg».proof.Proof.Gen.Pre_finite_inputs
import proofs.«165254_j14748917694868_2_alg».proof.Proof.KernelRun
import proofs.«165254_j14748917694868_2_alg».proof.Proof.KernelFold
import proofs.«165254_j14748917694868_2_alg».proof.Proof.RegionCover
import proofs.«165254_j14748917694868_2_alg».proof.Proof.Bridge
import Idealize.ShloMosaic.Adequacy
import Idealize.ShloMosaic.Init

noncomputable section

namespace Cert.Proof

open Idealize.ShloMosaic Idealize.SL.Sem

/-- The word-level kernel runs to its end, nothing faulting, and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a host program: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs, from memories agreeing on the arguments, end with the same array: the kernel's run ends at the
    fold of its host operations and launches, which is the factored arrangement; the reference's at its operations'
    composition, which is the textbook one; under the precondition the two are equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Term.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.RunValue.result_eq m ρ c Cert.KernelIdeal.Cover.arr0 Cert.KernelIdeal.Cover.arr1), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v70_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact (Cert.Bridge.terms_eq _ _ _ _ _ _ _ _ (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
